-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg8 : FVec F S1024x1024 .f32) (main_arg9 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_v33

def fn {F : FTy → Type} [FloatOps F] (main_arg0 : FVec F S4x2048x1024 .f32) (main_arg1 : IVec S4x2048x2048 1) (main_arg2 : FVec F S1024x1024 .f32) (main_arg3 : FVec F S1024 .f32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_v13 main_v16
-- ==== Kernel.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S8192x1024 : Shape := ⟨2, ![8192, 1024]⟩
abbrev S1024x3072 : Shape := ⟨2, ![1024, 3072]⟩
abbrev S3072 : Shape := ⟨1, ![3072]⟩
abbrev S1x3072 : Shape := ⟨2, ![1, 3072]⟩
abbrev S8192x3072 : Shape := ⟨2, ![8192, 3072]⟩
abbrev S512x1024 : Shape := ⟨2, ![512, 1024]⟩
abbrev S512x3072 : Shape := ⟨2, ![512, 3072]⟩
abbrev S4x2048x3072 : Shape := ⟨3, ![4, 2048, 3072]⟩
abbrev S1x1024 : Shape := ⟨2, ![1, 1024]⟩
abbrev S1x512x1024 : Shape := ⟨3, ![1, 512, 1024]⟩
abbrev S1x1024x1024 : Shape := ⟨3, ![1, 1024, 1024]⟩
abbrev S512x1 : Shape := ⟨2, ![512, 1]⟩
abbrev S512 : Shape := ⟨1, ![512]⟩

abbrev nBuf : Space → Nat
  | .hbm => 21
  | .vmem => 21
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .i1⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S8192x1024, .f32⟩
  | .hbm, ⟨11, _⟩ => ⟨S1024x3072, .f32⟩
  | .hbm, ⟨12, _⟩ => ⟨S1024x3072, .bf16⟩
  | .hbm, ⟨13, _⟩ => ⟨S3072, .f32⟩
  | .hbm, ⟨14, _⟩ => ⟨S1x3072, .f32⟩
  | .hbm, ⟨15, _⟩ => ⟨S8192x3072, .bf16⟩
  | .hbm, ⟨16, _⟩ => ⟨S4x2048x3072, .bf16⟩
  | .hbm, ⟨17, _⟩ => ⟨S1024x1024, .bf16⟩
  | .hbm, ⟨18, _⟩ => ⟨S1x1024, .f32⟩
  | .hbm, ⟨19, _⟩ => ⟨S4x2048x2048, .i32⟩
  | .hbm, ⟨20, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1024x1024, .bf16⟩
  | .local _ .vmem, ⟨9, _⟩ => ⟨S1x1024x1024, .bf16⟩
  | .local _ .vmem, ⟨10, _⟩ => ⟨S1x1024x1024, .bf16⟩
  | .local _ .vmem, ⟨11, _⟩ => ⟨S1x1024x1024, .bf16⟩
  | .local _ .vmem, ⟨12, _⟩ => ⟨S1x512x1024, .i32⟩
  | .local _ .vmem, ⟨13, _⟩ => ⟨S1x512x1024, .i32⟩
  | .local _ .vmem, ⟨14, _⟩ => ⟨S1024x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S512x1, .f32⟩
  | .local _ .vmem, ⟨19, _⟩ => ⟨S512x1, .f32⟩
  | .local _ .vmem, ⟨20, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 4, 2], ![false, false, false]⟩

def k1_cond2 (i : grid1.Coords) : BitVec 1 :=
  let arg2 : BitVec 32 := BitVec.ofNat 32 (i 2).val
  let c1_i32 : BitVec 32 := 1#32
  let v46 : BitVec 1 := Scalar.cmpi .eq arg2 c1_i32
  let v47 : BitVec 32 := Scalar.extui v46
  let c0_i32_30 : BitVec 32 := 0#32
  let v48 : BitVec 1 := Scalar.cmpi .ne v47 c0_i32_30
  v48

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg2.toNat, c1_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg2.toNat, c2_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x512x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 1 → Memref sig .tc .vmem S1024x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S1x512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

class Facts₀ : Prop where
  shapeCasts_S4x2048x1024_S8192x1024 : S4x2048x1024.ShapeCasts S8192x1024
  concatenates_S1024x1024_S1024x1024_S1024x1024_S1024x3072_d1 : Shape.Concatenates [S1024x1024, S1024x1024, S1024x1024] S1024x3072 1
  bitsLt_bf16_f32 : FTy.bits .bf16 < FTy.bits .f32
  concatenates_S1024_S1024_S1024_S3072_d0 : Shape.Concatenates [S1024, S1024, S1024] S3072 0
  shapeCasts_S3072_S1x3072 : S3072.ShapeCasts S1x3072
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S8192x3072_S4x2048x3072 : S8192x3072.ShapeCasts S4x2048x3072
  shapeCasts_S1024_S1x1024 : S1024.ShapeCasts S1x1024
  natLt_1_32 : 1 < 32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  reduces_S512x1024_S512 : S512x1024.Reduces [1] S512
  shapeCasts_S512_S512x1 : S512.ShapeCasts S512x1
  broadcasts_S512x1_S512x1024 : S512x1.Broadcasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S1x512x1024 : S512x1024.ShapeCasts S1x512x1024
  dot_S512x1024_S1024x3072_S512x3072_1_0_0_1_n_n_wf : DotDims.WF S512x1024 S1024x3072 S512x3072 [1] [0] [0] [1] [] []
  dot_S512x1024_S1024x1024_S512x1024_1_1_0_0_n_n_wf : DotDims.WF S512x1024 S1024x1024 S512x1024 [1] [1] [0] [0] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S8192x3072.size a
  hwx0_3 : ∀ i : grid0.Coords, EltTy.bits .bf16 = 32 ∨ (Rect.block (s := S8192x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S4x2048x3072.size a
  hwx1_0 : ∀ i : grid1.Coords, EltTy.bits .bf16 = 32 ∨ (Rect.block (s := S4x2048x3072) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S4x2048x3072.size a
  hwx1_1 : ∀ i : grid1.Coords, EltTy.bits .bf16 = 32 ∨ (Rect.block (s := S4x2048x3072) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S4x2048x3072.size a
  hwx1_2 : ∀ i : grid1.Coords, EltTy.bits .bf16 = 32 ∨ (Rect.block (s := S4x2048x3072) S1x1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x1024.size a ≤ S4x2048x2048.size a
  hwx1_3 : ∀ i : grid1.Coords, EltTy.bits .i32 = 32 ∨ (Rect.block (s := S4x2048x2048) S1x512x1024.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1024x1024.size a ≤ S1024x1024.size a
  hwx1_4 : ∀ i : grid1.Coords, EltTy.bits .bf16 = 32 ∨ (Rect.block (s := S1024x1024) S1024x1024.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x512x1024.size a ≤ S4x2048x1024.size a
  hwx1_6 : ∀ i : grid1.Coords, EltTy.bits .f32 = 32 ∨ (Rect.block (s := S4x2048x1024) S1x512x1024.size (cc1_transform_6 i) (hinb1_6 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v9) S1x512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x512x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S4x2048x2048 : Shape := ⟨3, ![4, 2048, 2048]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x2048, .i1⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S4x2048x1024, .f32⟩
  | .hbm, ⟨11, _⟩ => ⟨S1x1x1024, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | .hbm, ⟨15, _⟩ => ⟨S1x1x1024, .f32⟩
  | .hbm, ⟨16, _⟩ => ⟨S4x2048x1024, .f32⟩
  | .hbm, ⟨17, _⟩ => ⟨S4x2048x1024, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x2048, .f32⟩
  | .hbm, ⟨23, _⟩ => ⟨S_, .f32⟩
  | .hbm, ⟨24, _⟩ => ⟨S_, .f32⟩
  | .hbm, ⟨25, _⟩ => ⟨S4x2048x2048, .f32⟩
  | .hbm, ⟨26, _⟩ => ⟨S4x2048x2048, .f32⟩
  | .hbm, ⟨27, _⟩ => ⟨S_, .f32⟩
  | .hbm, ⟨28, _⟩ => ⟨S4x2048x2048, .f32⟩
  | .hbm, ⟨29, _⟩ => ⟨S4x2048x2048, .f32⟩
  | .hbm, ⟨30, _⟩ => ⟨S_, .f32⟩
  | .hbm, ⟨31, _⟩ => ⟨S4x2048, .f32⟩
  | .hbm, ⟨32, _⟩ => ⟨S_, .f32⟩
  | .hbm, ⟨33, _⟩ => ⟨S4x2048, .f32⟩
  | .hbm, ⟨34, _⟩ => ⟨S4x2048, .f32⟩
  | .hbm, ⟨35, _⟩ => ⟨S4x2048x1, .f32⟩
  | .hbm, ⟨36, _⟩ => ⟨S4x2048x2048, .f32⟩
  | .hbm, ⟨37, _⟩ => ⟨S4x2048x2048, .f32⟩
  | .hbm, ⟨38, _⟩ => ⟨S4x2048x2048, .f32⟩
  | .hbm, ⟨39, _⟩ => ⟨S_, .f32⟩
  | .hbm, ⟨40, _⟩ => ⟨S4x2048, .f32⟩
  | .hbm, ⟨41, _⟩ => ⟨S4x2048x1, .f32⟩
  | .hbm, ⟨42, _⟩ => ⟨S4x2048x2048, .f32⟩
  | .hbm, ⟨43, _⟩ => ⟨S4x2048x2048, .f32⟩
  | .hbm, ⟨44, _⟩ => ⟨S4x2048x1024, .f32⟩
  | .hbm, ⟨45, _⟩ => ⟨S4x2048x1024, .f32⟩
  | .hbm, ⟨46, _⟩ => ⟨S1x1x1024, .f32⟩
  | .hbm, ⟨47, _⟩ => ⟨S4x2048x1024, .f32⟩
  | .hbm, ⟨48, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_0 : Ref sig .tc := ⟨.hbm, 27, rfl⟩
abbrev main_call0_v0 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.Reg0B.lean ====
/-
  The projection region (the first kernel launch): its proof data and body obligation.

  Grid point `t` of 16 takes rows `512·t … 512·t+511` of the flattened input (window 0), the whole concatenated
  weight matrix (window 1) and the whole concatenated bias row (window 2), and stores `x·W + b` into the
  corresponding 512 × 3072 block of the result (window 3).  The body has one control path: three whole-buffer
  loads, one whole-buffer store.  Stated at a parameter `V`, the contents of the core's buffers when the region is
  entered, and for any float instance.
-/
import proofs.«100896_j48627619725380_2_alg».proof.Proof.Gen.Kernel.Launch
import proofs.«100896_j48627619725380_2_alg».proof.Proof.Gen.Kernel.Skeleton
import proofs.«100896_j48627619725380_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: an unfetched
    point has the block index of the point before it, and the body leaves the block in place. -/
theorem before_in_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0
abbrev rO : Rect S512x3072 := Rect.unit (s := S512x3072) ![0, 0] S512x3072.size inb_S512x3072_S512x3072_0_0

/-- What the body leaves in the result window's staging buffer: its one whole-buffer store, of `x·W + b`. -/
def out3 (x : Vec F S512x1024 .f32) (w : Vec F S1024x3072 .bf16) (b : Vec F S1x3072 .f32) : Vec F S512x3072 .bf16 :=
  View.canon [⟨rO, k0_pay1 (View.ld x rX) (View.ld w rW) (View.ld b rB)⟩]

/-- The store covers the buffer. -/
theorem cover3 (p0 : Vec F S512x3072 .bf16) (y : S512x3072.Idx) :
    ∃ pc ∈ ([⟨rO, p0⟩] : List (View.Piece (Elt F) S512x3072 .bf16)), y ∈ pc.1.set :=
  View.cover_of_tiled [⟨rO, p0⟩] S512x3072.size (by rfl) y

/-! ## The body's triple -/

set_option maxHeartbeats 1000000 in
/-- The kernel body on whole staging memrefs, the inputs' at read contents and the output's at anything, runs to
    the continuation holding the inputs' as they were and the output's at `out3` of the inputs'. -/
theorem sound_kernel (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x : Vec F S512x1024 .f32) (w : Vec F S1024x3072 .bf16) (b : Vec F S1x3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out3 x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-! ## The proof data -/

/-- The region's proof data on core `c`: the arrays as the region finds them; after the body at point `t` each
    input's buffer at its block and the output's at `out3` of the input blocks; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out3 (iblk V c 0 t) (iblk V c 1 t) (iblk V c 2 t) := by dsimp only [dat]

theorem before_0 (c : Dev nD) (t : Fin cfg0.N) (d) : (dat V c).before 0 t d = iblk V c 0 t :=
  before_in_of_0 V (dat V c) (A_eq V c 0) (after_0 V c) t d
theorem before_1 (c : Dev nD) (t : Fin cfg0.N) (d) : (dat V c).before 1 t d = iblk V c 1 t :=
  before_in_of_1 V (dat V c) (A_eq V c 1) (after_1 V c) t d
theorem before_2 (c : Dev nD) (t : Fin cfg0.N) (d) : (dat V c).before 2 t d = iblk V c 2 t :=
  before_in_of_2 V (dat V c) (A_eq V c 2) (after_2 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.Kernel.Reg0

end
-- ==== Proof.Reg1RunsB.lean ====
/-
  The attention region (the second kernel launch): what its runs share, and the body's run in each of its two cases.

  The grid is 4 batches × 4 query tiles × 2 key/value tiles; point `t` has key/value coordinate `t mod 2`.  The body
  resets its three scratch buffers (row maxima, row sums, unnormalised context) exactly at the points with key/value
  coordinate 0, and normalises, projects and stores its output block exactly at those with coordinate 1; at the
  former the output window's staging buffer is left as found and is not written back.  So there are two control
  cases, and in each the body is run once, symbolically: every buffer it stores into ends at a list of pieces written
  over what it held, the lists being what the run finds.
-/
import proofs.«100896_j48627619725380_2_alg».proof.Proof.Gen.Kernel.Launch
import proofs.«100896_j48627619725380_2_alg».proof.Proof.Gen.Kernel.Skeleton
import proofs.«100896_j48627619725380_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's two conditions -/

/-- The reset condition (key/value coordinate 0), as the body computes it. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 2 = 0 :=
  (by decide +kernel : ∀ t : Fin grid1.N, cond0 (grid1.coords t) ↔ t.val % 2 = 0)

/-- The closing condition (key/value coordinate 1). -/
abbrev cond1 (i : grid1.Coords) : Prop := k1_cond2 i = 1#1
theorem hcond1 : ∀ t : Fin cfg1.N, cond1 (grid1.coords t) ↔ t.val % 2 = 1 :=
  (by decide +kernel : ∀ t : Fin grid1.N, cond1 (grid1.coords t) ↔ t.val % 2 = 1)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
theorem liveAt_5 : ∀ t : Fin cfg1.N, cfg1.idle 5 (grid1.coords t) = false := by decide +kernel
/-- At the first of a pair of points the output window is idle and not written back; at the second it is live. -/
theorem idleAt_6 : ∀ t : Fin cfg1.N, ¬cond1 (grid1.coords t) → cfg1.idle 6 (grid1.coords t) = true := by decide +kernel
theorem noFlush_6 : ∀ t : Fin cfg1.N, ¬cond1 (grid1.coords t) → (cfg1.win 6).flush t = false := by decide +kernel
theorem liveAt_6 : ∀ t : Fin cfg1.N, cond1 (grid1.coords t) → cfg1.idle 6 (grid1.coords t) = false := by decide +kernel

/-! ## The memrefs the body is called with -/

abbrev ms0 (t : Fin cfg1.N) : Memref sig .tc .vmem S1x512x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1024 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1024 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x512x1024 .f32 := win1_6.stage (cfg1.slots t 6)
abbrev hs6 (t : Fin cfg1.N) : (ms6 t).IsWhole := hstage1_6 ((cfg1.slots t 6).cast nbuf1_6)
/-- The three scratch buffers: the row maxima, the row sums, the unnormalised context. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev VM : View sig .tc .vmem S512x1 .f32 := scM.view
abbrev VL : View sig .tc .vmem S512x1 .f32 := scL.view
abbrev VA : View sig .tc .vmem S512x1024 .f32 := scA.view
/-- One staging buffer of the output window, through which its contents are stated. -/
abbrev VO : View sig .tc .vmem S1x512x1024 .f32 := (Memref.whole cc1_stg6_0 : Memref sig .tc .vmem S1x512x1024 .f32).view

/-- The other scoped buffers of the core that this region does not stage: the first region's staging buffers. -/
abbrev otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's plain invariant with the three scratch buffers as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-! ## The body's run, first key/value point of a pair -/

set_option maxHeartbeats 4000000 in
/-- At a point with key/value coordinate 0 (reset taken, closing step not): on whole memrefs, the six inputs' at their
    contents, the output's at contents handed back untouched, the scratch buffers at anything, the body runs to the
    continuation holding the inputs' and the output's as they were and each scratch buffer with its pieces written. -/
noncomputable def kernelRunA (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0 i) (hc1 : ¬cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) :
    Σ' (LS0 : List (View.Piece (Elt F) S512x1 .f32)) (LS1 : List (View.Piece (Elt F) S512x1 .f32)), { LS2 : List (View.Piece (Elt F) S512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    haveI : Fact (cond0 i) := ⟨hc0⟩
    haveI : Fact (¬cond1 i) := ⟨hc1⟩
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

/-! ## The body's run, second key/value point of a pair -/

set_option maxHeartbeats 4000000 in
/-- At a point with key/value coordinate 1 (no reset, closing step taken): on whole memrefs, the six inputs' at their
    contents, the scratch buffers at the contents `xs·` the point before left, the output's at anything, the body runs to
    the continuation holding the inputs' as they were and the output's and each scratch buffer with its pieces written. -/
noncomputable def kernelRunB (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) :
    Σ' (L6 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    haveI : Fact (¬cond0 i) := ⟨hc0⟩
    haveI : Fact (cond1 i) := ⟨hc1⟩
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.Kernel.Reg1

end
-- ==== Proof.Reg1B.lean ====
/-
  The attention region: its proof data and body obligation.

  Points come in pairs (one per key/value tile of a batch's query tile).  What the scratch buffers hold after the
  first point of a pair depends on that point's blocks only (the body resets them first); what they and the output
  window's staging buffer hold after the second depends on the second point's blocks and on what the first left.
  The invariant between points names the scratch contents after every point; the output window is idle at first
  points.  The three windows onto the packed query/key/value array hold it at three disjoint shares.
-/
import proofs.«100896_j48627619725380_2_alg».proof.Proof.Reg1RunsB
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched
    point has the block index of the point before it, and the body leaves the block in place. -/
theorem before_in_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The parity of a point decides its case -/

theorem c0_of_even (t : Fin cfg1.N) (h : t.val % 2 = 0) : cond0 (grid1.coords t) := (hcond0 t).mpr h
theorem nc1_of_even (t : Fin cfg1.N) (h : t.val % 2 = 0) : ¬cond1 (grid1.coords t) := fun h' => by have := (hcond1 t).mp h'; omega
theorem nc0_of_odd (t : Fin cfg1.N) (h : ¬t.val % 2 = 0) : ¬cond0 (grid1.coords t) := fun h' => h ((hcond0 t).mp h')
theorem c1_of_odd (t : Fin cfg1.N) (h : ¬t.val % 2 = 0) : cond1 (grid1.coords t) := (hcond1 t).mpr (by omega)

/-- The point before `t`. -/
def pred (t : Fin cfg1.N) : Fin cfg1.N := ⟨t.val - 1, Nat.lt_of_le_of_lt (Nat.sub_le _ _) t.isLt⟩
theorem pred_even (t : Fin cfg1.N) (h : ¬t.val % 2 = 0) : (pred t).val % 2 = 0 := by
  show (t.val - 1) % 2 = 0; omega

/-! ## The pieces each case's run leaves cover their buffers -/

theorem scoverA_M (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0 i) (hc1 : ¬cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (y : S512x1.Idx) :
    ∃ pc ∈ (kernelRunA (F := F) c i arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRunA (F := F) c i arg3 harg3 arg4 harg4 arg5 harg5 arg6 harg6 arg7 harg7 arg8 harg8 arg9 harg9 arg10 harg10 arg11 harg11 arg12 harg12 hc0 hc1 x0 x1 x2 x3 x4 x5).1 S512x1.size (by sl_kernel_rfl) y
theorem scoverA_L (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0 i) (hc1 : ¬cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (y : S512x1.Idx) :
    ∃ pc ∈ (kernelRunA (F := F) c i arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRunA (F := F) c i arg3 harg3 arg4 harg4 arg5 harg5 arg6 harg6 arg7 harg7 arg8 harg8 arg9 harg9 arg10 harg10 arg11 harg11 arg12 harg12 hc0 hc1 x0 x1 x2 x3 x4 x5).2.1 S512x1.size (by sl_kernel_rfl) y
theorem scoverA_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0 i) (hc1 : ¬cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (y : S512x1024.Idx) :
    ∃ pc ∈ (kernelRunA (F := F) c i arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRunA (F := F) c i arg3 harg3 arg4 harg4 arg5 harg5 arg6 harg6 arg7 harg7 arg8 harg8 arg9 harg9 arg10 harg10 arg11 harg11 arg12 harg12 hc0 hc1 x0 x1 x2 x3 x4 x5).2.2.1 S512x1024.size (by sl_kernel_rfl) y

theorem scoverB_O (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) (y : S1x512x1024.Idx) :
    ∃ pc ∈ (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).1, y ∈ pc.1.set :=
  View.cover_of_tiledL (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).1 S1x512x1024.size (by sl_kernel_rfl) y
theorem scoverB_M (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) (y : S512x1.Idx) :
    ∃ pc ∈ (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S512x1.size (by sl_kernel_rfl) y
theorem scoverB_L (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) (y : S512x1.Idx) :
    ∃ pc ∈ (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S512x1.size (by sl_kernel_rfl) y
theorem scoverB_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) (y : S512x1024.Idx) :
    ∃ pc ∈ (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S512x1024.size (by sl_kernel_rfl) y

/-! ## What the scratch buffers and the output buffer hold after each point -/

/-- After a first point of a pair: the three scratch buffers, each at its pieces read back. -/
def sA (c : Dev nD) (t : Fin cfg1.N) (h : t.val % 2 = 0) : Vec F S512x1 .f32 × Vec F S512x1 .f32 × Vec F S512x1024 .f32 :=
  (VM.read (Elt F) (VM.writes (Elt F) VM.junk (kernelRunA (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t)).1),
   VL.read (Elt F) (VL.writes (Elt F) VL.junk (kernelRunA (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t)).2.1),
   VA.read (Elt F) (VA.writes (Elt F) VA.junk (kernelRunA (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t)).2.2.1))

/-- After a second point of a pair: the output buffer and the three scratch buffers, each at its pieces read back, the run
    started from what the first point left. -/
def sB (c : Dev nD) (t : Fin cfg1.N) (h : ¬t.val % 2 = 0) : Vec F S1x512x1024 .f32 × Vec F S512x1 .f32 × Vec F S512x1 .f32 × Vec F S512x1024 .f32 :=
  (VO.read (Elt F) (VO.writes (Elt F) VO.junk (kernelRunB (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (nc0_of_odd t h) (c1_of_odd t h) (iblk V c 0 t) (iblk V c 1 t) (iblk V c 2 t) (iblk V c 3 t) (iblk V c 4 t) (iblk V c 5 t) (sA V c (pred t) (pred_even t h)).1 (sA V c (pred t) (pred_even t h)).2.1 (sA V c (pred t) (pred_even t h)).2.2).1),
   VM.read (Elt F) (VM.writes (Elt F) VM.junk (kernelRunB (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (nc0_of_odd t h) (c1_of_odd t h) (iblk V c 0 t) (iblk V c 1 t) (iblk V c 2 t) (iblk V c 3 t) (iblk V c 4 t) (iblk V c 5 t) (sA V c (pred t) (pred_even t h)).1 (sA V c (pred t) (pred_even t h)).2.1 (sA V c (pred t) (pred_even t h)).2.2).2.1),
   VL.read (Elt F) (VL.writes (Elt F) VL.junk (kernelRunB (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (nc0_of_odd t h) (c1_of_odd t h) (iblk V c 0 t) (iblk V c 1 t) (iblk V c 2 t) (iblk V c 3 t) (iblk V c 4 t) (iblk V c 5 t) (sA V c (pred t) (pred_even t h)).1 (sA V c (pred t) (pred_even t h)).2.1 (sA V c (pred t) (pred_even t h)).2.2).2.2.1),
   VA.read (Elt F) (VA.writes (Elt F) VA.junk (kernelRunB (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (nc0_of_odd t h) (c1_of_odd t h) (iblk V c 0 t) (iblk V c 1 t) (iblk V c 2 t) (iblk V c 3 t) (iblk V c 4 t) (iblk V c 5 t) (sA V c (pred t) (pred_even t h)).1 (sA V c (pred t) (pred_even t h)).2.1 (sA V c (pred t) (pred_even t h)).2.2).2.2.2.1))

/-- The scratch buffers after point `t`. -/
def scrAfter (c : Dev nD) (t : Fin cfg1.N) : Vec F S512x1 .f32 × Vec F S512x1 .f32 × Vec F S512x1024 .f32 :=
  if h : t.val % 2 = 0 then sA V c t h else (sB V c t h).2

/-- The output window's staging buffer after point `t`: at a second point what the closing step stored; at a first
    point nothing is stated (the window is idle there and not written back). -/
def outAfter (c : Dev nD) (t : Fin cfg1.N) : Vec F S1x512x1024 .f32 :=
  if h : t.val % 2 = 0 then VO.read (Elt F) (VO.writes (Elt F) VO.junk []) else (sB V c t h).1

theorem scrAfter_even (c : Dev nD) (t : Fin cfg1.N) (h : t.val % 2 = 0) : scrAfter V c t = sA V c t h := dif_pos h
theorem scrAfter_odd (c : Dev nD) (t : Fin cfg1.N) (h : ¬t.val % 2 = 0) : scrAfter V c t = (sB V c t h).2 := dif_neg h
theorem outAfter_odd (c : Dev nD) (t : Fin cfg1.N) (h : ¬t.val % 2 = 0) : outAfter V c t = (sB V c t h).1 := dif_neg h

/-! ## The invariant between points -/

/-- Before position `n`: at the start the plain invariant (every scoped buffer the region does not stage at anything, the
    generator register); afterwards the same with the three scratch buffers at what the point before left. -/
def PhiS (c : Dev nD) : (n : ℕ) → n ≤ cfg1.N → sProp 𝕄
  | 0, _ => Pipeline.ΦA spec1 c
  | n + 1, hn => iprop(iprop(otherScoped (F := F) c ∗ owns (c : Thread nD τ) scM fullShare (scrAfter V c ⟨n, hn⟩).1 ∗ owns (c : Thread nD τ) scL fullShare (scrAfter V c ⟨n, hn⟩).2.1 ∗ owns (c : Thread nD τ) scA fullShare (scrAfter V c ⟨n, hn⟩).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(otherScoped (F := F) c ∗ owns (c : Thread nD τ) scM fullShare (scrAfter V c ⟨n, hn⟩).1 ∗ owns (c : Thread nD τ) scL fullShare (scrAfter V c ⟨n, hn⟩).2.1 ∗ owns (c : Thread nD τ) scA fullShare (scrAfter V c ⟨n, hn⟩).2.2) ∗ (∃ r, prngReg c r)) := rfl

theorem PhiS_pos (c : Dev nD) (t : Fin cfg1.N) (hz : t.val ≠ 0) :
    PhiS V c t.val (Nat.le_of_lt t.isLt) = iprop(iprop(otherScoped (F := F) c ∗ owns (c : Thread nD τ) scM fullShare (scrAfter V c (pred t)).1 ∗ owns (c : Thread nD τ) scL fullShare (scrAfter V c (pred t)).2.1 ∗ owns (c : Thread nD τ) scA fullShare (scrAfter V c (pred t)).2.2) ∗ (∃ r, prngReg c r)) := by
  obtain ⟨n, hn⟩ := t
  cases n with
  | zero => exact absurd rfl hz
  | succ n => rfl

/-! ## The proof data -/

/-- The region's proof data on core `c`: the arrays as the region finds them; after the body each input's buffer at its
    block and the output's at `outAfter`; the invariant `PhiS`; the packed query/key/value array held by its three windows at
    three disjoint shares, every other input at the full share; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAfter V c t
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outAfter V c t := by dsimp only [dat]

theorem before_0 (c : Dev nD) (t : Fin cfg1.N) (d) : (dat V c).before 0 t d = iblk V c 0 t :=
  before_in_of_0 V (dat V c) (A_eq V c 0) (after_0 V c) t d
theorem before_1 (c : Dev nD) (t : Fin cfg1.N) (d) : (dat V c).before 1 t d = iblk V c 1 t :=
  before_in_of_1 V (dat V c) (A_eq V c 1) (after_1 V c) t d
theorem before_2 (c : Dev nD) (t : Fin cfg1.N) (d) : (dat V c).before 2 t d = iblk V c 2 t :=
  before_in_of_2 V (dat V c) (A_eq V c 2) (after_2 V c) t d
theorem before_3 (c : Dev nD) (t : Fin cfg1.N) (d) : (dat V c).before 3 t d = iblk V c 3 t :=
  before_in_of_3 V (dat V c) (A_eq V c 3) (after_3 V c) t d
theorem before_4 (c : Dev nD) (t : Fin cfg1.N) (d) : (dat V c).before 4 t d = iblk V c 4 t :=
  before_in_of_4 V (dat V c) (A_eq V c 4) (after_4 V c) t d
theorem before_5 (c : Dev nD) (t : Fin cfg1.N) (d) : (dat V c).before 5 t d = iblk V c 5 t :=
  before_in_of_5 V (dat V c) (A_eq V c 5) (after_5 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- The body at any point.  The inputs' memrefs hold their blocks; the point's parity says which case it is in.  At a first
    point the scratch buffers are handed over at anything and come back at the reset run's pieces, the output buffer is
    handed back as found; at a second point the scratch buffers are handed over at what the first point left and come back,
    with the output buffer, at the closing run's pieces.  The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  rw [show (dat V c).leavesExact 3 t = owns (c : Thread nD τ) (ms3 t) fullShare ((dat V c).after 3 t) from by
    unfold Dat.leavesExact; rw [liveAt_3 t], after_3]
  rw [show (dat V c).leavesExact 4 t = owns (c : Thread nD τ) (ms4 t) fullShare ((dat V c).after 4 t) from by
    unfold Dat.leavesExact; rw [liveAt_4 t], after_4]
  rw [show (dat V c).leavesExact 5 t = owns (c : Thread nD τ) (ms5 t) fullShare ((dat V c).after 5 t) from by
    unfold Dat.leavesExact; rw [liveAt_5 t], after_5]
  by_cases h0 : t.val % 2 = 0
  · rw [Dat.leavesExact_idle (dat V c) 6 t (idleAt_6 t (nc1_of_even t h0)) (noFlush_6 t (nc1_of_even t h0))]
    rw [scrAfter_even V c t h0]
    unfold sA; (try dsimp only)
    by_cases hz : t.val = 0
    · rw [PhiS_castSucc V c t, PhiS_zero V c _ _ hz, PhiA_eq]
      iintro ⟨⟨⟨Hr1, Hr2, Hr3, Hr4, Hr5, Hr6, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA (F := F) c (grid1.coords t) _ _ _ _ _ _ _ _ _ _ _ _ _ _ _ _ _ _ _ _ (c0_of_even t h0) (nc1_of_even t h0) (iblk V c 0 t) (iblk V c 1 t) (iblk V c 2 t) (iblk V c 3 t) (iblk V c 4 t) (iblk V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hr1 Hr2 Hr3 Hr4 Hr5 Hr6 HS0 HS1 HS2 Hg]
      · isplitl [Hr1 Hr2 Hr3 Hr4 Hr5 Hr6 HS0 HS1 HS2]
        · isplitl [Hr1 Hr2 Hr3 Hr4 Hr5 Hr6]
          · isplitl [Hr1]; · iexact Hr1
            isplitl [Hr2]; · iexact Hr2
            isplitl [Hr3]; · iexact Hr3
            isplitl [Hr4]; · iexact Hr4
            isplitl [Hr5]; · iexact Hr5
            iexact Hr6
          isplitl [HS0]
          · unfold owns; iexists _; isplitr
            swap; · iexact HS0
            ipureintro; exact View.read_writes_of_cover _ _ _ _ _ (scoverA_M c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_L c _ _ _ _ _ _ _ _ _ _ _ _ _ _ _ _ _ _ _ _ _ _ _ _ _ _ _ _ _)
          unfold owns; iexists _; isplitr
          swap; · iexact HS2
          ipureintro; exact View.read_writes_of_cover _ _ _ _ _ (scoverA_A c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c t hz]
      iintro ⟨⟨⟨Hr, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA (F := F) c (grid1.coords t) _ _ _ _ _ _ _ _ _ _ _ _ _ _ _ _ _ _ _ _ (c0_of_even t h0) (nc1_of_even t h0) (iblk V c 0 t) (iblk V c 1 t) (iblk V c 2 t) (iblk V c 3 t) (iblk V c 4 t) (iblk V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [Hr HS0 HS1 HS2 Hg]
      · isplitl [Hr HS0 HS1 HS2]
        · isplitl [Hr]
          · iexact Hr
          isplitl [HS0]
          · unfold owns; iexists _; isplitr
            swap; · iexact HS0
            ipureintro; exact View.read_writes_of_cover _ _ _ _ _ (scoverA_M c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_L c _ _ _ _ _ _ _ _ _ _ _ _ _ _ _ _ _ _ _ _ _ _ _ _ _ _ _ _ _)
          unfold owns; iexists _; isplitr
          swap; · iexact HS2
          ipureintro; exact View.read_writes_of_cover _ _ _ _ _ (scoverA_A c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    rw [show (dat V c).leavesExact 6 t = owns (c : Thread nD τ) (ms6 t) fullShare ((dat V c).after 6 t) from by
      unfold Dat.leavesExact; rw [liveAt_6 t (c1_of_odd t h0)], after_6, outAfter_odd V c t h0]
    rw [scrAfter_odd V c t h0]
    rw [PhiS_castSucc V c t, PhiS_pos V c t hz, scrAfter_even V c (pred t) (pred_even t h0)]
    unfold sB; (try dsimp only)
    iintro ⟨⟨⟨Hr, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunB (F := F) c (grid1.coords t) _ _ _ _ _ _ _ _ _ _ _ _ _ _ _ _ _ _ _ _ (nc0_of_odd t h0) (c1_of_odd t h0) (iblk V c 0 t) (iblk V c 1 t) (iblk V c 2 t) (iblk V c 3 t) (iblk V c 4 t) (iblk V c 5 t) _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, ⟨%es0, HS0⟩, ⟨%es1, HS1⟩, ⟨%es2, HS2⟩⟩
    isplitl [Hr HS0 HS1 HS2 Hg]
    · isplitl [Hr HS0 HS1 HS2]
      · isplitl [Hr]
        · iexact Hr
        isplitl [HS0]
        · unfold owns; iexists _; isplitr
          swap; · iexact HS0
          ipureintro; exact View.read_writes_of_cover _ _ _ _ _ (scoverB_M c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverB_L c _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scoverB_A c _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (scoverB_O c _ _ _ _ _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

/-- What the region is handed at its start is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the plain one back: the scratch contents are forgotten. -/
theorem hout (c : Dev nD) : (dat V c).Φ (Fin.last cfg1.N) ⊢ Pipeline.ΦA spec1 c := by
  have hN : cfg1.N = 32 := N_1
  rw [show (dat V c).Φ (Fin.last cfg1.N) = PhiS V c cfg1.N (Nat.le_refl _) from rfl]
  rw [show PhiS V c cfg1.N (Nat.le_refl _) = PhiS V c (31 + 1) (by rw [hN]) from by congr 1 <;> simp [hN]]
  rw [PhiS_succ, PhiA_eq]
  iintro ⟨⟨⟨Hr1, Hr2, Hr3, Hr4, Hr5, Hr6⟩, HS0, HS1, HS2⟩, Hg⟩
  isplitr [Hg]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [HS0]; · iexists _; iexact HS0
    isplitl [HS1]; · iexists _; iexact HS1
    iexists _; iexact HS2
  iexact Hg

end Cert.Kernel.Reg1

end
-- ==== Proof.FramesB.lean ====
/-
  The run of the whole program: two host stretches and two kernel regions, in order.

  Between items each core holds every unscoped buffer whole at known contents: the launch memory, then each host
  stretch applied, then a region's result array replaced by what the region's write-backs leave (the first region's
  blocks of projected rows; the second's blocks of output rows).  Each region is entered from those contents and left at
  the next.  The second region's three windows onto the packed query/key/value array take three disjoint shares of it at
  entry and give them back, rejoined, at exit.  The run ends with every unscoped buffer at the last boundary's contents:
  the arguments as launched, the result array at what the second region leaves.  Stated for any float instance.
-/
import proofs.«100896_j48627619725380_2_alg».proof.Proof.Reg0B
import proofs.«100896_j48627619725380_2_alg».proof.Proof.Reg1B
import proofs.«100896_j48627619725380_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- The contents the first region is entered from, read at the TensorCore's references. -/
abbrev Vr1 : (c : Dev nD) → (b : Ref sig .tc) → Buf (Elt F) ((c : Thread nD τ).loc b) := fun c b => Gen.V1 m c b

/-- What the first region leaves in its result array. -/
def X5 (c : Dev nD) : Buf (Elt F) ((c : Thread nD τ).loc main_v5) := (Reg0.dat (Vr1 m) c).arrAt 3 cfg0.N

/-- The regions' results so far: the first region's. -/
def outsA : Gen.Outs (F := F) := fun _ r c =>
  if h : r = main_v5 then (by subst h; exact X5 m c) else m ((c : Thread nD τ).loc r)

theorem outsA_v5 (n : ℕ) (c : Dev nD) : outsA m n main_v5 c = X5 m c := by
  unfold outsA; rw [dif_pos rfl]

/-- The contents the second region is entered from. -/
abbrev Vr3 : (c : Dev nD) → (b : Ref sig .tc) → Buf (Elt F) ((c : Thread nD τ).loc b) := fun c b => Gen.V3 m (outsA m) c b

/-- What the second region leaves in its result array. -/
def X10 (c : Dev nD) : Buf (Elt F) ((c : Thread nD τ).loc main_v10) := (Reg1.dat (Vr3 m) c).arrAt 6 cfg1.N

/-- Both regions' results. -/
def outs : Gen.Outs (F := F) := fun n r c =>
  if h : r = main_v10 then (by subst h; exact X10 m c) else outsA m n r c

theorem outs_v10 (n : ℕ) (c : Dev nD) : outs m n main_v10 c = X10 m c := by
  unfold outs; rw [dif_pos rfl]
theorem outs_v5 (n : ℕ) (c : Dev nD) : outs m n main_v5 c = X5 m c := by
  unfold outs; rw [dif_neg (by decide), outsA_v5]

theorem V2_outs (c : Dev nD) : Gen.V2 m (outs m) c = Gen.V2 m (outsA m) c := by
  unfold Gen.V2; rw [outs_v5, outsA_v5]
theorem V3_outs (c : Dev nD) : Gen.V3 m (outs m) c = Gen.V3 m (outsA m) c := by
  unfold Gen.V3; rw [V2_outs]

abbrev Vr2 : (c : Dev nD) → (b : Ref sig .tc) → Buf (Elt F) ((c : Thread nD τ).loc b) := fun c b => Gen.V2 m (outs m) c b
abbrev Vr4 : (c : Dev nD) → (b : Ref sig .tc) → Buf (Elt F) ((c : Thread nD τ).loc b) := fun c b => Gen.V4 m (outs m) c b

theorem V2_v5 (c : Dev nD) : Gen.V2 m (outs m) c main_v5 = X5 m c := by
  unfold Gen.V2; rw [Function.update_self, outs_v5]
theorem V4_v10 (c : Dev nD) : Gen.V4 m (outs m) c main_v10 = X10 m c := by
  unfold Gen.V4; rw [Function.update_self, outs_v10]

/-! ## The proof data family and what rides along -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => Reg0.dat (Vr1 m) c
  | ⟨1, _⟩ => fun c => Reg1.dat (Vr3 m) c

abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c
abbrev Tₙ (c : Dev nD) : sProp 𝕄 := iprop(StableHlo.held (c : Thread nD τ) (Pipeline.ucRefs τ sig) (Gen.V4 m (outs m) c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region: its arrays at exit -/

theorem hF0 (c : Dev nD) (w : Fin cfg0.W) : (pdats m 0 c).arrAt w cfg0.N = Vr2 m c (Pipeline.arrRef spec0 w) := by
  match w with
  | ⟨0, _⟩ => exact ((Reg0.dat (Vr1 m) c).arrAt_in 0 rfl _).trans ((Reg0.A_eq (Vr1 m) c 0).trans (Gen.V2_of m (outs m) c main_v0 (by decide)).symm)
  | ⟨1, _⟩ => exact ((Reg0.dat (Vr1 m) c).arrAt_in 1 rfl _).trans ((Reg0.A_eq (Vr1 m) c 1).trans (Gen.V2_of m (outs m) c main_v2 (by decide)).symm)
  | ⟨2, _⟩ => exact ((Reg0.dat (Vr1 m) c).arrAt_in 2 rfl _).trans ((Reg0.A_eq (Vr1 m) c 2).trans (Gen.V2_of m (outs m) c main_v4 (by decide)).symm)
  | ⟨3, _⟩ => exact (V2_v5 m c).symm

theorem hrest0 (c : Dev nD) : ∀ b, b ∉ Finset.univ.image (Pipeline.arrRef spec0) → Vr2 m c b = Vr1 m c b :=
  fun b hb => Gen.V2_of m (outs m) c b fun h => hb (by
    rw [List.mem_singleton.mp h]; exact Finset.mem_image.mpr ⟨3, Finset.mem_univ _, rfl⟩)

/-! ## The second region: its arrays' buffers, dealt among the windows and collected again -/

/-- The five distinct buffers behind the second region's seven windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v6) ↦{fullShare} W main_v6) ∗ (((c : Thread nD τ).loc main_v9) ↦{fullShare} W main_v9) ∗ (((c : Thread nD τ).loc main_v7) ↦{fullShare} W main_v7) ∗ (((c : Thread nD τ).loc main_v8) ↦{fullShare} W main_v8) ∗ (((c : Thread nD τ).loc main_v10) ↦{fullShare} W main_v10)) := by
  unfold Pipeline.arrBufs
  exact bigSep_eq_bigSepL_of_eq [main_v6, main_v9, main_v7, main_v8, main_v10] (by decide) (by decide) _

/-- The share each of the second region's windows holds its array at. -/
theorem share_0 (V : (c : Dev nD) → (b : Ref sig .tc) → Buf (Elt F) ((c : Thread nD τ).loc b)) (c : Dev nD) : (Reg1.dat V c).share 0 = fullShare.left := by
  unfold Dat.share; rw [if_neg (by decide)]; rfl
theorem share_1 (V : (c : Dev nD) → (b : Ref sig .tc) → Buf (Elt F) ((c : Thread nD τ).loc b)) (c : Dev nD) : (Reg1.dat V c).share 1 = fullShare.right.left := by
  unfold Dat.share; rw [if_neg (by decide)]; rfl
theorem share_2 (V : (c : Dev nD) → (b : Ref sig .tc) → Buf (Elt F) ((c : Thread nD τ).loc b)) (c : Dev nD) : (Reg1.dat V c).share 2 = fullShare.right.right := by
  unfold Dat.share; rw [if_neg (by decide)]; rfl
theorem share_3 (V : (c : Dev nD) → (b : Ref sig .tc) → Buf (Elt F) ((c : Thread nD τ).loc b)) (c : Dev nD) : (Reg1.dat V c).share 3 = fullShare := by
  unfold Dat.share; rw [if_neg (by decide)]; rfl
theorem share_4 (V : (c : Dev nD) → (b : Ref sig .tc) → Buf (Elt F) ((c : Thread nD τ).loc b)) (c : Dev nD) : (Reg1.dat V c).share 4 = fullShare := by
  unfold Dat.share; rw [if_neg (by decide)]; rfl
theorem share_5 (V : (c : Dev nD) → (b : Ref sig .tc) → Buf (Elt F) ((c : Thread nD τ).loc b)) (c : Dev nD) : (Reg1.dat V c).share 5 = fullShare := by
  unfold Dat.share; rw [if_neg (by decide)]; rfl
theorem share_6 (V : (c : Dev nD) → (b : Ref sig .tc) → Buf (Elt F) ((c : Thread nD τ).loc b)) (c : Dev nD) : (Reg1.dat V c).share 6 = fullShare := by
  unfold Dat.share; rw [if_pos (by decide)]

/-- The second region's arrays, window by window, each at its share. -/
theorem arrays1_eq (V : (c : Dev nD) → (b : Ref sig .tc) → Buf (Elt F) ((c : Thread nD τ).loc b)) (c : Dev nD)
    (Fw : (w : Fin cfg1.W) → Buf (Elt F) ((cfg1.win w).arr.view.loc (c : Thread nD τ))) :
    ((Reg1.dat V c).arrays Fw : sProp 𝕄)
      = iprop((((cfg1.win 0).arr.view.loc (c : Thread nD τ)) ↦{fullShare.left} Fw 0) ∗ (((cfg1.win 1).arr.view.loc (c : Thread nD τ)) ↦{fullShare.right.left} Fw 1) ∗ (((cfg1.win 2).arr.view.loc (c : Thread nD τ)) ↦{fullShare.right.right} Fw 2) ∗ (((cfg1.win 3).arr.view.loc (c : Thread nD τ)) ↦{fullShare} Fw 3) ∗ (((cfg1.win 4).arr.view.loc (c : Thread nD τ)) ↦{fullShare} Fw 4) ∗ (((cfg1.win 5).arr.view.loc (c : Thread nD τ)) ↦{fullShare} Fw 5) ∗ (((cfg1.win 6).arr.view.loc (c : Thread nD τ)) ↦{fullShare} Fw 6)) := by
  unfold Dat.arrays
  rw [bigSep_W1, share_0, share_1, share_2, share_3, share_4, share_5, share_6,
    (Gen.arr_whole1 0).set_eq_univ, (Gen.arr_whole1 3).set_eq_univ,
    (Gen.arr_whole1 4).set_eq_univ, (Gen.arr_whole1 5).set_eq_univ, (Gen.arr_whole1 6).set_eq_univ]

/-- ENTRY: the packed query/key/value array's buffer is dealt among its three windows; every other array goes to its
    one window whole. -/
theorem entry1 (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (Reg1.dat V c).arrays ((Reg1.dat V c).arrAt · 0) := by
  rw [arrBufs1_eq, arrays1_eq]
  iintro ⟨H6, H9, H7, H8, H10⟩
  ihave H6' := (pointsTo_share (PosShare.mem_left_op_right fullShare)).1 $$ H6
  icases H6' with ⟨H6a, H6r⟩
  ihave H6r' := (pointsTo_share (PosShare.mem_left_op_right fullShare.right)).1 $$ H6r
  icases H6r' with ⟨H6b, H6c⟩
  isplitl [H6a]; · iexact H6a
  isplitl [H6b]; · iexact H6b
  isplitl [H6c]; · iexact H6c
  isplitl [H9]; · iexact H9
  isplitl [H7]; · iexact H7
  isplitl [H8]; · iexact H8
  iexact H10

/-- EXIT: the three shares of the packed array, each still at the entry contents, are rejoined; the result array is
    at what the write-backs left. -/
theorem exit1 (V : (c : Dev nD) → (b : Ref sig .tc) → Buf (Elt F) ((c : Thread nD τ).loc b)) (c : Dev nD)
    (W : (b : Ref sig .tc) → Buf (Elt F) ((c : Thread nD τ).loc b))
    (h6 : W main_v6 = V c main_v6) (h9 : W main_v9 = V c main_v9) (h7 : W main_v7 = V c main_v7) (h8 : W main_v8 = V c main_v8)
    (h10 : W main_v10 = (Reg1.dat V c).arrAt 6 cfg1.N) :
    ((Reg1.dat V c).arrays ((Reg1.dat V c).arrAt · cfg1.N) : sProp 𝕄)
      ⊢ Pipeline.arrBufs (Ix := Unit) (Name := ℕ) (U := UR sig nD τ) (Lvl := ℕ) spec1 c W := by
  rw [arrBufs1_eq, arrays1_eq, h6, h9, h7, h8, h10]
  rw [(Reg1.dat V c).arrAt_in 0 rfl, (Reg1.dat V c).arrAt_in 1 rfl, (Reg1.dat V c).arrAt_in 2 rfl, (Reg1.dat V c).arrAt_in 3 rfl,
    (Reg1.dat V c).arrAt_in 4 rfl, (Reg1.dat V c).arrAt_in 5 rfl]
  iintro ⟨Ha, Hb, Hc, H9, H7, H8, H10⟩
  isplitl [Ha Hb Hc]
  · iapply (pointsTo_share (PosShare.mem_left_op_right fullShare)).2
    isplitl [Ha]; · iexact Ha
    iapply (pointsTo_share (PosShare.mem_left_op_right fullShare.right)).2
    isplitl [Hb]; · iexact Hb
    iexact Hc
  isplitl [H9]; · iexact H9
  isplitl [H7]; · iexact H7
  isplitl [H8]; · iexact H8
  iexact H10

/-! ## The regions as segments -/

theorem Vr4_of (c : Dev nD) (r : Ref sig .tc) (h : r ∉ ([main_v10] : List (Ref sig .tc))) : Vr4 m c r = Vr3 m c r := by
  show Gen.V4 m (outs m) c r = Gen.V3 m (outsA m) c r
  rw [Gen.V4_of m (outs m) c r h, V3_outs]

set_option backward.isDefEq.respectTransparency.types false in
/-- The first region over the thread state: entered from every unscoped buffer at the contents after the first host
    stretch, left with its result array at what its write-backs leave.  Its arrays are distinct buffers, split out of the
    unscoped buffers and put back; the generator register goes into the region's invariant and comes out; nothing is owed;
    the kernel has no semaphore of its own. -/
def reg0 : Pipeline.RegionSeg (pcfgs (F := F)) Gen.adm (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (Reg0.body_obligation (Vr1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents after the second host
    stretch, left with its result array at what its write-backs leave.  Three of its windows share one array: the buffers
    behind its arrays are split out of the unscoped buffers, dealt among the windows, collected again at exit and put back. -/
def reg1 : Pipeline.RegionSeg (pcfgs (F := F)) Gen.adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (Reg1.body_obligation (Vr3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none, V3_outs m c]
    have hsplit : (unscopedBufs c (Vr3 m c) : sProp 𝕄)
        ⊢ iprop((pdats m 1 c).arrays ((pdats m 1 c).arrAt · 0) ∗ Pipeline.unscopedRest (Ix := Unit) (Name := ℕ) (U := UR sig nD τ) (Lvl := ℕ) spec1 c (Vr3 m c)) := by
      rw [Pipeline.unscopedBufs_split₀ (Pipeline.pin (pcfgs (F := F)) Gen.adm) 1 Gen.winFacts₀1.arr_unscoped c (Vr3 m c)]
      exact sep_mono (entry1 (Vr3 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Reg1.hin (Vr3 m) c)
    unfold Pipeline.ΦA
    iintro ⟨Hp, -, Hr⟩
    isplitl [Hr]; · iexact Hr
    iexact Hp
  hout c := by
    rw [Pipeline.ownSems0_none]
    refine (Reg1.hout (Vr3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (Vr3 m c))
        ⊢ (unscopedBufs c (Vr4 m c) : sProp 𝕄) := by
      rw [Pipeline.unscopedBufs_split₀ (Pipeline.pin (pcfgs (F := F)) Gen.adm) 1 Gen.winFacts₀1.arr_unscoped c (Vr4 m c)]
      refine sep_mono (exit1 (Vr3 m) c (Vr4 m c) (Vr4_of m c main_v6 (by decide)) (Vr4_of m c main_v9 (by decide)) (Vr4_of m c main_v7 (by decide))
        (Vr4_of m c main_v8 (by decide)) (V4_v10 m c)) (Entails.of_eq ?_)
      unfold Pipeline.unscopedRest
      exact bigSep_congr fun b hb => by
        rw [Vr4_of m c b fun h => (Finset.mem_sdiff.mp hb).2 (by
          rw [List.mem_singleton.mp h]; exact Finset.mem_image.mpr ⟨6, Finset.mem_univ _, rfl⟩)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) Gen.adm (pdats m) () defs₀ 𝒱₀ L lv) :=
  [ .host (Gen.seg0 m 𝒱₀ L lv E),
    .region (reg0 m),
    .host (Gen.seg2 m (outs m) 𝒱₀ L lv E),
    .region (reg1 m) ]

set_option backward.isDefEq.respectTransparency.types false in
/-- THE RUN.  At the compiled mesh, for any float values, from any memory with zero counters: every weakly fair execution of
    @main on the TensorCores terminates, nothing faulting, and every final state has every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) :=
  Pipeline.θ_run_regions_kit (pcfgs (F := F)) Gen.adm (pdats m) () Gen.cellOf_inj emb₁ defs₀ 𝒱₀ L lv m ρ main (segs m)
    (fun c Q => by
      rewrite [Gen.main_chain c, Pipeline.Seg.run_eq_chain,
        show (segs m).map Pipeline.Seg.prog = [
          StableHlo.seq Gen.hostOps0,
          Prog.lift (.customCall (Pipeline.entry 0) ()),
          StableHlo.seq Gen.hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun s h c => h c)

/-- THE FRAME: every argument array ends as launched (no host operation and no region writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c),
     (h c _ (mem_uc main_arg4 (by decide))).trans (Gen.V4_main_arg4 m (outs m) c),
     (h c _ (mem_uc main_arg5 (by decide))).trans (Gen.V4_main_arg5 m (outs m) c),
     (h c _ (mem_uc main_arg6 (by decide))).trans (Gen.V4_main_arg6 m (outs m) c),
     (h c _ (mem_uc main_arg7 (by decide))).trans (Gen.V4_main_arg7 m (outs m) c),
     (h c _ (mem_uc main_arg8 (by decide))).trans (Gen.V4_main_arg8 m (outs m) c),
     (h c _ (mem_uc main_arg9 (by decide))).trans (Gen.V4_main_arg9 m (outs m) c)⟩) (run_all m ρ)

end Cert.Kernel.Frames

end
-- ==== Proof.Reg0.lean ====
/-
  The projection region (the first kernel launch): its proof data and body obligation.

  Grid point `t` of 16 takes rows `512·t … 512·t+511` of the flattened input (window 0), the whole concatenated
  weight matrix (window 1) and the whole concatenated bias row (window 2), and stores `x·W + b` into the
  corresponding 512 × 3072 block of the result (window 3).  The body has one control path: three whole-buffer
  loads, one whole-buffer store.  Stated at a parameter `V`, the contents of the core's buffers when the region is
  entered, and for any float instance.
-/
import proofs.«100896_j48627619725380_2_alg».proof.Proof.Gen.KernelIdeal.Launch
import proofs.«100896_j48627619725380_2_alg».proof.Proof.Gen.KernelIdeal.Skeleton
import proofs.«100896_j48627619725380_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: an unfetched
    point has the block index of the point before it, and the body leaves the block in place. -/
theorem before_in_of_0 {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

abbrev rX : Rect S512x1024 := Rect.unit (s := S512x1024) ![0, 0] S512x1024.size inb_S512x1024_S512x1024_0_0
abbrev rW : Rect S1024x3072 := Rect.unit (s := S1024x3072) ![0, 0] S1024x3072.size inb_S1024x3072_S1024x3072_0_0
abbrev rB : Rect S1x3072 := Rect.unit (s := S1x3072) ![0, 0] S1x3072.size inb_S1x3072_S1x3072_0_0
abbrev rO : Rect S512x3072 := Rect.unit (s := S512x3072) ![0, 0] S512x3072.size inb_S512x3072_S512x3072_0_0

/-- What the body leaves in the result window's staging buffer: its one whole-buffer store, of `x·W + b`. -/
def out3 (x : Vec F S512x1024 .f32) (w : Vec F S1024x3072 .bf16) (b : Vec F S1x3072 .f32) : Vec F S512x3072 .bf16 :=
  View.canon [⟨rO, k0_pay1 (View.ld x rX) (View.ld w rW) (View.ld b rB)⟩]

/-- The store covers the buffer. -/
theorem cover3 (p0 : Vec F S512x3072 .bf16) (y : S512x3072.Idx) :
    ∃ pc ∈ ([⟨rO, p0⟩] : List (View.Piece (Elt F) S512x3072 .bf16)), y ∈ pc.1.set :=
  View.cover_of_tiled [⟨rO, p0⟩] S512x3072.size (by rfl) y

/-! ## The body's triple -/

set_option maxHeartbeats 1000000 in
/-- The kernel body on whole staging memrefs, the inputs' at read contents and the output's at anything, runs to
    the continuation holding the inputs' as they were and the output's at `out3` of the inputs'. -/
theorem sound_kernel (c : Dev nD) (E : Set ℕ) (i : grid0.Coords)
    (arg1 : Memref sig .tc .vmem S512x1024 .f32) (harg1 : arg1.IsWhole) (arg2 : Memref sig .tc .vmem S1024x3072 .bf16) (harg2 : arg2.IsWhole)
    (arg3 : Memref sig .tc .vmem S1x3072 .f32) (harg3 : arg3.IsWhole) (arg4 : Memref sig .tc .vmem S512x3072 .bf16) (harg4 : arg4.IsWhole)
    (x : Vec F S512x1024 .f32) (w : Vec F S1024x3072 .bf16) (b : Vec F S1x3072 .f32) (K : PUnit → sProp 𝕄) :
    iprop(owns (c : Thread nD τ) arg1 fullShare x ∗ owns (c : Thread nD τ) arg2 fullShare w ∗ owns (c : Thread nD τ) arg3 fullShare b
        ∗ (∃ d, owns (c : Thread nD τ) arg4 fullShare d)
        ∗ (iprop(owns (c : Thread nD τ) arg1 fullShare x ∗ owns (c : Thread nD τ) arg2 fullShare w ∗ owns (c : Thread nD τ) arg3 fullShare b
            ∗ owns (c : Thread nD τ) arg4 fullShare (out3 x w b)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3 _)

/-! ## The proof data -/

/-- The region's proof data on core `c`: the arrays as the region finds them; after the body at point `t` each
    input's buffer at its block and the output's at `out3` of the input blocks; the invariant the scoped rest and the
    generator register, untouched; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => out3 (iblk V c 0 t) (iblk V c 1 t) (iblk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = out3 (iblk V c 0 t) (iblk V c 1 t) (iblk V c 2 t) := by dsimp only [dat]

theorem before_0 (c : Dev nD) (t : Fin cfg0.N) (d) : (dat V c).before 0 t d = iblk V c 0 t :=
  before_in_of_0 V (dat V c) (A_eq V c 0) (after_0 V c) t d
theorem before_1 (c : Dev nD) (t : Fin cfg0.N) (d) : (dat V c).before 1 t d = iblk V c 1 t :=
  before_in_of_1 V (dat V c) (A_eq V c 1) (after_1 V c) t d
theorem before_2 (c : Dev nD) (t : Fin cfg0.N) (d) : (dat V c).before 2 t d = iblk V c 2 t :=
  before_in_of_2 V (dat V c) (A_eq V c 2) (after_2 V c) t d

/-! ## The body obligation -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ _ _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dat (F := F) V c) (defs₀ (F := F)) Variants.none () Set.univ := fun t => by
  rw [bigSep_W0, bigSep_W0]
  exact sound_body V c t

end Cert.KernelIdeal.Reg0

end
-- ==== Proof.Reg1Runs.lean ====
/-
  The attention region (the second kernel launch): what its runs share, and the body's run in each of its two cases.

  The grid is 4 batches × 4 query tiles × 2 key/value tiles; point `t` has key/value coordinate `t mod 2`.  The body
  resets its three scratch buffers (row maxima, row sums, unnormalised context) exactly at the points with key/value
  coordinate 0, and normalises, projects and stores its output block exactly at those with coordinate 1; at the
  former the output window's staging buffer is left as found and is not written back.  So there are two control
  cases, and in each the body is run once, symbolically: every buffer it stores into ends at a list of pieces written
  over what it held, the lists being what the run finds.
-/
import proofs.«100896_j48627619725380_2_alg».proof.Proof.Gen.KernelIdeal.Launch
import proofs.«100896_j48627619725380_2_alg».proof.Proof.Gen.KernelIdeal.Skeleton
import proofs.«100896_j48627619725380_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's two conditions -/

/-- The reset condition (key/value coordinate 0), as the body computes it. -/
abbrev cond0 (i : grid1.Coords) : Prop := (Scalar.cmpi .ne (Scalar.extui (Scalar.cmpi .eq (BitVec.ofNat 32 (i 2).val) 0#32)) 0#32) = 1#1
theorem hcond0 : ∀ t : Fin cfg1.N, cond0 (grid1.coords t) ↔ t.val % 2 = 0 :=
  (by decide +kernel : ∀ t : Fin grid1.N, cond0 (grid1.coords t) ↔ t.val % 2 = 0)

/-- The closing condition (key/value coordinate 1). -/
abbrev cond1 (i : grid1.Coords) : Prop := k1_cond2 i = 1#1
theorem hcond1 : ∀ t : Fin cfg1.N, cond1 (grid1.coords t) ↔ t.val % 2 = 1 :=
  (by decide +kernel : ∀ t : Fin grid1.N, cond1 (grid1.coords t) ↔ t.val % 2 = 1)

/-! ## Where the windows are idle -/

theorem liveAt_0 : ∀ t : Fin cfg1.N, cfg1.idle 0 (grid1.coords t) = false := by decide +kernel
theorem liveAt_1 : ∀ t : Fin cfg1.N, cfg1.idle 1 (grid1.coords t) = false := by decide +kernel
theorem liveAt_2 : ∀ t : Fin cfg1.N, cfg1.idle 2 (grid1.coords t) = false := by decide +kernel
theorem liveAt_3 : ∀ t : Fin cfg1.N, cfg1.idle 3 (grid1.coords t) = false := by decide +kernel
theorem liveAt_4 : ∀ t : Fin cfg1.N, cfg1.idle 4 (grid1.coords t) = false := by decide +kernel
theorem liveAt_5 : ∀ t : Fin cfg1.N, cfg1.idle 5 (grid1.coords t) = false := by decide +kernel
/-- At the first of a pair of points the output window is idle and not written back; at the second it is live. -/
theorem idleAt_6 : ∀ t : Fin cfg1.N, ¬cond1 (grid1.coords t) → cfg1.idle 6 (grid1.coords t) = true := by decide +kernel
theorem noFlush_6 : ∀ t : Fin cfg1.N, ¬cond1 (grid1.coords t) → (cfg1.win 6).flush t = false := by decide +kernel
theorem liveAt_6 : ∀ t : Fin cfg1.N, cond1 (grid1.coords t) → cfg1.idle 6 (grid1.coords t) = false := by decide +kernel

/-! ## The memrefs the body is called with -/

abbrev ms0 (t : Fin cfg1.N) : Memref sig .tc .vmem S1x512x1024 .bf16 := win1_0.stage (cfg1.slots t 0)
abbrev hs0 (t : Fin cfg1.N) : (ms0 t).IsWhole := hstage1_0 ((cfg1.slots t 0).cast nbuf1_0)
abbrev ms1 (t : Fin cfg1.N) : Memref sig .tc .vmem S1x1024x1024 .bf16 := win1_1.stage (cfg1.slots t 1)
abbrev hs1 (t : Fin cfg1.N) : (ms1 t).IsWhole := hstage1_1 ((cfg1.slots t 1).cast nbuf1_1)
abbrev ms2 (t : Fin cfg1.N) : Memref sig .tc .vmem S1x1024x1024 .bf16 := win1_2.stage (cfg1.slots t 2)
abbrev hs2 (t : Fin cfg1.N) : (ms2 t).IsWhole := hstage1_2 ((cfg1.slots t 2).cast nbuf1_2)
abbrev ms3 (t : Fin cfg1.N) : Memref sig .tc .vmem S1x512x1024 .i32 := win1_3.stage (cfg1.slots t 3)
abbrev hs3 (t : Fin cfg1.N) : (ms3 t).IsWhole := hstage1_3 ((cfg1.slots t 3).cast nbuf1_3)
abbrev ms4 (t : Fin cfg1.N) : Memref sig .tc .vmem S1024x1024 .bf16 := win1_4.stage (cfg1.slots t 4)
abbrev hs4 (t : Fin cfg1.N) : (ms4 t).IsWhole := hstage1_4 ((cfg1.slots t 4).cast nbuf1_4)
abbrev ms5 (t : Fin cfg1.N) : Memref sig .tc .vmem S1x1024 .f32 := win1_5.stage (cfg1.slots t 5)
abbrev hs5 (t : Fin cfg1.N) : (ms5 t).IsWhole := hstage1_5 ((cfg1.slots t 5).cast nbuf1_5)
abbrev ms6 (t : Fin cfg1.N) : Memref sig .tc .vmem S1x512x1024 .f32 := win1_6.stage (cfg1.slots t 6)
abbrev hs6 (t : Fin cfg1.N) : (ms6 t).IsWhole := hstage1_6 ((cfg1.slots t 6).cast nbuf1_6)
/-- The three scratch buffers: the row maxima, the row sums, the unnormalised context. -/
abbrev scM : Memref sig .tc .vmem S512x1 .f32 := Memref.whole cc1_scratch0
abbrev scL : Memref sig .tc .vmem S512x1 .f32 := Memref.whole cc1_scratch1
abbrev scA : Memref sig .tc .vmem S512x1024 .f32 := Memref.whole cc1_scratch2
abbrev VM : View sig .tc .vmem S512x1 .f32 := scM.view
abbrev VL : View sig .tc .vmem S512x1 .f32 := scL.view
abbrev VA : View sig .tc .vmem S512x1024 .f32 := scA.view
/-- One staging buffer of the output window, through which its contents are stated. -/
abbrev VO : View sig .tc .vmem S1x512x1024 .f32 := (Memref.whole cc1_stg6_0 : Memref sig .tc .vmem S1x512x1024 .f32).view

/-- The other scoped buffers of the core that this region does not stage: the first region's staging buffers. -/
abbrev otherScoped (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f))

/-- The region's plain invariant with the three scratch buffers as memrefs owned at some contents. -/
theorem PhiA_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f)
          ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

/-! ## The body's run, first key/value point of a pair -/

set_option maxHeartbeats 4000000 in
/-- At a point with key/value coordinate 0 (reset taken, closing step not): on whole memrefs, the six inputs' at their
    contents, the output's at contents handed back untouched, the scratch buffers at anything, the body runs to the
    continuation holding the inputs' and the output's as they were and each scratch buffer with its pieces written. -/
noncomputable def kernelRunA (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0 i) (hc1 : ¬cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) :
    Σ' (LS0 : List (View.Piece (Elt F) S512x1 .f32)) (LS1 : List (View.Piece (Elt F) S512x1 .f32)), { LS2 : List (View.Piece (Elt F) S512x1024 .f32) //
      ∀ (xi6 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
            ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare xi6
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, fun xi6 E K => ?run⟩
  case run =>
    haveI : Fact (cond0 i) := ⟨hc0⟩
    haveI : Fact (¬cond1 i) := ⟨hc1⟩
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg9.eq_unread hf6
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [HS0]; · iexists _; iexact HS0
    isplitl [HS1]; · iexists _; iexact HS1
    iexists _; iexact HS2

/-! ## The body's run, second key/value point of a pair -/

set_option maxHeartbeats 4000000 in
/-- At a point with key/value coordinate 1 (no reset, closing step taken): on whole memrefs, the six inputs' at their
    contents, the scratch buffers at the contents `xs·` the point before left, the output's at anything, the body runs to
    the continuation holding the inputs' as they were and the output's and each scratch buffer with its pieces written. -/
noncomputable def kernelRunB (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) :
    Σ' (L6 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d)
            ∗ owns (c : Thread nD τ) arg10 fullShare xs0 ∗ owns (c : Thread nD τ) arg11 fullShare xs1 ∗ owns (c : Thread nD τ) arg12 fullShare xs2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ f, arg9.view.loc (c : Thread nD τ) ↦[arg9.view.set]{fullShare} arg9.view.writes (Elt F) f L6)
                ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    haveI : Fact (¬cond0 i) := ⟨hc0⟩
    haveI : Fact (cond1 i) := ⟨hc1⟩
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg6.eq_unread hf3; obtain rfl := harg7.eq_unread hf4; obtain rfl := harg8.eq_unread hf5
    obtain rfl := harg10.eq_unread hfs0; obtain rfl := harg11.eq_unread hfs1; obtain rfl := harg12.eq_unread hfs2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]; · iexists _; iexact H6
    isplitl [HS0]; · iexists _; iexact HS0
    isplitl [HS1]; · iexists _; iexact HS1
    iexists _; iexact HS2

end Cert.KernelIdeal.Reg1

end
-- ==== Proof.Reg1.lean ====
/-
  The attention region: its proof data and body obligation.

  Points come in pairs (one per key/value tile of a batch's query tile).  What the scratch buffers hold after the
  first point of a pair depends on that point's blocks only (the body resets them first); what they and the output
  window's staging buffer hold after the second depends on the second point's blocks and on what the first left.
  The invariant between points names the scratch contents after every point; the output window is idle at first
  points.  The three windows onto the packed query/key/value array hold it at three disjoint shares.
-/
import proofs.«100896_j48627619725380_2_alg».proof.Proof.Reg1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not: an unfetched
    point has the block index of the point before it, and the body leaves the block in place. -/
theorem before_in_of_0 {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_in_of_1 {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_in_of_2 {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_in_of_3 {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_in_of_4 {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_in_of_5 {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The parity of a point decides its case -/

theorem c0_of_even (t : Fin cfg1.N) (h : t.val % 2 = 0) : cond0 (grid1.coords t) := (hcond0 t).mpr h
theorem nc1_of_even (t : Fin cfg1.N) (h : t.val % 2 = 0) : ¬cond1 (grid1.coords t) := fun h' => by have := (hcond1 t).mp h'; omega
theorem nc0_of_odd (t : Fin cfg1.N) (h : ¬t.val % 2 = 0) : ¬cond0 (grid1.coords t) := fun h' => h ((hcond0 t).mp h')
theorem c1_of_odd (t : Fin cfg1.N) (h : ¬t.val % 2 = 0) : cond1 (grid1.coords t) := (hcond1 t).mpr (by omega)

/-- The point before `t`. -/
def pred (t : Fin cfg1.N) : Fin cfg1.N := ⟨t.val - 1, Nat.lt_of_le_of_lt (Nat.sub_le _ _) t.isLt⟩
theorem pred_even (t : Fin cfg1.N) (h : ¬t.val % 2 = 0) : (pred t).val % 2 = 0 := by
  show (t.val - 1) % 2 = 0; omega

/-! ## The pieces each case's run leaves cover their buffers -/

theorem scoverA_M (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0 i) (hc1 : ¬cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (y : S512x1.Idx) :
    ∃ pc ∈ (kernelRunA (F := F) c i arg3 harg3 arg4 harg4 arg5 harg5 arg6 harg6 arg7 harg7 arg8 harg8 arg9 harg9 arg10 harg10 arg11 harg11 arg12 harg12 hc0 hc1 x0 x1 x2 x3 x4 x5).1, y ∈ pc.1.set :=
  View.cover_of_tiledL (kernelRunA (F := F) c i arg3 harg3 arg4 harg4 arg5 harg5 arg6 harg6 arg7 harg7 arg8 harg8 arg9 harg9 arg10 harg10 arg11 harg11 arg12 harg12 hc0 hc1 x0 x1 x2 x3 x4 x5).1 S512x1.size (by sl_kernel_rfl) y
theorem scoverA_L (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0 i) (hc1 : ¬cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (y : S512x1.Idx) :
    ∃ pc ∈ (kernelRunA (F := F) c i arg3 harg3 arg4 harg4 arg5 harg5 arg6 harg6 arg7 harg7 arg8 harg8 arg9 harg9 arg10 harg10 arg11 harg11 arg12 harg12 hc0 hc1 x0 x1 x2 x3 x4 x5).2.1, y ∈ pc.1.set :=
  View.cover_of_tiledL (kernelRunA (F := F) c i arg3 harg3 arg4 harg4 arg5 harg5 arg6 harg6 arg7 harg7 arg8 harg8 arg9 harg9 arg10 harg10 arg11 harg11 arg12 harg12 hc0 hc1 x0 x1 x2 x3 x4 x5).2.1 S512x1.size (by sl_kernel_rfl) y
theorem scoverA_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0 i) (hc1 : ¬cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (y : S512x1024.Idx) :
    ∃ pc ∈ (kernelRunA (F := F) c i arg3 harg3 arg4 harg4 arg5 harg5 arg6 harg6 arg7 harg7 arg8 harg8 arg9 harg9 arg10 harg10 arg11 harg11 arg12 harg12 hc0 hc1 x0 x1 x2 x3 x4 x5).2.2.1, y ∈ pc.1.set :=
  View.cover_of_tiledL (kernelRunA (F := F) c i arg3 harg3 arg4 harg4 arg5 harg5 arg6 harg6 arg7 harg7 arg8 harg8 arg9 harg9 arg10 harg10 arg11 harg11 arg12 harg12 hc0 hc1 x0 x1 x2 x3 x4 x5).2.2.1 S512x1024.size (by sl_kernel_rfl) y

theorem scoverB_O (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) (y : S1x512x1024.Idx) :
    ∃ pc ∈ (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).1, y ∈ pc.1.set :=
  View.cover_of_tiledL (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).1 S1x512x1024.size (by sl_kernel_rfl) y
theorem scoverB_M (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) (y : S512x1.Idx) :
    ∃ pc ∈ (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.1, y ∈ pc.1.set :=
  View.cover_of_tiledL (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.1 S512x1.size (by sl_kernel_rfl) y
theorem scoverB_L (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) (y : S512x1.Idx) :
    ∃ pc ∈ (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1, y ∈ pc.1.set :=
  View.cover_of_tiledL (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 S512x1.size (by sl_kernel_rfl) y
theorem scoverB_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) (y : S512x1024.Idx) :
    ∃ pc ∈ (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1, y ∈ pc.1.set :=
  View.cover_of_tiledL (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 S512x1024.size (by sl_kernel_rfl) y

/-! ## What the scratch buffers and the output buffer hold after each point -/

/-- After a first point of a pair: the three scratch buffers, each at its pieces read back. -/
def sA (c : Dev nD) (t : Fin cfg1.N) (h : t.val % 2 = 0) : Vec F S512x1 .f32 × Vec F S512x1 .f32 × Vec F S512x1024 .f32 :=
  (VM.read (Elt F) (VM.writes (Elt F) VM.junk (kernelRunA (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t)).1),
   VL.read (Elt F) (VL.writes (Elt F) VL.junk (kernelRunA (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t)).2.1),
   VA.read (Elt F) (VA.writes (Elt F) VA.junk (kernelRunA (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t)).2.2.1))

/-- After a second point of a pair: the output buffer and the three scratch buffers, each at its pieces read back, the run
    started from what the first point left. -/
def sB (c : Dev nD) (t : Fin cfg1.N) (h : ¬t.val % 2 = 0) : Vec F S1x512x1024 .f32 × Vec F S512x1 .f32 × Vec F S512x1 .f32 × Vec F S512x1024 .f32 :=
  (VO.read (Elt F) (VO.writes (Elt F) VO.junk (kernelRunB (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (nc0_of_odd t h) (c1_of_odd t h) (iblk V c 0 t) (iblk V c 1 t) (iblk V c 2 t) (iblk V c 3 t) (iblk V c 4 t) (iblk V c 5 t) (sA V c (pred t) (pred_even t h)).1 (sA V c (pred t) (pred_even t h)).2.1 (sA V c (pred t) (pred_even t h)).2.2).1),
   VM.read (Elt F) (VM.writes (Elt F) VM.junk (kernelRunB (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (nc0_of_odd t h) (c1_of_odd t h) (iblk V c 0 t) (iblk V c 1 t) (iblk V c 2 t) (iblk V c 3 t) (iblk V c 4 t) (iblk V c 5 t) (sA V c (pred t) (pred_even t h)).1 (sA V c (pred t) (pred_even t h)).2.1 (sA V c (pred t) (pred_even t h)).2.2).2.1),
   VL.read (Elt F) (VL.writes (Elt F) VL.junk (kernelRunB (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (nc0_of_odd t h) (c1_of_odd t h) (iblk V c 0 t) (iblk V c 1 t) (iblk V c 2 t) (iblk V c 3 t) (iblk V c 4 t) (iblk V c 5 t) (sA V c (pred t) (pred_even t h)).1 (sA V c (pred t) (pred_even t h)).2.1 (sA V c (pred t) (pred_even t h)).2.2).2.2.1),
   VA.read (Elt F) (VA.writes (Elt F) VA.junk (kernelRunB (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (nc0_of_odd t h) (c1_of_odd t h) (iblk V c 0 t) (iblk V c 1 t) (iblk V c 2 t) (iblk V c 3 t) (iblk V c 4 t) (iblk V c 5 t) (sA V c (pred t) (pred_even t h)).1 (sA V c (pred t) (pred_even t h)).2.1 (sA V c (pred t) (pred_even t h)).2.2).2.2.2.1))

/-- The scratch buffers after point `t`. -/
def scrAfter (c : Dev nD) (t : Fin cfg1.N) : Vec F S512x1 .f32 × Vec F S512x1 .f32 × Vec F S512x1024 .f32 :=
  if h : t.val % 2 = 0 then sA V c t h else (sB V c t h).2

/-- The output window's staging buffer after point `t`: at a second point what the closing step stored; at a first
    point nothing is stated (the window is idle there and not written back). -/
def outAfter (c : Dev nD) (t : Fin cfg1.N) : Vec F S1x512x1024 .f32 :=
  if h : t.val % 2 = 0 then VO.read (Elt F) (VO.writes (Elt F) VO.junk []) else (sB V c t h).1

theorem scrAfter_even (c : Dev nD) (t : Fin cfg1.N) (h : t.val % 2 = 0) : scrAfter V c t = sA V c t h := dif_pos h
theorem scrAfter_odd (c : Dev nD) (t : Fin cfg1.N) (h : ¬t.val % 2 = 0) : scrAfter V c t = (sB V c t h).2 := dif_neg h
theorem outAfter_odd (c : Dev nD) (t : Fin cfg1.N) (h : ¬t.val % 2 = 0) : outAfter V c t = (sB V c t h).1 := dif_neg h

/-! ## The invariant between points -/

/-- Before position `n`: at the start the plain invariant (every scoped buffer the region does not stage at anything, the
    generator register); afterwards the same with the three scratch buffers at what the point before left. -/
def PhiS (c : Dev nD) : (n : ℕ) → n ≤ cfg1.N → sProp 𝕄
  | 0, _ => Pipeline.ΦA spec1 c
  | n + 1, hn => iprop(iprop(otherScoped (F := F) c ∗ owns (c : Thread nD τ) scM fullShare (scrAfter V c ⟨n, hn⟩).1 ∗ owns (c : Thread nD τ) scL fullShare (scrAfter V c ⟨n, hn⟩).2.1 ∗ owns (c : Thread nD τ) scA fullShare (scrAfter V c ⟨n, hn⟩).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(otherScoped (F := F) c ∗ owns (c : Thread nD τ) scM fullShare (scrAfter V c ⟨n, hn⟩).1 ∗ owns (c : Thread nD τ) scL fullShare (scrAfter V c ⟨n, hn⟩).2.1 ∗ owns (c : Thread nD τ) scA fullShare (scrAfter V c ⟨n, hn⟩).2.2) ∗ (∃ r, prngReg c r)) := rfl

theorem PhiS_pos (c : Dev nD) (t : Fin cfg1.N) (hz : t.val ≠ 0) :
    PhiS V c t.val (Nat.le_of_lt t.isLt) = iprop(iprop(otherScoped (F := F) c ∗ owns (c : Thread nD τ) scM fullShare (scrAfter V c (pred t)).1 ∗ owns (c : Thread nD τ) scL fullShare (scrAfter V c (pred t)).2.1 ∗ owns (c : Thread nD τ) scA fullShare (scrAfter V c (pred t)).2.2) ∗ (∃ r, prngReg c r)) := by
  obtain ⟨n, hn⟩ := t
  cases n with
  | zero => exact absurd rfl hz
  | succ n => rfl

/-! ## The proof data -/

/-- The region's proof data on core `c`: the arrays as the region finds them; after the body each input's buffer at its
    block and the output's at `outAfter`; the invariant `PhiS`; the packed query/key/value array held by its three windows at
    three disjoint shares, every other input at the full share; nothing owed. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => outAfter V c t
  Φ t := PhiS V c t.val (Nat.le_of_lt_succ t.isLt)
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
  owed _ := 0

theorem A_eq (c : Dev nD) (w : Fin cfg1.W) : (dat V c).A w = V c (Pipeline.arrRef spec1 w) := by
  dsimp only [dat]

theorem PhiS_castSucc (c : Dev nD) (t : Fin cfg1.N) :
    (dat V c).Φ t.castSucc = PhiS V c t.val (Nat.le_of_lt t.isLt) := by
  dsimp only [dat]; simp only [Fin.coe_castSucc]

theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = iblk V c 3 t := by dsimp only [dat]
theorem after_4 (c : Dev nD) (t : Fin cfg1.N) : (dat V c).after 4 t = iblk V c 4 t := by dsimp only [dat]
theorem after_5 (c : Dev nD) (t : Fin cfg1.N) : (dat V c).after 5 t = iblk V c 5 t := by dsimp only [dat]
theorem after_6 (c : Dev nD) (t : Fin cfg1.N) : (dat V c).after 6 t = outAfter V c t := by dsimp only [dat]

theorem before_0 (c : Dev nD) (t : Fin cfg1.N) (d) : (dat V c).before 0 t d = iblk V c 0 t :=
  before_in_of_0 V (dat V c) (A_eq V c 0) (after_0 V c) t d
theorem before_1 (c : Dev nD) (t : Fin cfg1.N) (d) : (dat V c).before 1 t d = iblk V c 1 t :=
  before_in_of_1 V (dat V c) (A_eq V c 1) (after_1 V c) t d
theorem before_2 (c : Dev nD) (t : Fin cfg1.N) (d) : (dat V c).before 2 t d = iblk V c 2 t :=
  before_in_of_2 V (dat V c) (A_eq V c 2) (after_2 V c) t d
theorem before_3 (c : Dev nD) (t : Fin cfg1.N) (d) : (dat V c).before 3 t d = iblk V c 3 t :=
  before_in_of_3 V (dat V c) (A_eq V c 3) (after_3 V c) t d
theorem before_4 (c : Dev nD) (t : Fin cfg1.N) (d) : (dat V c).before 4 t d = iblk V c 4 t :=
  before_in_of_4 V (dat V c) (A_eq V c 4) (after_4 V c) t d
theorem before_5 (c : Dev nD) (t : Fin cfg1.N) (d) : (dat V c).before 5 t d = iblk V c 5 t :=
  before_in_of_5 V (dat V c) (A_eq V c 5) (after_5 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t
    ∗ (dat V c).leavesExact 4 t
    ∗ (dat V c).leavesExact 5 t
    ∗ (dat V c).leavesExact 6 t)

set_option maxHeartbeats 8000000 in
/-- The body at any point.  The inputs' memrefs hold their blocks; the point's parity says which case it is in.  At a first
    point the scratch buffers are handed over at anything and come back at the reset run's pieces, the output buffer is
    handed back as found; at a second point the scratch buffers are handed over at what the first point left and come back,
    with the output buffer, at the closing run's pieces.  The core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2, before_3, before_4, before_5]
  rw [show (dat V c).owesAt () t.succ = (dat V c).owesAt () t.castSucc from rfl]
  rw [show (dat V c).Φ t.succ = PhiS V c (t.val + 1) t.isLt from rfl, PhiS_succ]
  rw [show (dat V c).leavesExact 0 t = owns (c : Thread nD τ) (ms0 t) fullShare ((dat V c).after 0 t) from by
    unfold Dat.leavesExact; rw [liveAt_0 t], after_0]
  rw [show (dat V c).leavesExact 1 t = owns (c : Thread nD τ) (ms1 t) fullShare ((dat V c).after 1 t) from by
    unfold Dat.leavesExact; rw [liveAt_1 t], after_1]
  rw [show (dat V c).leavesExact 2 t = owns (c : Thread nD τ) (ms2 t) fullShare ((dat V c).after 2 t) from by
    unfold Dat.leavesExact; rw [liveAt_2 t], after_2]
  rw [show (dat V c).leavesExact 3 t = owns (c : Thread nD τ) (ms3 t) fullShare ((dat V c).after 3 t) from by
    unfold Dat.leavesExact; rw [liveAt_3 t], after_3]
  rw [show (dat V c).leavesExact 4 t = owns (c : Thread nD τ) (ms4 t) fullShare ((dat V c).after 4 t) from by
    unfold Dat.leavesExact; rw [liveAt_4 t], after_4]
  rw [show (dat V c).leavesExact 5 t = owns (c : Thread nD τ) (ms5 t) fullShare ((dat V c).after 5 t) from by
    unfold Dat.leavesExact; rw [liveAt_5 t], after_5]
  by_cases h0 : t.val % 2 = 0
  · rw [Dat.leavesExact_idle (dat V c) 6 t (idleAt_6 t (nc1_of_even t h0)) (noFlush_6 t (nc1_of_even t h0))]
    rw [scrAfter_even V c t h0]
    unfold sA; (try dsimp only)
    by_cases hz : t.val = 0
    · rw [PhiS_castSucc V c t, PhiS_zero V c _ _ hz, PhiA_eq]
      iintro ⟨⟨⟨Hr1, Hr2, Hr3, Hr4, Hr5, Hr6, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA (F := F) c (grid1.coords t) _ _ _ _ _ _ _ _ _ _ _ _ _ _ _ _ _ _ _ _ (c0_of_even t h0) (nc1_of_even t h0) (iblk V c 0 t) (iblk V c 1 t) (iblk V c 2 t) (iblk V c 3 t) (iblk V c 4 t) (iblk V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, ⟨%es1, HS1⟩, ⟨%es2, HS2⟩⟩
      isplitl [Hr1 Hr2 Hr3 Hr4 Hr5 Hr6 HS0 HS1 HS2 Hg]
      · isplitl [Hr1 Hr2 Hr3 Hr4 Hr5 Hr6 HS0 HS1 HS2]
        · isplitl [Hr1 Hr2 Hr3 Hr4 Hr5 Hr6]
          · isplitl [Hr1]; · iexact Hr1
            isplitl [Hr2]; · iexact Hr2
            isplitl [Hr3]; · iexact Hr3
            isplitl [Hr4]; · iexact Hr4
            isplitl [Hr5]; · iexact Hr5
            iexact Hr6
          isplitl [HS0]
          · unfold owns; iexists _; isplitr
            swap; · iexact HS0
            ipureintro; exact View.read_writes_of_cover _ _ _ _ _ (scoverA_M c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_L c _ _ _ _ _ _ _ _ _ _ _ _ _ _ _ _ _ _ _ _ _ _ _ _ _ _ _ _ _)
          unfold owns; iexists _; isplitr
          swap; · iexact HS2
          ipureintro; exact View.read_writes_of_cover _ _ _ _ _ (scoverA_A c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc V c t, PhiS_pos V c t hz]
      iintro ⟨⟨⟨Hr, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRunA (F := F) c (grid1.coords t) _ _ _ _ _ _ _ _ _ _ _ _ _ _ _ _ _ _ _ _ (c0_of_even t h0) (nc1_of_even t h0) (iblk V c 0 t) (iblk V c 1 t) (iblk V c 2 t) (iblk V c 3 t) (iblk V c 4 t) (iblk V c 5 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      isplitl [HS1]; · iexists _; iexact HS1
      isplitl [HS2]; · iexists _; iexact HS2
      iintro ⟨H0, H1, H2, H3, H4, H5, H6, ⟨%es0, HS0⟩, ⟨%es1, HS1⟩, ⟨%es2, HS2⟩⟩
      isplitl [Hr HS0 HS1 HS2 Hg]
      · isplitl [Hr HS0 HS1 HS2]
        · isplitl [Hr]
          · iexact Hr
          isplitl [HS0]
          · unfold owns; iexists _; isplitr
            swap; · iexact HS0
            ipureintro; exact View.read_writes_of_cover _ _ _ _ _ (scoverA_M c _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scoverA_L c _ _ _ _ _ _ _ _ _ _ _ _ _ _ _ _ _ _ _ _ _ _ _ _ _ _ _ _ _)
          unfold owns; iexists _; isplitr
          swap; · iexact HS2
          ipureintro; exact View.read_writes_of_cover _ _ _ _ _ (scoverA_A c _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by omega
    rw [show (dat V c).leavesExact 6 t = owns (c : Thread nD τ) (ms6 t) fullShare ((dat V c).after 6 t) from by
      unfold Dat.leavesExact; rw [liveAt_6 t (c1_of_odd t h0)], after_6, outAfter_odd V c t h0]
    rw [scrAfter_odd V c t h0]
    rw [PhiS_castSucc V c t, PhiS_pos V c t hz, scrAfter_even V c (pred t) (pred_even t h0)]
    unfold sB; (try dsimp only)
    iintro ⟨⟨⟨Hr, HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunB (F := F) c (grid1.coords t) _ _ _ _ _ _ _ _ _ _ _ _ _ _ _ _ _ _ _ _ (nc0_of_odd t h0) (c1_of_odd t h0) (iblk V c 0 t) (iblk V c 1 t) (iblk V c 2 t) (iblk V c 3 t) (iblk V c 4 t) (iblk V c 5 t) _ _ _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, ⟨%es0, HS0⟩, ⟨%es1, HS1⟩, ⟨%es2, HS2⟩⟩
    isplitl [Hr HS0 HS1 HS2 Hg]
    · isplitl [Hr HS0 HS1 HS2]
      · isplitl [Hr]
        · iexact Hr
        isplitl [HS0]
        · unfold owns; iexists _; isplitr
          swap; · iexact HS0
          ipureintro; exact View.read_writes_of_cover _ _ _ _ _ (scoverB_M c _ _ _ _ _ _ _ _ _ _ _ _ _ _ _ _ _ _ _ _ _ _ _ _ _ _ _ _ _ _ _ _)
        isplitl [HS1]
        · unfold owns; iexists _; isplitr
          swap; · iexact HS1
          ipureintro; exact View.read_writes_of_cover _ _ _ _ _ (scoverB_L c _ _ _ _ _ _ _ _ _ _ _ _ _ _ _ _ _ _ _ _ _ _ _ _ _ _ _ _ _ _ _ _)
        unfold owns; iexists _; isplitr
        swap; · iexact HS2
        ipureintro; exact View.read_writes_of_cover _ _ _ _ _ (scoverB_A c _ _ _ _ _ _ _ _ _ _ _ _ _ _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr
    swap; · iexact H6
    ipureintro; exact View.read_writes_of_cover _ _ _ _ _ (scoverB_O c _ _ _ _ _ _ _ _ _ _ _ _ _ _ _ _ _ _ _ _ _ _ _ _ _ _ _ _ _ _ _ _)

/-- The library's body obligation, at every point. -/
theorem body_obligation (c : Dev nD) : BodyObligation (dat (F := F) V c) (defs₀ (F := F)) Variants.none () Set.univ := fun t => by
  rw [bigSep_W1, bigSep_W1]
  exact sound_body V c t

/-- What the region is handed at its start is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After the last point the invariant gives the plain one back: the scratch contents are forgotten. -/
theorem hout (c : Dev nD) : (dat V c).Φ (Fin.last cfg1.N) ⊢ Pipeline.ΦA spec1 c := by
  have hN : cfg1.N = 32 := N_1
  rw [show (dat V c).Φ (Fin.last cfg1.N) = PhiS V c cfg1.N (Nat.le_refl _) from rfl]
  rw [show PhiS V c cfg1.N (Nat.le_refl _) = PhiS V c (31 + 1) (by rw [hN]) from by congr 1 <;> simp [hN]]
  rw [PhiS_succ, PhiA_eq]
  iintro ⟨⟨⟨Hr1, Hr2, Hr3, Hr4, Hr5, Hr6⟩, HS0, HS1, HS2⟩, Hg⟩
  isplitr [Hg]
  · isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [HS0]; · iexists _; iexact HS0
    isplitl [HS1]; · iexists _; iexact HS1
    iexists _; iexact HS2
  iexact Hg

end Cert.KernelIdeal.Reg1

end
-- ==== Proof.Frames.lean ====
/-
  The run of the whole program: two host stretches and two kernel regions, in order.

  Between items each core holds every unscoped buffer whole at known contents: the launch memory, then each host
  stretch applied, then a region's result array replaced by what the region's write-backs leave (the first region's
  blocks of projected rows; the second's blocks of output rows).  Each region is entered from those contents and left at
  the next.  The second region's three windows onto the packed query/key/value array take three disjoint shares of it at
  entry and give them back, rejoined, at exit.  The run ends with every unscoped buffer at the last boundary's contents:
  the arguments as launched, the result array at what the second region leaves.  Stated for any float instance.
-/
import proofs.«100896_j48627619725380_2_alg».proof.Proof.Reg0
import proofs.«100896_j48627619725380_2_alg».proof.Proof.Reg1
import proofs.«100896_j48627619725380_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries -/

/-- The contents the first region is entered from, read at the TensorCore's references. -/
abbrev Vr1 : (c : Dev nD) → (b : Ref sig .tc) → Buf (Elt F) ((c : Thread nD τ).loc b) := fun c b => Gen.V1 m c b

/-- What the first region leaves in its result array. -/
def X5 (c : Dev nD) : Buf (Elt F) ((c : Thread nD τ).loc main_v5) := (Reg0.dat (Vr1 m) c).arrAt 3 cfg0.N

/-- The regions' results so far: the first region's. -/
def outsA : Gen.Outs (F := F) := fun _ r c =>
  if h : r = main_v5 then (by subst h; exact X5 m c) else m ((c : Thread nD τ).loc r)

theorem outsA_v5 (n : ℕ) (c : Dev nD) : outsA m n main_v5 c = X5 m c := by
  unfold outsA; rw [dif_pos rfl]

/-- The contents the second region is entered from. -/
abbrev Vr3 : (c : Dev nD) → (b : Ref sig .tc) → Buf (Elt F) ((c : Thread nD τ).loc b) := fun c b => Gen.V3 m (outsA m) c b

/-- What the second region leaves in its result array. -/
def X10 (c : Dev nD) : Buf (Elt F) ((c : Thread nD τ).loc main_v10) := (Reg1.dat (Vr3 m) c).arrAt 6 cfg1.N

/-- Both regions' results. -/
def outs : Gen.Outs (F := F) := fun n r c =>
  if h : r = main_v10 then (by subst h; exact X10 m c) else outsA m n r c

theorem outs_v10 (n : ℕ) (c : Dev nD) : outs m n main_v10 c = X10 m c := by
  unfold outs; rw [dif_pos rfl]
theorem outs_v5 (n : ℕ) (c : Dev nD) : outs m n main_v5 c = X5 m c := by
  unfold outs; rw [dif_neg (by decide), outsA_v5]

theorem V2_outs (c : Dev nD) : Gen.V2 m (outs m) c = Gen.V2 m (outsA m) c := by
  unfold Gen.V2; rw [outs_v5, outsA_v5]
theorem V3_outs (c : Dev nD) : Gen.V3 m (outs m) c = Gen.V3 m (outsA m) c := by
  unfold Gen.V3; rw [V2_outs]

abbrev Vr2 : (c : Dev nD) → (b : Ref sig .tc) → Buf (Elt F) ((c : Thread nD τ).loc b) := fun c b => Gen.V2 m (outs m) c b
abbrev Vr4 : (c : Dev nD) → (b : Ref sig .tc) → Buf (Elt F) ((c : Thread nD τ).loc b) := fun c b => Gen.V4 m (outs m) c b

theorem V2_v5 (c : Dev nD) : Gen.V2 m (outs m) c main_v5 = X5 m c := by
  unfold Gen.V2; rw [Function.update_self, outs_v5]
theorem V4_v10 (c : Dev nD) : Gen.V4 m (outs m) c main_v10 = X10 m c := by
  unfold Gen.V4; rw [Function.update_self, outs_v10]

/-! ## The proof data family and what rides along -/

/-- Every pipeline's proof data, each at its region's entry contents. -/
def pdats : (p : Fin 2) → (c : Dev nD) → Dat τ (Elt F) Unit ℕ (UR sig nD τ) ℕ (Pipeline.pin (pcfgs (F := F)) Gen.adm p) c
  | ⟨0, _⟩ => fun c => Reg0.dat (Vr1 m) c
  | ⟨1, _⟩ => fun c => Reg1.dat (Vr3 m) c

abbrev 𝒱₀ : Variants := Variants.none
abbrev L : GSem nD τ sig → Finset Unit := fun _ => ∅
abbrev lv : GSem nD τ sig → Unit → ℕ := fun _ _ => 0
/-- Beside the buffers through every item: the generator register at some state, and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c
abbrev Tₙ (c : Dev nD) : sProp 𝕄 := iprop(StableHlo.held (c : Thread nD τ) (Pipeline.ucRefs τ sig) (Gen.V4 m (outs m) c) ∗ ∃ r, prngReg c r)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The first region: its arrays at exit -/

theorem hF0 (c : Dev nD) (w : Fin cfg0.W) : (pdats m 0 c).arrAt w cfg0.N = Vr2 m c (Pipeline.arrRef spec0 w) := by
  match w with
  | ⟨0, _⟩ => exact ((Reg0.dat (Vr1 m) c).arrAt_in 0 rfl _).trans ((Reg0.A_eq (Vr1 m) c 0).trans (Gen.V2_of m (outs m) c main_v0 (by decide)).symm)
  | ⟨1, _⟩ => exact ((Reg0.dat (Vr1 m) c).arrAt_in 1 rfl _).trans ((Reg0.A_eq (Vr1 m) c 1).trans (Gen.V2_of m (outs m) c main_v2 (by decide)).symm)
  | ⟨2, _⟩ => exact ((Reg0.dat (Vr1 m) c).arrAt_in 2 rfl _).trans ((Reg0.A_eq (Vr1 m) c 2).trans (Gen.V2_of m (outs m) c main_v4 (by decide)).symm)
  | ⟨3, _⟩ => exact (V2_v5 m c).symm

theorem hrest0 (c : Dev nD) : ∀ b, b ∉ Finset.univ.image (Pipeline.arrRef spec0) → Vr2 m c b = Vr1 m c b :=
  fun b hb => Gen.V2_of m (outs m) c b fun h => hb (by
    rw [List.mem_singleton.mp h]; exact Finset.mem_image.mpr ⟨3, Finset.mem_univ _, rfl⟩)

/-! ## The second region: its arrays' buffers, dealt among the windows and collected again -/

/-- The five distinct buffers behind the second region's seven windows. -/
theorem arrBufs1_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v6) ↦{fullShare} W main_v6) ∗ (((c : Thread nD τ).loc main_v9) ↦{fullShare} W main_v9) ∗ (((c : Thread nD τ).loc main_v7) ↦{fullShare} W main_v7) ∗ (((c : Thread nD τ).loc main_v8) ↦{fullShare} W main_v8) ∗ (((c : Thread nD τ).loc main_v10) ↦{fullShare} W main_v10)) := by
  unfold Pipeline.arrBufs
  exact bigSep_eq_bigSepL_of_eq [main_v6, main_v9, main_v7, main_v8, main_v10] (by decide) (by decide) _

/-- The share each of the second region's windows holds its array at. -/
theorem share_0 (V : (c : Dev nD) → (b : Ref sig .tc) → Buf (Elt F) ((c : Thread nD τ).loc b)) (c : Dev nD) : (Reg1.dat V c).share 0 = fullShare.left := by
  unfold Dat.share; rw [if_neg (by decide)]; rfl
theorem share_1 (V : (c : Dev nD) → (b : Ref sig .tc) → Buf (Elt F) ((c : Thread nD τ).loc b)) (c : Dev nD) : (Reg1.dat V c).share 1 = fullShare.right.left := by
  unfold Dat.share; rw [if_neg (by decide)]; rfl
theorem share_2 (V : (c : Dev nD) → (b : Ref sig .tc) → Buf (Elt F) ((c : Thread nD τ).loc b)) (c : Dev nD) : (Reg1.dat V c).share 2 = fullShare.right.right := by
  unfold Dat.share; rw [if_neg (by decide)]; rfl
theorem share_3 (V : (c : Dev nD) → (b : Ref sig .tc) → Buf (Elt F) ((c : Thread nD τ).loc b)) (c : Dev nD) : (Reg1.dat V c).share 3 = fullShare := by
  unfold Dat.share; rw [if_neg (by decide)]; rfl
theorem share_4 (V : (c : Dev nD) → (b : Ref sig .tc) → Buf (Elt F) ((c : Thread nD τ).loc b)) (c : Dev nD) : (Reg1.dat V c).share 4 = fullShare := by
  unfold Dat.share; rw [if_neg (by decide)]; rfl
theorem share_5 (V : (c : Dev nD) → (b : Ref sig .tc) → Buf (Elt F) ((c : Thread nD τ).loc b)) (c : Dev nD) : (Reg1.dat V c).share 5 = fullShare := by
  unfold Dat.share; rw [if_neg (by decide)]; rfl
theorem share_6 (V : (c : Dev nD) → (b : Ref sig .tc) → Buf (Elt F) ((c : Thread nD τ).loc b)) (c : Dev nD) : (Reg1.dat V c).share 6 = fullShare := by
  unfold Dat.share; rw [if_pos (by decide)]

/-- The second region's arrays, window by window, each at its share. -/
theorem arrays1_eq (V : (c : Dev nD) → (b : Ref sig .tc) → Buf (Elt F) ((c : Thread nD τ).loc b)) (c : Dev nD)
    (Fw : (w : Fin cfg1.W) → Buf (Elt F) ((cfg1.win w).arr.view.loc (c : Thread nD τ))) :
    ((Reg1.dat V c).arrays Fw : sProp 𝕄)
      = iprop((((cfg1.win 0).arr.view.loc (c : Thread nD τ)) ↦{fullShare.left} Fw 0) ∗ (((cfg1.win 1).arr.view.loc (c : Thread nD τ)) ↦{fullShare.right.left} Fw 1) ∗ (((cfg1.win 2).arr.view.loc (c : Thread nD τ)) ↦{fullShare.right.right} Fw 2) ∗ (((cfg1.win 3).arr.view.loc (c : Thread nD τ)) ↦{fullShare} Fw 3) ∗ (((cfg1.win 4).arr.view.loc (c : Thread nD τ)) ↦{fullShare} Fw 4) ∗ (((cfg1.win 5).arr.view.loc (c : Thread nD τ)) ↦{fullShare} Fw 5) ∗ (((cfg1.win 6).arr.view.loc (c : Thread nD τ)) ↦{fullShare} Fw 6)) := by
  unfold Dat.arrays
  rw [bigSep_W1, share_0, share_1, share_2, share_3, share_4, share_5, share_6,
    (Gen.arr_whole1 0).set_eq_univ, (Gen.arr_whole1 3).set_eq_univ,
    (Gen.arr_whole1 4).set_eq_univ, (Gen.arr_whole1 5).set_eq_univ, (Gen.arr_whole1 6).set_eq_univ]

/-- ENTRY: the packed query/key/value array's buffer is dealt among its three windows; every other array goes to its
    one window whole. -/
theorem entry1 (V : (c : Dev nD) → (b : Ref sig .tc) → Buf (Elt F) ((c : Thread nD τ).loc b)) (c : Dev nD) :
    (Pipeline.arrBufs (Ix := Unit) (Name := ℕ) (U := UR sig nD τ) (Lvl := ℕ) spec1 c (V c) : sProp 𝕄)
      ⊢ (Reg1.dat V c).arrays ((Reg1.dat V c).arrAt · 0) := by
  rw [arrBufs1_eq, arrays1_eq]
  iintro ⟨H6, H9, H7, H8, H10⟩
  ihave H6' := (pointsTo_share (PosShare.mem_left_op_right fullShare)).1 $$ H6
  icases H6' with ⟨H6a, H6r⟩
  ihave H6r' := (pointsTo_share (PosShare.mem_left_op_right fullShare.right)).1 $$ H6r
  icases H6r' with ⟨H6b, H6c⟩
  isplitl [H6a]; · iexact H6a
  isplitl [H6b]; · iexact H6b
  isplitl [H6c]; · iexact H6c
  isplitl [H9]; · iexact H9
  isplitl [H7]; · iexact H7
  isplitl [H8]; · iexact H8
  iexact H10

/-- EXIT: the three shares of the packed array, each still at the entry contents, are rejoined; the result array is
    at what the write-backs left. -/
theorem exit1 (V : (c : Dev nD) → (b : Ref sig .tc) → Buf (Elt F) ((c : Thread nD τ).loc b)) (c : Dev nD)
    (W : (b : Ref sig .tc) → Buf (Elt F) ((c : Thread nD τ).loc b))
    (h6 : W main_v6 = V c main_v6) (h9 : W main_v9 = V c main_v9) (h7 : W main_v7 = V c main_v7) (h8 : W main_v8 = V c main_v8)
    (h10 : W main_v10 = (Reg1.dat V c).arrAt 6 cfg1.N) :
    ((Reg1.dat V c).arrays ((Reg1.dat V c).arrAt · cfg1.N) : sProp 𝕄)
      ⊢ Pipeline.arrBufs (Ix := Unit) (Name := ℕ) (U := UR sig nD τ) (Lvl := ℕ) spec1 c W := by
  rw [arrBufs1_eq, arrays1_eq, h6, h9, h7, h8, h10]
  rw [(Reg1.dat V c).arrAt_in 0 rfl, (Reg1.dat V c).arrAt_in 1 rfl, (Reg1.dat V c).arrAt_in 2 rfl, (Reg1.dat V c).arrAt_in 3 rfl,
    (Reg1.dat V c).arrAt_in 4 rfl, (Reg1.dat V c).arrAt_in 5 rfl]
  iintro ⟨Ha, Hb, Hc, H9, H7, H8, H10⟩
  isplitl [Ha Hb Hc]
  · iapply (pointsTo_share (PosShare.mem_left_op_right fullShare)).2
    isplitl [Ha]; · iexact Ha
    iapply (pointsTo_share (PosShare.mem_left_op_right fullShare.right)).2
    isplitl [Hb]; · iexact Hb
    iexact Hc
  isplitl [H9]; · iexact H9
  isplitl [H7]; · iexact H7
  isplitl [H8]; · iexact H8
  iexact H10

/-! ## The regions as segments -/

theorem Vr4_of (c : Dev nD) (r : Ref sig .tc) (h : r ∉ ([main_v10] : List (Ref sig .tc))) : Vr4 m c r = Vr3 m c r := by
  show Gen.V4 m (outs m) c r = Gen.V3 m (outsA m) c r
  rw [Gen.V4_of m (outs m) c r h, V3_outs]

set_option backward.isDefEq.respectTransparency.types false in
/-- The first region over the thread state: entered from every unscoped buffer at the contents after the first host
    stretch, left with its result array at what its write-backs leave.  Its arrays are distinct buffers, split out of the
    unscoped buffers and put back; the generator register goes into the region's invariant and comes out; nothing is owed;
    the kernel has no semaphore of its own. -/
def reg0 : Pipeline.RegionSeg (pcfgs (F := F)) Gen.adm (pdats m) () defs₀ 𝒱₀ L lv 0 where
  win := Gen.launch0.win.to₀
  block_pos := Gen.launch0.block_pos
  stage_whole := Gen.launch0.stage_whole
  K := PEmpty
  osem k := k.elim
  ho := Pipeline.OwnSemFacts.none _
  hbody c := (Reg0.body_obligation (Vr1 m) c).loose
  hwaits := Pipeline.hwaits_of_owed_zero _ _ _ _ L lv 0 fun _ _ => rfl
  pre c := iprop(StableHlo.held (c : Thread nD τ) (Pipeline.ucRefs τ sig) (Gen.V1 m c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) Gen.adm (pdats m) Gen.launch0.win Gen.launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region over the thread state: entered from every unscoped buffer at the contents after the second host
    stretch, left with its result array at what its write-backs leave.  Three of its windows share one array: the buffers
    behind its arrays are split out of the unscoped buffers, dealt among the windows, collected again at exit and put back. -/
def reg1 : Pipeline.RegionSeg (pcfgs (F := F)) Gen.adm (pdats m) () defs₀ 𝒱₀ L lv 1 where
  win := Gen.winFacts₀1
  block_pos := Gen.block_pos1
  stage_whole := Gen.stage_whole1
  K := PEmpty
  osem k := k.elim
  ho := Pipeline.OwnSemFacts.none _
  hbody c := (Reg1.body_obligation (Vr3 m) c).loose
  hwaits := Pipeline.hwaits_of_owed_zero _ _ _ _ L lv 1 fun _ _ => rfl
  pre c := iprop(StableHlo.held (c : Thread nD τ) (Pipeline.ucRefs τ sig) (Gen.V3 m (outs m) c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vr3 m c)
  hentry c := by
    rw [Pipeline.ownSems0_none, V3_outs m c]
    have hsplit : (unscopedBufs c (Vr3 m c) : sProp 𝕄)
        ⊢ iprop((pdats m 1 c).arrays ((pdats m 1 c).arrAt · 0) ∗ Pipeline.unscopedRest (Ix := Unit) (Name := ℕ) (U := UR sig nD τ) (Lvl := ℕ) spec1 c (Vr3 m c)) := by
      rw [Pipeline.unscopedBufs_split₀ (Pipeline.pin (pcfgs (F := F)) Gen.adm) 1 Gen.winFacts₀1.arr_unscoped c (Vr3 m c)]
      exact sep_mono (entry1 (Vr3 m) c) .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (Reg1.hin (Vr3 m) c)
    unfold Pipeline.ΦA
    iintro ⟨Hp, -, Hr⟩
    isplitl [Hr]; · iexact Hr
    iexact Hp
  hout c := by
    rw [Pipeline.ownSems0_none]
    refine (Reg1.hout (Vr3 m) c).trans ?_
    unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest (Ix := Unit) (Name := ℕ) (U := UR sig nD τ) (Lvl := ℕ) spec1 c (Vr3 m c))
        ⊢ (unscopedBufs c (Vr4 m c) : sProp 𝕄) := by
      rw [Pipeline.unscopedBufs_split₀ (Pipeline.pin (pcfgs (F := F)) Gen.adm) 1 Gen.winFacts₀1.arr_unscoped c (Vr4 m c)]
      refine sep_mono (exit1 (Vr3 m) c (Vr4 m c) (Vr4_of m c main_v6 (by decide)) (Vr4_of m c main_v9 (by decide)) (Vr4_of m c main_v7 (by decide))
        (Vr4_of m c main_v8 (by decide)) (V4_v10 m c)) (Entails.of_eq ?_)
      unfold Pipeline.unscopedRest
      exact bigSep_congr fun b hb => by
        rw [Vr4_of m c b fun h => (Finset.mem_sdiff.mp hb).2 (by
          rw [List.mem_singleton.mp h]; exact Finset.mem_image.mpr ⟨6, Finset.mem_univ _, rfl⟩)]
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) Gen.adm (pdats m) () defs₀ 𝒱₀ L lv) :=
  [ .host (Gen.seg0 m 𝒱₀ L lv E),
    .region (reg0 m),
    .host (Gen.seg2 m (outs m) 𝒱₀ L lv E),
    .region (reg1 m) ]

set_option backward.isDefEq.respectTransparency.types false in
/-- THE RUN.  At the compiled mesh, for any float values, from any memory with zero counters: every weakly fair execution of
    @main on the TensorCores terminates, nothing faulting, and every final state has every unscoped buffer at the last
    boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Gen.V4 m (outs m) c b) :=
  Pipeline.θ_run_regions_kit (pcfgs (F := F)) Gen.adm (pdats m) () Gen.cellOf_inj emb₁ defs₀ 𝒱₀ L lv m ρ main (segs m)
    (fun c Q => by
      rewrite [Gen.main_chain c, Pipeline.Seg.run_eq_chain,
        show (segs m).map Pipeline.Seg.prog = [
          StableHlo.seq Gen.hostOps0,
          Prog.lift (.customCall (Pipeline.entry 0) ()),
          StableHlo.seq Gen.hostOps1,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.V4 m (outs m) c b)
    (hfin := fun c s' => by
      iintro ⟨⟨Hh, -⟩, HSI⟩
      unfold StableHlo.held
      imodintro
      iapply (pointsTo_read_all (Pipeline.ucRefs τ sig) (fun b => (((c : Thread nD τ)).1, b)) (Gen.V4 m (outs m) c) s')
      isplitl [Hh] <;> iassumption)
    (hQ := fun s h c => h c)

/-- THE FRAME: every argument array ends as launched (no host operation and no region writes one). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c),
     (h c _ (mem_uc main_arg4 (by decide))).trans (Gen.V4_main_arg4 m (outs m) c),
     (h c _ (mem_uc main_arg5 (by decide))).trans (Gen.V4_main_arg5 m (outs m) c),
     (h c _ (mem_uc main_arg6 (by decide))).trans (Gen.V4_main_arg6 m (outs m) c),
     (h c _ (mem_uc main_arg7 (by decide))).trans (Gen.V4_main_arg7 m (outs m) c),
     (h c _ (mem_uc main_arg8 (by decide))).trans (Gen.V4_main_arg8 m (outs m) c),
     (h c _ (mem_uc main_arg9 (by decide))).trans (Gen.V4_main_arg9 m (outs m) c)⟩) (run_all m ρ)

end Cert.KernelIdeal.Frames

end
-- ==== Proof.KernelRun.lean ====
/-
  The program's run with its result named: every weakly fair execution ends with the result buffer at what the attention
  region's write-backs leave, and with the ten argument buffers as launched.
-/
import proofs.«100896_j48627619725380_2_alg».proof.Proof.Frames
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Cert.KernelIdeal.Frames

variable (m : (ℓ : Loc nD τ sig) → Buf (Elt F) ℓ) (ρ : Dev nD → PrngReg)

theorem run_value : θ_run defs (onTc (τ := τ) (main (F := F))) ⟨m, fun _ => 0, ρ⟩ (fun r => ∀ c : Dev nD,
      r.2.mem ((c.tc : Thread nD τ).loc main_v10) = X10 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨(h c _ (mem_uc main_v10 (by decide))).trans (V4_v10 m c),
     (h c _ (mem_uc main_arg0 (by decide))).trans (Gen.V4_main_arg0 m (outs m) c),
     (h c _ (mem_uc main_arg1 (by decide))).trans (Gen.V4_main_arg1 m (outs m) c),
     (h c _ (mem_uc main_arg2 (by decide))).trans (Gen.V4_main_arg2 m (outs m) c),
     (h c _ (mem_uc main_arg3 (by decide))).trans (Gen.V4_main_arg3 m (outs m) c),
     (h c _ (mem_uc main_arg4 (by decide))).trans (Gen.V4_main_arg4 m (outs m) c),
     (h c _ (mem_uc main_arg5 (by decide))).trans (Gen.V4_main_arg5 m (outs m) c),
     (h c _ (mem_uc main_arg6 (by decide))).trans (Gen.V4_main_arg6 m (outs m) c),
     (h c _ (mem_uc main_arg7 (by decide))).trans (Gen.V4_main_arg7 m (outs m) c),
     (h c _ (mem_uc main_arg8 (by decide))).trans (Gen.V4_main_arg8 m (outs m) c),
     (h c _ (mem_uc main_arg9 (by decide))).trans (Gen.V4_main_arg9 m (outs m) c)⟩) (run_all m ρ)

end Cert.KernelIdeal.KernelRun

end
-- ==== Proof.Flash.lean ====
/-
  One attention block as a pure function of the blocks the two key/value steps read.

  The attention kernel visits each (batch, query tile) at two consecutive grid points, one per key/value tile of
  1024 positions, and keeps three running quantities between them: the row maxima `m`, the row sums `l` of the
  exponentials and the unnormalised context `a`.  At the first of the two points they are reset (to -∞, 0, 0) before
  the update; at the second the update is followed by the normalisation `a / l`, the output projection and its bias.
  Here the two updates and the closing step are composed, from the body's own arithmetic (the generated payload
  terms), into one function of the query tile, the two key tiles, the two value tiles, the two mask tiles, the
  output weights and the output bias.  The same text serves any float instance.
-/
import proofs.«100896_j48627619725380_2_alg».proof.Proof.Gen.KernelIdeal.Skeleton

noncomputable section

namespace Cert.KernelIdeal.Flash

open Idealize.ShloMosaic Cert.KernelIdeal Cert.KernelIdeal.Gen

variable {F : FTy → Type} [FloatOps F]

/-- Row maxima after one update from the running maxima `mp`. -/
def stepM (q : Vec F S1x512x1024 .bf16) (k : Vec F S1x1024x1024 .bf16) (msk : Vec F S1x512x1024 .i32)
    (mp : Vec F S512x1 .f32) : Vec F S512x1 .f32 :=
  k1_pay3 (k1_pay10 q k msk mp)

/-- Row sums after one update from the running maxima `mp` and sums `lp`. -/
def stepL (q : Vec F S1x512x1024 .bf16) (k : Vec F S1x1024x1024 .bf16) (msk : Vec F S1x512x1024 .i32)
    (mp lp : Vec F S512x1 .f32) : Vec F S512x1 .f32 :=
  k1_pay1 (k1_pay13 q k msk mp lp)

/-- Unnormalised context after one update from the running maxima `mp` and context `ap`. -/
def stepA (q : Vec F S1x512x1024 .bf16) (k v : Vec F S1x1024x1024 .bf16) (msk : Vec F S1x512x1024 .i32)
    (mp : Vec F S512x1 .f32) (ap : Vec F S512x1024 .f32) : Vec F S512x1024 .f32 :=
  k1_pay2 (k1_pay8 v) (k1_pay11 q k msk mp) (k1_pay12 q k msk mp) ap

/-- The three running quantities after the first key/value tile, started from the reset values. -/
def m0 (q : Vec F S1x512x1024 .bf16) (k0 : Vec F S1x1024x1024 .bf16) (msk0 : Vec F S1x512x1024 .i32) : Vec F S512x1 .f32 :=
  stepM q k0 msk0 (k1_pay5 (F := F))
def l0 (q : Vec F S1x512x1024 .bf16) (k0 : Vec F S1x1024x1024 .bf16) (msk0 : Vec F S1x512x1024 .i32) : Vec F S512x1 .f32 :=
  stepL q k0 msk0 (k1_pay5 (F := F)) (k1_pay6 (F := F))
def a0 (q : Vec F S1x512x1024 .bf16) (k0 v0 : Vec F S1x1024x1024 .bf16) (msk0 : Vec F S1x512x1024 .i32) : Vec F S512x1024 .f32 :=
  stepA q k0 v0 msk0 (k1_pay5 (F := F)) (k1_pay7 (F := F))

/-- The block the second point stores: both updates, then `a / l`, the output projection and the bias. -/
def outBlock (q : Vec F S1x512x1024 .bf16) (k0 k1 v0 v1 : Vec F S1x1024x1024 .bf16) (msk0 msk1 : Vec F S1x512x1024 .i32)
    (wo : Vec F S1024x1024 .bf16) (bo : Vec F S1x1024 .f32) : Vec F S1x512x1024 .f32 :=
  k1_pay4 (stepA q k1 v1 msk1 (m0 q k0 msk0) (a0 q k0 v0 msk0)) (stepL q k1 msk1 (m0 q k0 msk0) (l0 q k0 msk0)) wo bo

end Cert.KernelIdeal.Flash

end
-- ==== Proof.Reg1Value.lean ====
/-
  The attention region's result array, entry by entry.

  The region's 32 grid points come in pairs: for batch `b` and query tile `qi` (512 rows) the even point reads the
  first key/value tile (rows 0…1023 of the batch), the odd point the second (rows 1024…2047), and only the odd
  point writes the output block back.  What it writes is one function of whole tiles: the query tile, the two key
  tiles, the two value tiles, the two mask tiles, the output weights and the output bias.  So the result array ends
  holding ONE function of the four arrays the region finds: at batch `b`, row `s`, feature `e`, that block
  function of the tiles of batch `b` and query tile `s / 512`, at row `s % 512`, feature `e`.  The queries,
  keys and values are the three thirds of the columns of one packed array.

  Steps: every window's block index as a function of the point, decided over the grid; each window's block at a
  point read off its array (a block's entry sits at block index × block size + its own coordinate); what an odd
  point writes back is its block of the function; row `s` of batch `b` lies in the block of the odd point
  `8·b + 2·(s / 512) + 1`; hence the array after the last write-back is the function.  That an odd point's stored
  block is the block function of the pair's tiles is taken as a hypothesis.
-/
import proofs.«100896_j48627619725380_2_alg».proof.Proof.Reg1
import proofs.«100896_j48627619725380_2_alg».proof.Proof.Flash
import Idealize.ShloMosaic.Lib.Pipeline.Value
import Idealize.ShloMosaic.Lib.ValueIdx

noncomputable section

namespace Cert.KernelIdeal.Reg1Value

open Idealize.ShloMosaic Idealize.ShloMosaic.TcCoe Idealize.SL.Sem Idealize.ShloMosaic.ValueIdx
open Idealize.ShloMosaic.Pipeline (Dat)
open Cert.KernelIdeal Cert.KernelIdeal.Gen

/-! ## The tiles of the arrays -/

/-- Query tile `qi` of batch `b`: rows `512·qi …`, the first third of the columns. -/
def qTile (QKV : S4x2048x3072.Idx → EReal) (b qi : Fin 4) : Vec Ideal S1x512x1024 .bf16 := fun y =>
  QKV (ix3 b (⟨512 * qi.val + (y 1).val, by have h1 : (y 1).val < 512 := (y 1).isLt; have := qi.isLt; omega⟩ : Fin 2048)
    (⟨(y 2).val, by have h2 : (y 2).val < 1024 := (y 2).isLt; omega⟩ : Fin 3072))

/-- Key tile `kv` of batch `b`: rows `1024·kv …`, the second third of the columns. -/
def kTile (QKV : S4x2048x3072.Idx → EReal) (b : Fin 4) (kv : Fin 2) : Vec Ideal S1x1024x1024 .bf16 := fun y =>
  QKV (ix3 b (⟨1024 * kv.val + (y 1).val, by have h1 : (y 1).val < 1024 := (y 1).isLt; have := kv.isLt; omega⟩ : Fin 2048)
    (⟨1024 + (y 2).val, by have h2 : (y 2).val < 1024 := (y 2).isLt; omega⟩ : Fin 3072))

/-- Value tile `kv` of batch `b`: rows `1024·kv …`, the last third of the columns. -/
def vTile (QKV : S4x2048x3072.Idx → EReal) (b : Fin 4) (kv : Fin 2) : Vec Ideal S1x1024x1024 .bf16 := fun y =>
  QKV (ix3 b (⟨1024 * kv.val + (y 1).val, by have h1 : (y 1).val < 1024 := (y 1).isLt; have := kv.isLt; omega⟩ : Fin 2048)
    (⟨2048 + (y 2).val, by have h2 : (y 2).val < 1024 := (y 2).isLt; omega⟩ : Fin 3072))

/-- Mask tile `(qi, kv)` of batch `b`: rows `512·qi …`, columns `1024·kv …`. -/
def mTile (MSK : S4x2048x2048.Idx → BitVec 32) (b qi : Fin 4) (kv : Fin 2) : Vec Ideal S1x512x1024 .i32 := fun y =>
  MSK (ix3 b (⟨512 * qi.val + (y 1).val, by have h1 : (y 1).val < 512 := (y 1).isLt; have := qi.isLt; omega⟩ : Fin 2048)
    (⟨1024 * kv.val + (y 2).val, by have h2 : (y 2).val < 1024 := (y 2).isLt; have := kv.isLt; omega⟩ : Fin 2048))

theorem qTile_apply (QKV : S4x2048x3072.Idx → EReal) (b qi : Fin 4) (u : Fin 1) (r : Fin 512) (d : Fin 1024)
    (k : Fin 2048) (j : Fin 3072) (hk : k.val = 512 * qi.val + r.val) (hj : j.val = d.val) :
    qTile QKV b qi (ix3 u r d) = QKV (ix3 b k j) := by
  unfold qTile; exact congrArg QKV (by rw [show k = ⟨512 * qi.val + r.val, _⟩ from Fin.ext hk, show j = ⟨d.val, _⟩ from Fin.ext hj])
theorem kTile_apply (QKV : S4x2048x3072.Idx → EReal) (b : Fin 4) (kv : Fin 2) (u : Fin 1) (r : Fin 1024) (d : Fin 1024)
    (k : Fin 2048) (j : Fin 3072) (hk : k.val = 1024 * kv.val + r.val) (hj : j.val = 1024 + d.val) :
    kTile QKV b kv (ix3 u r d) = QKV (ix3 b k j) := by
  unfold kTile; exact congrArg QKV (by rw [show k = ⟨1024 * kv.val + r.val, _⟩ from Fin.ext hk, show j = ⟨1024 + d.val, _⟩ from Fin.ext hj])
theorem vTile_apply (QKV : S4x2048x3072.Idx → EReal) (b : Fin 4) (kv : Fin 2) (u : Fin 1) (r : Fin 1024) (d : Fin 1024)
    (k : Fin 2048) (j : Fin 3072) (hk : k.val = 1024 * kv.val + r.val) (hj : j.val = 2048 + d.val) :
    vTile QKV b kv (ix3 u r d) = QKV (ix3 b k j) := by
  unfold vTile; exact congrArg QKV (by rw [show k = ⟨1024 * kv.val + r.val, _⟩ from Fin.ext hk, show j = ⟨2048 + d.val, _⟩ from Fin.ext hj])
theorem mTile_apply (MSK : S4x2048x2048.Idx → BitVec 32) (b qi : Fin 4) (kv : Fin 2) (u : Fin 1) (r : Fin 512) (d : Fin 1024)
    (k : Fin 2048) (j : Fin 2048) (hk : k.val = 512 * qi.val + r.val) (hj : j.val = 1024 * kv.val + d.val) :
    mTile MSK b qi kv (ix3 u r d) = MSK (ix3 b k j) := by
  unfold mTile; exact congrArg MSK (by rw [show k = ⟨512 * qi.val + r.val, _⟩ from Fin.ext hk, show j = ⟨1024 * kv.val + d.val, _⟩ from Fin.ext hj])

/-! ## The whole-array function -/

/-- The batch of an index of the result array. -/
def bOf (i : S4x2048x1024.Idx) : Fin 4 := ⟨(i 0).val, (i 0).isLt⟩
/-- Its query tile. -/
def qOf (i : S4x2048x1024.Idx) : Fin 4 := ⟨(i 1).val / 512, by have h1 : (i 1).val < 2048 := (i 1).isLt; omega⟩
/-- Its place inside the block. -/
def pOf (i : S4x2048x1024.Idx) : S1x512x1024.Idx :=
  ix3 (0 : Fin 1) (⟨(i 1).val % 512, by omega⟩ : Fin 512) (⟨(i 2).val, (i 2).isLt⟩ : Fin 1024)

/-- The layer's result from the packed projections: at each index the block function of the tiles of the index's
    batch and query tile. -/
def attn (QKV : S4x2048x3072.Idx → EReal) (MSK : S4x2048x2048.Idx → BitVec 32) (WO : S1024x1024.Idx → EReal)
    (BO : S1x1024.Idx → EReal) : S4x2048x1024.Idx → EReal := fun i =>
  Flash.outBlock (F := Ideal) (qTile QKV (bOf i) (qOf i)) (kTile QKV (bOf i) 0) (kTile QKV (bOf i) 1)
    (vTile QKV (bOf i) 0) (vTile QKV (bOf i) 1) (mTile MSK (bOf i) (qOf i) 0) (mTile MSK (bOf i) (qOf i) 1) WO BO (pOf i)

/-- One entry of one block: the block function of a pair's tiles at `p` is the whole-array function at batch `b`, row
    `512·qi + p 1`, feature `p 2`. -/
theorem point_eq (QKV : S4x2048x3072.Idx → EReal) (MSK : S4x2048x2048.Idx → BitVec 32) (WO : S1024x1024.Idx → EReal)
    (BO : S1x1024.Idx → EReal)
    (q : Vec Ideal S1x512x1024 .bf16) (k0 k1 v0 v1 : Vec Ideal S1x1024x1024 .bf16) (m0 m1 : Vec Ideal S1x512x1024 .i32)
    (wo : Vec Ideal S1024x1024 .bf16) (bo : Vec Ideal S1x1024 .f32) (b qi : Fin 4)
    (hq : q = qTile QKV b qi) (hk0 : k0 = kTile QKV b 0) (hk1 : k1 = kTile QKV b 1)
    (hv0 : v0 = vTile QKV b 0) (hv1 : v1 = vTile QKV b 1) (hm0 : m0 = mTile MSK b qi 0) (hm1 : m1 = mTile MSK b qi 1)
    (hwo : wo = WO) (hbo : bo = BO)
    (p : S1x512x1024.Idx) (i : S4x2048x1024.Idx) (hi0 : (i 0).val = b.val) (hi1 : (i 1).val = 512 * qi.val + (p 1).val)
    (hi2 : (i 2).val = (p 2).val) :
    Flash.outBlock (F := Ideal) q k0 k1 v0 v1 m0 m1 wo bo p = attn QKV MSK WO BO i := by
  subst hq hk0 hk1 hv0 hv1 hm0 hm1 hwo hbo
  have hp0 : (p 0).val < 1 := (p 0).isLt
  have hp1 : (p 1).val < 512 := (p 1).isLt
  have eb : bOf i = b := Fin.ext hi0
  have eq : qOf i = qi := Fin.ext (by show (i 1).val / 512 = qi.val; omega)
  have ep : pOf i = p := funext fun a => Fin.ext (by
    match a with
    | ⟨0, _⟩ => show (0 : Fin 1).val = (p 0).val; omega
    | ⟨1, _⟩ => show (i 1).val % 512 = (p 1).val; omega
    | ⟨2, _⟩ => exact hi2)
  unfold attn
  rw [eb, eq, ep]

/-! ## Every window's block index, as a function of the point -/

theorem idx0 : ∀ t : Fin cfg1.N, win1_0.index t (0 : Fin 3) = t.val / 8 ∧ win1_0.index t (1 : Fin 3) = t.val / 2 % 4
    ∧ win1_0.index t (2 : Fin 3) = 0 :=
  (by decide +kernel : ∀ t : Fin grid1.N, _)
theorem idx1 : ∀ t : Fin cfg1.N, win1_1.index t (0 : Fin 3) = t.val / 8 ∧ win1_1.index t (1 : Fin 3) = t.val % 2
    ∧ win1_1.index t (2 : Fin 3) = 1 :=
  (by decide +kernel : ∀ t : Fin grid1.N, _)
theorem idx2 : ∀ t : Fin cfg1.N, win1_2.index t (0 : Fin 3) = t.val / 8 ∧ win1_2.index t (1 : Fin 3) = t.val % 2
    ∧ win1_2.index t (2 : Fin 3) = 2 :=
  (by decide +kernel : ∀ t : Fin grid1.N, _)
theorem idx3 : ∀ t : Fin cfg1.N, win1_3.index t (0 : Fin 3) = t.val / 8 ∧ win1_3.index t (1 : Fin 3) = t.val / 2 % 4
    ∧ win1_3.index t (2 : Fin 3) = t.val % 2 :=
  (by decide +kernel : ∀ t : Fin grid1.N, _)
theorem idx4 : ∀ t : Fin cfg1.N, win1_4.index t (0 : Fin 2) = 0 ∧ win1_4.index t (1 : Fin 2) = 0 :=
  (by decide +kernel : ∀ t : Fin grid1.N, _)
theorem idx5 : ∀ t : Fin cfg1.N, win1_5.index t (0 : Fin 2) = 0 ∧ win1_5.index t (1 : Fin 2) = 0 :=
  (by decide +kernel : ∀ t : Fin grid1.N, _)
theorem idx6 : ∀ t : Fin cfg1.N, win1_6.index t (0 : Fin 3) = t.val / 8 ∧ win1_6.index t (1 : Fin 3) = t.val / 2 % 4
    ∧ win1_6.index t (2 : Fin 3) = 0 :=
  (by decide +kernel : ∀ t : Fin grid1.N, _)

/-! ## The windows' blocks, read where the arrays hold them -/

variable (V : (c : Dev nD) → (b : Ref sig .tc) → Buf (Elt Ideal) ((c : Thread nD τ).loc b))

/-- The query window's block at point `t` is query tile `t / 2 % 4` of batch `t / 8`. -/
theorem iblk0_eq (c : Dev nD) (t : Fin cfg1.N) (QKV : S4x2048x3072.Idx → EReal) (hQ : QKV = V c main_v6)
    (b qi : Fin 4) (hb : b.val = t.val / 8) (hq : qi.val = t.val / 2 % 4) :
    (Reg1.iblk V c 0 t : Vec Ideal S1x512x1024 .bf16) = qTile QKV b qi := by
  subst hQ
  obtain ⟨e0, e1, e2⟩ := idx0 t
  funext y
  have h0 : (y 0).val < 1 := (y 0).isLt
  unfold Reg1.iblk qTile
  rw [View.read_apply]
  show (V c main_v6 : S4x2048x3072.Idx → EReal) _ = (V c main_v6 : S4x2048x3072.Idx → EReal) _
  refine congrArg _ (funext fun a => Fin.ext ?_)
  match a with
  | ⟨0, _⟩ => show win1_0.index t (0 : Fin 3) * 1 + 1 * (y 0).val = b.val; rw [e0, hb]; omega
  | ⟨1, _⟩ => show win1_0.index t (1 : Fin 3) * 512 + 1 * (y 1).val = 512 * qi.val + (y 1).val; rw [e1, hq]; omega
  | ⟨2, _⟩ => show win1_0.index t (2 : Fin 3) * 1024 + 1 * (y 2).val = (y 2).val; rw [e2]; omega

/-- The key window's block at point `t` is key tile `t % 2` of batch `t / 8`. -/
theorem iblk1_eq (c : Dev nD) (t : Fin cfg1.N) (QKV : S4x2048x3072.Idx → EReal) (hQ : QKV = V c main_v6)
    (b : Fin 4) (kv : Fin 2) (hb : b.val = t.val / 8) (hk : kv.val = t.val % 2) :
    (Reg1.iblk V c 1 t : Vec Ideal S1x1024x1024 .bf16) = kTile QKV b kv := by
  subst hQ
  obtain ⟨e0, e1, e2⟩ := idx1 t
  funext y
  have h0 : (y 0).val < 1 := (y 0).isLt
  unfold Reg1.iblk kTile
  rw [View.read_apply]
  show (V c main_v6 : S4x2048x3072.Idx → EReal) _ = (V c main_v6 : S4x2048x3072.Idx → EReal) _
  refine congrArg _ (funext fun a => Fin.ext ?_)
  match a with
  | ⟨0, _⟩ => show win1_1.index t (0 : Fin 3) * 1 + 1 * (y 0).val = b.val; rw [e0, hb]; omega
  | ⟨1, _⟩ => show win1_1.index t (1 : Fin 3) * 1024 + 1 * (y 1).val = 1024 * kv.val + (y 1).val; rw [e1, hk]; omega
  | ⟨2, _⟩ => show win1_1.index t (2 : Fin 3) * 1024 + 1 * (y 2).val = 1024 + (y 2).val; rw [e2]; omega

/-- The value window's block at point `t` is value tile `t % 2` of batch `t / 8`. -/
theorem iblk2_eq (c : Dev nD) (t : Fin cfg1.N) (QKV : S4x2048x3072.Idx → EReal) (hQ : QKV = V c main_v6)
    (b : Fin 4) (kv : Fin 2) (hb : b.val = t.val / 8) (hk : kv.val = t.val % 2) :
    (Reg1.iblk V c 2 t : Vec Ideal S1x1024x1024 .bf16) = vTile QKV b kv := by
  subst hQ
  obtain ⟨e0, e1, e2⟩ := idx2 t
  funext y
  have h0 : (y 0).val < 1 := (y 0).isLt
  unfold Reg1.iblk vTile
  rw [View.read_apply]
  show (V c main_v6 : S4x2048x3072.Idx → EReal) _ = (V c main_v6 : S4x2048x3072.Idx → EReal) _
  refine congrArg _ (funext fun a => Fin.ext ?_)
  match a with
  | ⟨0, _⟩ => show win1_2.index t (0 : Fin 3) * 1 + 1 * (y 0).val = b.val; rw [e0, hb]; omega
  | ⟨1, _⟩ => show win1_2.index t (1 : Fin 3) * 1024 + 1 * (y 1).val = 1024 * kv.val + (y 1).val; rw [e1, hk]; omega
  | ⟨2, _⟩ => show win1_2.index t (2 : Fin 3) * 1024 + 1 * (y 2).val = 2048 + (y 2).val; rw [e2]; omega

/-- The mask window's block at point `t` is mask tile `(t / 2 % 4, t % 2)` of batch `t / 8`. -/
theorem iblk3_eq (c : Dev nD) (t : Fin cfg1.N) (MSK : S4x2048x2048.Idx → BitVec 32) (hM : MSK = V c main_v9)
    (b qi : Fin 4) (kv : Fin 2) (hb : b.val = t.val / 8) (hq : qi.val = t.val / 2 % 4) (hk : kv.val = t.val % 2) :
    (Reg1.iblk V c 3 t : Vec Ideal S1x512x1024 .i32) = mTile MSK b qi kv := by
  subst hM
  obtain ⟨e0, e1, e2⟩ := idx3 t
  funext y
  have h0 : (y 0).val < 1 := (y 0).isLt
  unfold Reg1.iblk mTile
  rw [View.read_apply]
  show (V c main_v9 : S4x2048x2048.Idx → BitVec 32) _ = (V c main_v9 : S4x2048x2048.Idx → BitVec 32) _
  refine congrArg _ (funext fun a => Fin.ext ?_)
  match a with
  | ⟨0, _⟩ => show win1_3.index t (0 : Fin 3) * 1 + 1 * (y 0).val = b.val; rw [e0, hb]; omega
  | ⟨1, _⟩ => show win1_3.index t (1 : Fin 3) * 512 + 1 * (y 1).val = 512 * qi.val + (y 1).val; rw [e1, hq]; omega
  | ⟨2, _⟩ => show win1_3.index t (2 : Fin 3) * 1024 + 1 * (y 2).val = 1024 * kv.val + (y 2).val; rw [e2, hk]; omega

/-- Every point's block of the output weights is the whole matrix. -/
theorem iblk4_eq (c : Dev nD) (t : Fin cfg1.N) (WO : S1024x1024.Idx → EReal) (hW : WO = V c main_v7) :
    (Reg1.iblk V c 4 t : Vec Ideal S1024x1024 .bf16) = WO := by
  subst hW
  obtain ⟨e0, e1⟩ := idx4 t
  funext y
  unfold Reg1.iblk
  rw [View.read_apply]
  show (V c main_v7 : S1024x1024.Idx → EReal) _ = (V c main_v7 : S1024x1024.Idx → EReal) _
  refine congrArg _ (funext fun a => Fin.ext ?_)
  match a with
  | ⟨0, _⟩ => show win1_4.index t (0 : Fin 2) * 1024 + 1 * (y 0).val = (y 0).val; rw [e0]; omega
  | ⟨1, _⟩ => show win1_4.index t (1 : Fin 2) * 1024 + 1 * (y 1).val = (y 1).val; rw [e1]; omega

/-- Every point's block of the output bias is the whole row. -/
theorem iblk5_eq (c : Dev nD) (t : Fin cfg1.N) (BO : S1x1024.Idx → EReal) (hB : BO = V c main_v8) :
    (Reg1.iblk V c 5 t : Vec Ideal S1x1024 .f32) = BO := by
  subst hB
  obtain ⟨e0, e1⟩ := idx5 t
  funext y
  unfold Reg1.iblk
  rw [View.read_apply]
  show (V c main_v8 : S1x1024.Idx → EReal) _ = (V c main_v8 : S1x1024.Idx → EReal) _
  refine congrArg _ (funext fun a => Fin.ext ?_)
  match a with
  | ⟨0, _⟩ => show win1_5.index t (0 : Fin 2) * 1 + 1 * (y 0).val = (y 0).val; rw [e0]; omega
  | ⟨1, _⟩ => show win1_5.index t (1 : Fin 2) * 1024 + 1 * (y 1).val = (y 1).val; rw [e1]; omega

/-! ## A block of the result window, against a whole-array function -/

/-- Contents `X` of the result window's staging buffer that agree, entry by entry, with a whole-array function `G` at
    the place of point `t`'s block (batch `t / 8`, rows `512·(t / 2 % 4) …`) are what point `t` would write back of `G`. -/
theorem cut_eq_read6 (t : Fin cfg1.N) (X : Vec Ideal S1x512x1024 .f32) (G : S4x2048x1024.Idx → EReal)
    (hXG : ∀ (p : S1x512x1024.Idx) (i : S4x2048x1024.Idx), (i 0).val = t.val / 8 →
      (i 1).val = 512 * (t.val / 2 % 4) + (p 1).val → (i 2).val = (p 2).val → X p = G i) :
    (cfg1.win 6).cut (grid1.coords t) X = ((cfg1.win 6).blk t).view.read (Elt Ideal) G := by
  obtain ⟨e0, e1, e2⟩ := idx6 t
  funext y
  have h0 : (y 0).val < 1 := (y 0).isLt
  refine hXG ((cfg1.win 6).xinj (grid1.coords t) y) (((cfg1.win 6).blk t).view.emb y) ?_ ?_ ?_
  · show win1_6.index t (0 : Fin 3) * 1 + 1 * (y 0).val = t.val / 8
    rw [e0]; omega
  · show win1_6.index t (1 : Fin 3) * 512 + 1 * (y 1).val = 512 * (t.val / 2 % 4) + (y 1).val
    rw [e1]; omega
  · show win1_6.index t (2 : Fin 3) * 1024 + 1 * (y 2).val = (y 2).val
    rw [e2]; omega

/-! ## What an odd point writes back -/

-- The hypothesis: an odd point's stored block is the block function of the pair's tiles.
variable (hpiece : ∀ (c : Dev nD) (t : Fin cfg1.N) (h : ¬t.val % 2 = 0), (Reg1.sB V c t h).1
    = Flash.outBlock (Reg1.iblk V c 0 t) (Reg1.iblk V c 1 (Reg1.pred t)) (Reg1.iblk V c 1 t) (Reg1.iblk V c 2 (Reg1.pred t))
        (Reg1.iblk V c 2 t) (Reg1.iblk V c 3 (Reg1.pred t)) (Reg1.iblk V c 3 t) (Reg1.iblk V c 4 t) (Reg1.iblk V c 5 t))
include hpiece

/-- An odd point `t` writes back its block of the whole-array function of the arrays as the region finds them
    (`QKV`, `MSK`, `WO`, `BO` name them). -/
theorem flushed6_eq (c : Dev nD) (QKV : S4x2048x3072.Idx → EReal) (MSK : S4x2048x2048.Idx → BitVec 32)
    (WO : S1024x1024.Idx → EReal) (BO : S1x1024.Idx → EReal)
    (hQ : QKV = V c main_v6) (hM : MSK = V c main_v9) (hW : WO = V c main_v7) (hB : BO = V c main_v8)
    (t : Fin cfg1.N) (h : ¬t.val % 2 = 0) :
    (Reg1.dat (F := Ideal) V c).flushed 6 t = ((cfg1.win 6).blk t).view.read (Elt Ideal) (attn QKV MSK WO BO) := by
  show (cfg1.win 6).cut (grid1.coords t) ((Reg1.dat (F := Ideal) V c).after 6 t) = _
  rw [Reg1.after_6, Reg1.outAfter_odd V c t h, hpiece c t h]
  have hN : cfg1.N = 32 := N_1
  have ht : t.val < 32 := hN ▸ t.isLt
  have hp : (Reg1.pred t).val = t.val - 1 := rfl
  have hb' : t.val / 8 = (Reg1.pred t).val / 8 := by rw [hp]; omega
  have hq' : t.val / 2 % 4 = (Reg1.pred t).val / 2 % 4 := by rw [hp]; omega
  have hk0 : (0 : Fin 2).val = (Reg1.pred t).val % 2 := by rw [hp]; show 0 = _; omega
  have hk1 : (1 : Fin 2).val = t.val % 2 := by show 1 = _; omega
  have E0 := iblk0_eq V c t QKV hQ (⟨t.val / 8, by omega⟩ : Fin 4) (⟨t.val / 2 % 4, by omega⟩ : Fin 4) rfl rfl
  have E1p := iblk1_eq V c (Reg1.pred t) QKV hQ (⟨t.val / 8, by omega⟩ : Fin 4) 0 hb' hk0
  have E1 := iblk1_eq V c t QKV hQ (⟨t.val / 8, by omega⟩ : Fin 4) 1 rfl hk1
  have E2p := iblk2_eq V c (Reg1.pred t) QKV hQ (⟨t.val / 8, by omega⟩ : Fin 4) 0 hb' hk0
  have E2 := iblk2_eq V c t QKV hQ (⟨t.val / 8, by omega⟩ : Fin 4) 1 rfl hk1
  have E3p := iblk3_eq V c (Reg1.pred t) MSK hM (⟨t.val / 8, by omega⟩ : Fin 4) (⟨t.val / 2 % 4, by omega⟩ : Fin 4) 0 hb' hq' hk0
  have E3 := iblk3_eq V c t MSK hM (⟨t.val / 8, by omega⟩ : Fin 4) (⟨t.val / 2 % 4, by omega⟩ : Fin 4) 1 rfl rfl hk1
  have E4 := iblk4_eq V c t WO hW
  have E5 := iblk5_eq V c t BO hB
  exact cut_eq_read6 t _ _ fun p i h0 h1 h2 =>
    point_eq QKV MSK WO BO _ _ _ _ _ _ _ _ _ _ _ E0 E1p E1 E2p E2 E3p E3 E4 E5 p i h0 h1 h2

omit hpiece in
/-- An index of the result array is in point `t`'s block iff each coordinate is in the block's range on its axis. -/
theorem mem_blk6 (t : Fin cfg1.N) (i : S4x2048x1024.Idx) :
    i ∈ ((cfg1.win 6).blk t).view.set ↔ ∀ a : Fin 3, win1_6.index t a * S1x512x1024.size a ≤ (i a).val
      ∧ (i a).val < win1_6.index t a * S1x512x1024.size a + S1x512x1024.size a := by
  show i ∈ ((View.whole main_v10).slice (win1_6.rect t)).set ↔ _
  rw [View.set_slice_whole, Rect.mem_set_unit]
  exact Iff.rfl

omit hpiece in
/-- Row `s` of batch `b` lies in the block of the odd point `8·b + 2·(s / 512) + 1`. -/
theorem cover6 (i : S4x2048x1024.Idx) :
    ∃ t : Fin cfg1.N, (cfg1.win 6).flush t = true ∧ i ∈ ((cfg1.win 6).blk t).view.set := by
  have h0 : (i 0).val < 4 := (i 0).isLt
  have h1 : (i 1).val < 2048 := (i 1).isLt
  have h2 : (i 2).val < 1024 := (i 2).isLt
  have hN : cfg1.N = 32 := N_1
  obtain ⟨t, ht⟩ : ∃ t : Fin cfg1.N, t.val = 8 * (i 0).val + 2 * ((i 1).val / 512) + 1 :=
    ⟨⟨8 * (i 0).val + 2 * ((i 1).val / 512) + 1, by rw [hN]; omega⟩, rfl⟩
  obtain ⟨e0, e1, e2⟩ := idx6 t
  refine ⟨t, (flush1_6 t).mpr (by rw [ht]; omega), ?_⟩
  rw [mem_blk6]
  intro a
  match a with
  | ⟨0, _⟩ =>
    show win1_6.index t (0 : Fin 3) * 1 ≤ (i 0).val ∧ (i 0).val < win1_6.index t (0 : Fin 3) * 1 + 1
    rw [e0, ht]; omega
  | ⟨1, _⟩ =>
    show win1_6.index t (1 : Fin 3) * 512 ≤ (i 1).val ∧ (i 1).val < win1_6.index t (1 : Fin 3) * 512 + 512
    rw [e1, ht]; omega
  | ⟨2, _⟩ =>
    show win1_6.index t (2 : Fin 3) * 1024 ≤ (i 2).val ∧ (i 2).val < win1_6.index t (2 : Fin 3) * 1024 + 1024
    rw [e2]; omega

/-- The result array after the region is the whole-array function of the arrays the region finds. -/
theorem final6_eq (c : Dev nD) (QKV : S4x2048x3072.Idx → EReal) (MSK : S4x2048x2048.Idx → BitVec 32)
    (WO : S1024x1024.Idx → EReal) (BO : S1x1024.Idx → EReal)
    (hQ : QKV = V c main_v6) (hM : MSK = V c main_v9) (hW : WO = V c main_v7) (hB : BO = V c main_v8) :
    (Reg1.dat (F := Ideal) V c).arrAt 6 cfg1.N = attn QKV MSK WO BO :=
  (Reg1.dat (F := Ideal) V c).arrAt_eq_of_cover 6 (attn QKV MSK WO BO)
    (fun t hf => flushed6_eq V hpiece c QKV MSK WO BO hQ hM hW hB t (by have := (flush1_6 t).mp hf; omega)) cover6

omit hpiece in
/-- The whole-array function at batch `b`, row `s`, feature `e`. -/
theorem attn_apply (QKV : S4x2048x3072.Idx → EReal) (MSK : S4x2048x2048.Idx → BitVec 32) (WO : S1024x1024.Idx → EReal)
    (BO : S1x1024.Idx → EReal) (b : Fin 4) (s : Fin 2048) (e : Fin 1024) :
    attn QKV MSK WO BO (ix3 b s e)
      = Flash.outBlock (F := Ideal) (qTile QKV b (⟨s.val / 512, by have := s.isLt; omega⟩ : Fin 4)) (kTile QKV b 0) (kTile QKV b 1)
          (vTile QKV b 0) (vTile QKV b 1) (mTile MSK b (⟨s.val / 512, by have := s.isLt; omega⟩ : Fin 4) 0)
          (mTile MSK b (⟨s.val / 512, by have := s.isLt; omega⟩ : Fin 4) 1) WO BO
          (ix3 (0 : Fin 1) (⟨s.val % 512, by omega⟩ : Fin 512) e) := rfl

/-- The result array after the region at batch `b`, row `s`, feature `e`; `QKV`, `MSK`, `WO`, `BO` name the four arrays
    the region finds. -/
theorem final6 (c : Dev nD) (QKV : S4x2048x3072.Idx → EReal) (MSK : S4x2048x2048.Idx → BitVec 32)
    (WO : S1024x1024.Idx → EReal) (BO : S1x1024.Idx → EReal)
    (hQ : QKV = V c main_v6) (hM : MSK = V c main_v9) (hW : WO = V c main_v7) (hB : BO = V c main_v8)
    (b : Fin 4) (s : Fin 2048) (e : Fin 1024) :
    ((Reg1.dat (F := Ideal) V c).arrAt 6 cfg1.N : S4x2048x1024.Idx → EReal) (ix3 b s e)
      = Flash.outBlock (F := Ideal) (qTile QKV b (⟨s.val / 512, by have := s.isLt; omega⟩ : Fin 4)) (kTile QKV b 0) (kTile QKV b 1)
          (vTile QKV b 0) (vTile QKV b 1) (mTile MSK b (⟨s.val / 512, by have := s.isLt; omega⟩ : Fin 4) 0)
          (mTile MSK b (⟨s.val / 512, by have := s.isLt; omega⟩ : Fin 4) 1) WO BO
          (ix3 (0 : Fin 1) (⟨s.val % 512, by omega⟩ : Fin 512) e) := by
  rw [final6_eq V hpiece c QKV MSK WO BO hQ hM hW hB]
  rfl

end Cert.KernelIdeal.Reg1Value

end
-- ==== Proof.Reg1Canon.lean ====
/-
  What the attention body's two runs leave in each buffer, as a pure function of the blocks the body loads.

  Every store and every load of the body is of a whole buffer (the unit rectangle at zero offsets of the buffer's own
  sizes).  So a buffer's pieces, whatever was stored before, read back as the LAST store's payload, and a load that
  follows a store of the same buffer within the point reads that store's payload.
  At a first point of a pair each scratch buffer is stored twice: the reset value, then the update, whose payload reads
  the reset value back; what is left is the update started from the reset values (-∞, 0, 0).  At a second point each
  scratch buffer is stored once, the update started from what the buffers held, and the output buffer is stored once:
  the closing step of the freshly stored sums and context, which it reads back, with the output weights and bias.
  Stated with no view and no memory: `View.canon` of the found piece lists, for arbitrary whole memrefs and arbitrary
  loaded values.
-/
import proofs.«100896_j48627619725380_2_alg».proof.Proof.Reg1Runs
import proofs.«100896_j48627619725380_2_alg».proof.Proof.Flash
import Idealize.ShloMosaic.Lib.Pipeline.Value
import Idealize.ShloMosaic.Lib.Tactic

noncomputable section

namespace Cert.KernelIdeal.Reg1

open Idealize.ShloMosaic Idealize.ShloMosaic.TcCoe Idealize.ShloMosaic.Tactic
open Idealize.SL.Sem
open Cert.KernelIdeal Cert.KernelIdeal.Gen

variable {F : FTy → Type} [FloatOps F]

/-- Zero offsets, as the body's rank-2 and rank-3 accesses spell them. -/
theorem hz2 : (![0, 0] : Fin 2 → Nat) = fun _ => 0 := funext fun a => by fin_cases a <;> rfl
theorem hz3 : (![0, 0, 0] : Fin 3 → Nat) = fun _ => 0 := funext fun a => by fin_cases a <;> rfl

/-! ## First point of a pair: the updates from the reset values -/

/-- The row maxima a first point leaves: one update from -∞. -/
theorem canonA_M (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0 i) (hc1 : ¬cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) :
    View.canon (kernelRunA (F := F) c i arg3 harg3 arg4 harg4 arg5 harg5 arg6 harg6 arg7 harg7 arg8 harg8 arg9 harg9 arg10 harg10 arg11 harg11 arg12 harg12 hc0 hc1 x0 x1 x2 x3 x4 x5).1 = Flash.m0 x0 x1 x3 := by
  unfold kernelRunA
  dsimp only
  sl_unfold_words
  rw [View.canon_cons_unit_zero (S := S512x1) hz2, View.readCov_unit_zero (S := S512x1) _ hz2]
  simp only [View.readAt_eq_ld, harg3.read_unread, harg4.read_unread, harg5.read_unread, harg6.read_unread, harg7.read_unread, harg8.read_unread,
    View.ld_unit_zero (S := S1x512x1024) hz3, View.ld_unit_zero (S := S1x1024x1024) hz3, View.ld_unit_zero (S := S1024x1024) hz2, View.ld_unit_zero (S := S1x1024) hz2]
  rfl

/-- The row sums a first point leaves: one update from maxima -∞ and sums 0. -/
theorem canonA_L (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0 i) (hc1 : ¬cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) :
    View.canon (kernelRunA (F := F) c i arg3 harg3 arg4 harg4 arg5 harg5 arg6 harg6 arg7 harg7 arg8 harg8 arg9 harg9 arg10 harg10 arg11 harg11 arg12 harg12 hc0 hc1 x0 x1 x2 x3 x4 x5).2.1 = Flash.l0 x0 x1 x3 := by
  unfold kernelRunA
  dsimp only
  sl_unfold_words
  rw [View.canon_cons_unit_zero (S := S512x1) hz2, View.readCov_unit_zero (S := S512x1) _ hz2, View.readCov_unit_zero (S := S512x1) _ hz2]
  simp only [View.readAt_eq_ld, harg3.read_unread, harg4.read_unread, harg5.read_unread, harg6.read_unread, harg7.read_unread, harg8.read_unread,
    View.ld_unit_zero (S := S1x512x1024) hz3, View.ld_unit_zero (S := S1x1024x1024) hz3, View.ld_unit_zero (S := S1024x1024) hz2, View.ld_unit_zero (S := S1x1024) hz2]
  rfl

/-- The unnormalised context a first point leaves: one update from maxima -∞ and context 0. -/
theorem canonA_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : cond0 i) (hc1 : ¬cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) :
    View.canon (kernelRunA (F := F) c i arg3 harg3 arg4 harg4 arg5 harg5 arg6 harg6 arg7 harg7 arg8 harg8 arg9 harg9 arg10 harg10 arg11 harg11 arg12 harg12 hc0 hc1 x0 x1 x2 x3 x4 x5).2.2.1 = Flash.a0 x0 x1 x2 x3 := by
  unfold kernelRunA
  dsimp only
  sl_unfold_words
  rw [View.canon_cons_unit_zero (S := S512x1024) hz2, View.readCov_unit_zero (S := S512x1024) _ hz2, View.readCov_unit_zero (S := S512x1) _ hz2]
  simp only [View.readAt_eq_ld, harg3.read_unread, harg4.read_unread, harg5.read_unread, harg6.read_unread, harg7.read_unread, harg8.read_unread,
    View.ld_unit_zero (S := S1x512x1024) hz3, View.ld_unit_zero (S := S1x1024x1024) hz3, View.ld_unit_zero (S := S1024x1024) hz2, View.ld_unit_zero (S := S1x1024) hz2]
  rfl

/-! ## Second point of a pair: the updates from what the buffers held, and the closing step -/

/-- The output block a second point stores: the closing step of the updated context and sums. -/
theorem canonB_O (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) :
    View.canon (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).1 = k1_pay4 (Flash.stepA x0 x1 x2 x3 xs0 xs2) (Flash.stepL x0 x1 x3 xs0 xs1) x4 x5 := by
  unfold kernelRunB
  dsimp only
  sl_unfold_words
  rw [View.canon_unit_zero (S := S1x512x1024) hz3, View.readCov_unit_zero (S := S512x1024) _ hz2, View.readCov_unit_zero (S := S512x1) _ hz2]
  simp only [View.readAt_eq_ld, harg3.read_unread, harg4.read_unread, harg5.read_unread, harg6.read_unread, harg7.read_unread, harg8.read_unread,
    harg10.read_unread, harg11.read_unread, harg12.read_unread,
    View.ld_unit_zero (S := S1x512x1024) hz3, View.ld_unit_zero (S := S1x1024x1024) hz3, View.ld_unit_zero (S := S1024x1024) hz2, View.ld_unit_zero (S := S1x1024) hz2,
    View.ld_unit_zero (S := S512x1) hz2, View.ld_unit_zero (S := S512x1024) hz2]
  rfl

/-- The row maxima a second point leaves. -/
theorem canonB_M (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) :
    View.canon (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.1 = Flash.stepM x0 x1 x3 xs0 := by
  unfold kernelRunB
  dsimp only
  sl_unfold_words
  rw [View.canon_unit_zero (S := S512x1) hz2]
  simp only [View.readAt_eq_ld, harg3.read_unread, harg4.read_unread, harg5.read_unread, harg6.read_unread, harg7.read_unread, harg8.read_unread,
    harg10.read_unread, harg11.read_unread, harg12.read_unread,
    View.ld_unit_zero (S := S1x512x1024) hz3, View.ld_unit_zero (S := S1x1024x1024) hz3, View.ld_unit_zero (S := S1024x1024) hz2, View.ld_unit_zero (S := S1x1024) hz2,
    View.ld_unit_zero (S := S512x1) hz2, View.ld_unit_zero (S := S512x1024) hz2]
  rfl

/-- The row sums a second point leaves. -/
theorem canonB_L (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) :
    View.canon (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.2.1 = Flash.stepL x0 x1 x3 xs0 xs1 := by
  unfold kernelRunB
  dsimp only
  sl_unfold_words
  rw [View.canon_unit_zero (S := S512x1) hz2]
  simp only [View.readAt_eq_ld, harg3.read_unread, harg4.read_unread, harg5.read_unread, harg6.read_unread, harg7.read_unread, harg8.read_unread,
    harg10.read_unread, harg11.read_unread, harg12.read_unread,
    View.ld_unit_zero (S := S1x512x1024) hz3, View.ld_unit_zero (S := S1x1024x1024) hz3, View.ld_unit_zero (S := S1024x1024) hz2, View.ld_unit_zero (S := S1x1024) hz2,
    View.ld_unit_zero (S := S512x1) hz2, View.ld_unit_zero (S := S512x1024) hz2]
  rfl

/-- The unnormalised context a second point leaves. -/
theorem canonB_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x512x1024 .i32) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S1x512x1024 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1024 .f32) (harg12 : arg12.IsWhole) (hc0 : ¬cond0 i) (hc1 : cond1 i)
    (x0 : Vec F S1x512x1024 .bf16) (x1 : Vec F S1x1024x1024 .bf16) (x2 : Vec F S1x1024x1024 .bf16) (x3 : Vec F S1x512x1024 .i32) (x4 : Vec F S1024x1024 .bf16) (x5 : Vec F S1x1024 .f32) (xs0 : Vec F S512x1 .f32) (xs1 : Vec F S512x1 .f32) (xs2 : Vec F S512x1024 .f32) :
    View.canon (kernelRunB (F := F) c i arg3 harg3 arg4 harg4 arg5 harg5 arg6 harg6 arg7 harg7 arg8 harg8 arg9 harg9 arg10 harg10 arg11 harg11 arg12 harg12 hc0 hc1 x0 x1 x2 x3 x4 x5 xs0 xs1 xs2).2.2.2.1 = Flash.stepA x0 x1 x2 x3 xs0 xs2 := by
  unfold kernelRunB
  dsimp only
  sl_unfold_words
  rw [View.canon_unit_zero (S := S512x1024) hz2]
  simp only [View.readAt_eq_ld, harg3.read_unread, harg4.read_unread, harg5.read_unread, harg6.read_unread, harg7.read_unread, harg8.read_unread,
    harg10.read_unread, harg11.read_unread, harg12.read_unread,
    View.ld_unit_zero (S := S1x512x1024) hz3, View.ld_unit_zero (S := S1x1024x1024) hz3, View.ld_unit_zero (S := S1024x1024) hz2, View.ld_unit_zero (S := S1x1024) hz2,
    View.ld_unit_zero (S := S512x1) hz2, View.ld_unit_zero (S := S512x1024) hz2]
  rfl

end Cert.KernelIdeal.Reg1

end
-- ==== Proof.Reg1Pieces.lean ====
/-
  The attention region's scratch and output contents after each point, as the step functions of the blocks read.

  After a first point of a pair the three scratch buffers hold one update from the reset values, of that point's query,
  key, value and mask blocks.  After the second point the output window's staging buffer holds the closing step of two
  updates: the first point's, then the second's started from it.  The query block is the same at both points of a pair
  (the query window's block index does not read the key/value coordinate), so the result is one function of the query
  block, the two key blocks, the two value blocks, the two mask blocks, the output weights and the output bias.
-/
import proofs.«100896_j48627619725380_2_alg».proof.Proof.Reg1
import proofs.«100896_j48627619725380_2_alg».proof.Proof.Flash
import proofs.«100896_j48627619725380_2_alg».proof.Proof.Reg1Canon

noncomputable section

namespace Cert.KernelIdeal.Reg1

open Idealize.ShloMosaic Idealize.ShloMosaic.TcCoe Idealize.ShloMosaic.Tactic
open Idealize.SL.Sem
open Idealize.ShloMosaic.Pipeline (Dat Cfg Window)
open Cert.KernelIdeal Cert.KernelIdeal.Gen

variable {F : FTy → Type} [FloatOps F]

variable (V : (c : Dev nD) → (b : Ref sig .tc) → Buf (Elt F) ((c : Thread nD τ).loc b))

/-- After a first point of a pair the scratch buffers hold the update from the reset values of that point's blocks. -/
theorem sA_eq (c : Dev nD) (t : Fin cfg1.N) (h : t.val % 2 = 0) :
    sA V c t h = (Flash.m0 (iblk V c 0 t) (iblk V c 1 t) (iblk V c 3 t), Flash.l0 (iblk V c 0 t) (iblk V c 1 t) (iblk V c 3 t), Flash.a0 (iblk V c 0 t) (iblk V c 1 t) (iblk V c 2 t) (iblk V c 3 t)) := by
  unfold sA
  exact congrArg₂ Prod.mk
    ((View.read_writes_junk_eq_canon VM (kernelRunA (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t)).1).trans
      (canonA_M (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t)))
    (congrArg₂ Prod.mk
      ((View.read_writes_junk_eq_canon VL (kernelRunA (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t)).2.1).trans
        (canonA_L (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t)))
      ((View.read_writes_junk_eq_canon VA (kernelRunA (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t)).2.2.1).trans
        (canonA_A (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (c0_of_even t h) (nc1_of_even t h) (iblk V c 0 t) (iblk V c 1 t) (iblk V c 2 t) (iblk V c 3 t) (iblk V c 4 t) (iblk V c 5 t))))

/-- The query window's block index is the same at both points of a pair: its index map does not read the key/value
    coordinate.  Decided over the 32 grid points. -/
theorem index0_pred : ∀ t : Fin cfg1.N, ¬t.val % 2 = 0 → win1_0.index (pred t) = win1_0.index t :=
  (by decide +kernel : ∀ t : Fin grid1.N, ¬t.val % 2 = 0 → win1_0.index (pred t) = win1_0.index t)

/-- So the query block is the same at both points of a pair. -/
theorem iblk0_pred (c : Dev nD) (t : Fin cfg1.N) (h : ¬t.val % 2 = 0) :
    (iblk V c 0 (pred t) : Vec F S1x512x1024 .bf16) = iblk V c 0 t := by
  have hidx := index0_pred t h
  funext y
  unfold iblk
  rw [View.read_apply, View.read_apply]
  show V c (Pipeline.arrRef spec1 0) _ = V c (Pipeline.arrRef spec1 0) _
  refine congrArg _ (funext fun a => Fin.ext ?_)
  match a with
  | ⟨0, _⟩ => show win1_0.index (pred t) 0 * 1 + 1 * (y 0).val = win1_0.index t 0 * 1 + 1 * (y 0).val; rw [hidx]
  | ⟨1, _⟩ => show win1_0.index (pred t) 1 * 512 + 1 * (y 1).val = win1_0.index t 1 * 512 + 1 * (y 1).val; rw [hidx]
  | ⟨2, _⟩ => show win1_0.index (pred t) 2 * 1024 + 1 * (y 2).val = win1_0.index t 2 * 1024 + 1 * (y 2).val; rw [hidx]

/-- After a second point of a pair the output window's staging buffer holds the attention block of the pair: both
    updates, the normalisation, the output projection and its bias. -/
theorem sB_out_eq (c : Dev nD) (t : Fin cfg1.N) (h : ¬t.val % 2 = 0) :
    (sB V c t h).1 = Flash.outBlock (iblk V c 0 t) (iblk V c 1 (pred t)) (iblk V c 1 t) (iblk V c 2 (pred t)) (iblk V c 2 t) (iblk V c 3 (pred t)) (iblk V c 3 t) (iblk V c 4 t) (iblk V c 5 t) := by
  unfold sB
  dsimp only
  refine ((View.read_writes_junk_eq_canon VO _).trans
    (canonB_O (F := F) c (grid1.coords t) (ms0 t) (hs0 t) (ms1 t) (hs1 t) (ms2 t) (hs2 t) (ms3 t) (hs3 t) (ms4 t) (hs4 t) (ms5 t) (hs5 t) (ms6 t) (hs6 t) scM (Memref.isWhole_whole _) scL (Memref.isWhole_whole _) scA (Memref.isWhole_whole _) (nc0_of_odd t h) (c1_of_odd t h) (iblk V c 0 t) (iblk V c 1 t) (iblk V c 2 t) (iblk V c 3 t) (iblk V c 4 t) (iblk V c 5 t)
      (sA V c (pred t) (pred_even t h)).1 (sA V c (pred t) (pred_even t h)).2.1 (sA V c (pred t) (pred_even t h)).2.2)).trans ?_
  rw [sA_eq V c (pred t) (pred_even t h)]
  dsimp only
  rw [iblk0_pred V c t h]
  rfl

end Cert.KernelIdeal.Reg1

end
-- ==== Proof.AttnSpec.lean ====
/-
  The layer both programs compute, as one function of the argument arrays over the extended reals.

  Single-head self-attention with the whole hidden dimension as the head: the three projections
  `Q = X·Wq + bq`, `K = X·Wk + bk`, `V = X·Wv + bv`; the scores `Q·Kᵀ / 32` (32 = √1024), a masked position's score
  replaced by a fill VALUE; the soft-max of each row of 2048 scores (shifted by the row's maximum); the context
  `attn · V`; the output projection `ctx·Wo + bo`.  Everything is stated row by row: a query row's output needs that
  row of `Q`, every row of the batch's `K` and `V`, and the row's 2048 mask bits.
  No program is imported here: sums are `∑` over `Fin`, the maximum a fold of `max` from `⊥`, the exponential and
  the quotient the extended reals' (`Ideal.exp`, `Ideal.div`).
-/
import Idealize.ShloMosaic.PureOps.Ideal

noncomputable section

namespace Cert.AttnSpec

open Idealize.ShloMosaic

/-- One row of a projection: `x·W + b`. -/
def projRow (x : Fin 1024 → EReal) (W : Fin 1024 → Fin 1024 → EReal) (b : Fin 1024 → EReal) (e : Fin 1024) : EReal :=
  (∑ d : Fin 1024, x d * W d e) + b e

/-- The score of key position `k` for one query row: the fill value where masked, else `q·K[k] / 32`. -/
def score (fill : EReal) (q : Fin 1024 → EReal) (K : Fin 2048 → Fin 1024 → EReal) (msk : Fin 2048 → Bool) (k : Fin 2048) : EReal :=
  if msk k then fill else (∑ d : Fin 1024, q d * K k d) * ((1 / 32 : ℝ) : EReal)

/-- The row's largest score. -/
def rowMax (s : Fin 2048 → EReal) : EReal := (Finset.univ : Finset (Fin 2048)).fold max ⊥ s

/-- The shifted exponentials of a row of scores. -/
def expRow (s : Fin 2048 → EReal) (k : Fin 2048) : EReal := Ideal.exp (s k - rowMax s)

/-- The soft-max weights of a row of scores. -/
def softmaxRow (s : Fin 2048 → EReal) (k : Fin 2048) : EReal := Ideal.div (expRow s k) (∑ j : Fin 2048, expRow s j)

/-- The context of one query row: the soft-max-weighted sum of the value rows. -/
def ctxRow (s : Fin 2048 → EReal) (V : Fin 2048 → Fin 1024 → EReal) (d : Fin 1024) : EReal :=
  ∑ k : Fin 2048, softmaxRow s k * V k d

/-- One output row, from the query row, the batch's keys and values, the row's mask bits, and the output projection. -/
def rowOut (fill : EReal) (q : Fin 1024 → EReal) (K V : Fin 2048 → Fin 1024 → EReal) (msk : Fin 2048 → Bool)
    (Wo : Fin 1024 → Fin 1024 → EReal) (bo : Fin 1024 → EReal) (e : Fin 1024) : EReal :=
  projRow (ctxRow (score fill q K msk) V) Wo bo e

/-- The whole layer at batch `b`, position `s`, feature `e`. -/
def out (fill : EReal) (X : Fin 4 → Fin 2048 → Fin 1024 → EReal) (msk : Fin 4 → Fin 2048 → Fin 2048 → Bool)
    (Wq : Fin 1024 → Fin 1024 → EReal) (bq : Fin 1024 → EReal) (Wk : Fin 1024 → Fin 1024 → EReal) (bk : Fin 1024 → EReal)
    (Wv : Fin 1024 → Fin 1024 → EReal) (bv : Fin 1024 → EReal) (Wo : Fin 1024 → Fin 1024 → EReal) (bo : Fin 1024 → EReal)
    (b : Fin 4) (s : Fin 2048) (e : Fin 1024) : EReal :=
  rowOut fill (projRow (X b s) Wq bq) (fun k => projRow (X b k) Wk bk) (fun k => projRow (X b k) Wv bv) (msk b s) Wo bo e

end Cert.AttnSpec

end
-- ==== Proof.FlashMath.lean ====
/-
  The algebra of the online soft-max over two key/value tiles, on the extended reals.

  A row of 2048 scores is visited as two tiles of 1024.  Each visit updates three running quantities from the
  tile's scores s and value column v: the maximum m' = max m (max_j s_j), the sum l' = e^(m - m') l + sum_j e^(s_j - m'),
  and the unnormalised context a' = e^(m - m') a + sum_j e^(s_j - m') v_j.  Started from m = -inf, l = 0, a = 0, two
  visits give a / l, and when every score and value is a finite real this quotient is the soft-max-weighted sum
  sum_k (e^(s_k - M) / sum_j e^(s_j - M)) V_k over all 2048 positions, M the row's maximum: the factor
  e^(m - m') rescales the first tile's exponentials to the final shift (e^(a-b) e^(b-c) = e^(a-c)), the weights
  e^(s_k - M) / sum_j e^(s_j - M) do not depend on the finite shift M, and all sums are finite with a positive total.
-/
import Idealize.ShloMosaic.PureOps.Ideal

noncomputable section

open scoped BigOperators

namespace Cert.FlashMath

open Idealize.ShloMosaic

/-! ## The three updates of one visit, and a row glued from its two tiles -/

/-- The running maximum after a visit. -/
def stepMax (mp : EReal) (s : Fin 1024 → EReal) : EReal := max mp ((Finset.univ : Finset (Fin 1024)).fold max ⊥ s)

/-- The running sum of exponentials after a visit. -/
def stepSum (mp lp : EReal) (s : Fin 1024 → EReal) : EReal :=
  Ideal.exp (mp - stepMax mp s) * lp + ∑ j : Fin 1024, Ideal.exp (s j - stepMax mp s)

/-- The running unnormalised context (one feature column) after a visit. -/
def stepCtx (mp ap : EReal) (s v : Fin 1024 → EReal) : EReal :=
  Ideal.exp (mp - stepMax mp s) * ap + ∑ j : Fin 1024, Ideal.exp (s j - stepMax mp s) * v j

/-- A row of 2048 entries from its two halves. -/
def glue {α : Type} (a b : Fin 1024 → α) : Fin 2048 → α :=
  fun k => if h : k.val < 1024 then a ⟨k.val, h⟩ else b ⟨k.val - 1024, by omega⟩

theorem glue_lo {α : Type} (a b : Fin 1024 → α) (j : Fin 1024) : glue a b ⟨j.val, by omega⟩ = a j := by
  unfold glue
  rw [dif_pos (show ((⟨j.val, by omega⟩ : Fin 2048)).val < 1024 from j.isLt)]

theorem glue_hi {α : Type} (a b : Fin 1024 → α) (j : Fin 1024) : glue a b ⟨1024 + j.val, by omega⟩ = b j := by
  unfold glue
  rw [dif_neg (show ¬ ((⟨1024 + j.val, by omega⟩ : Fin 2048)).val < 1024 from by show ¬ (1024 + j.val < 1024); omega)]
  exact congrArg b (Fin.ext (by show 1024 + j.val - 1024 = j.val; omega))

theorem glue_comp {α β : Type} (f : α → β) (a b : Fin 1024 → α) :
    glue (fun j => f (a j)) (fun j => f (b j)) = fun k => f (glue a b k) := by
  funext k
  unfold glue
  split <;> rfl

/-- A sum over the 2048 positions is the sum over the first tile plus the sum over the second. -/
theorem sum_two_tiles {M : Type} [AddCommMonoid M] (F : Fin 2048 → M) :
    ∑ k : Fin 2048, F k = (∑ j : Fin 1024, F ⟨j.val, by omega⟩) + ∑ j : Fin 1024, F ⟨1024 + j.val, by omega⟩ :=
  Fin.sum_univ_add (a := 1024) (b := 1024) F

/-! ## Coercions -/

/-- The coercion of a finite real sum is the sum of the coercions. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The fold of max from -inf over a nonempty family of reals is a real. -/
theorem fold_max_real {n : ℕ} [NeZero n] (f : Fin n → ℝ) :
    ∃ μ : ℝ, (Finset.univ : Finset (Fin n)).fold max (⊥ : EReal) (fun j => (f j : EReal)) = (μ : EReal) := by
  refine ⟨Finset.univ.sup' Finset.univ_nonempty f, le_antisymm ?_ ?_⟩
  · exact (Finset.fold_max_le _).2 ⟨bot_le, fun x _ => EReal.coe_le_coe_iff.2 (Finset.le_sup' f (Finset.mem_univ x))⟩
  · obtain ⟨x, _, hx⟩ := Finset.exists_mem_eq_sup' (Finset.univ_nonempty (α := Fin n)) f
    rw [hx]
    exact (Finset.le_fold_max _).2 (Or.inr ⟨x, Finset.mem_univ x, le_rfl⟩)

/-! ## The identity on the reals -/

/-- Two rescaled partial sums against the soft-max weights at any shift M. -/
theorem real_two_tiles {ι₀ ι₁ : Type} [Fintype ι₀] [Fintype ι₁] [Nonempty ι₀]
    (x0 v0 : ι₀ → ℝ) (x1 v1 : ι₁ → ℝ) (μ0 m1 M : ℝ) :
    (Real.exp (μ0 - m1) * (∑ j, Real.exp (x0 j - μ0) * v0 j) + ∑ j, Real.exp (x1 j - m1) * v1 j)
        * (1 / (Real.exp (μ0 - m1) * (∑ j, Real.exp (x0 j - μ0)) + ∑ j, Real.exp (x1 j - m1)))
      = (∑ j, Real.exp (x0 j - M) * (1 / ((∑ i, Real.exp (x0 i - M)) + ∑ i, Real.exp (x1 i - M))) * v0 j)
        + ∑ j, Real.exp (x1 j - M) * (1 / ((∑ i, Real.exp (x0 i - M)) + ∑ i, Real.exp (x1 i - M))) * v1 j := by
  have hLpos : 0 < (∑ i, Real.exp (x0 i - M)) + ∑ i, Real.exp (x1 i - M) :=
    add_pos_of_pos_of_nonneg (Finset.sum_pos (fun i _ => Real.exp_pos _) Finset.univ_nonempty)
      (Finset.sum_nonneg fun i _ => (Real.exp_pos _).le)
  generalize hL : (∑ i, Real.exp (x0 i - M)) + ∑ i, Real.exp (x1 i - M) = L at hLpos ⊢
  have hcpos : 0 < Real.exp (M - m1) := Real.exp_pos _
  have h0 : ∀ j, Real.exp (μ0 - m1) * Real.exp (x0 j - μ0) = Real.exp (M - m1) * Real.exp (x0 j - M) := fun j => by
    rw [← Real.exp_add, ← Real.exp_add]; congr 1; ring
  have h1 : ∀ j, Real.exp (x1 j - m1) = Real.exp (M - m1) * Real.exp (x1 j - M) := fun j => by
    rw [← Real.exp_add]; congr 1; ring
  have hN0 : Real.exp (μ0 - m1) * (∑ j, Real.exp (x0 j - μ0) * v0 j)
      = Real.exp (M - m1) * ∑ j, Real.exp (x0 j - M) * v0 j := by
    rw [Finset.mul_sum, Finset.mul_sum]
    exact Finset.sum_congr rfl fun j _ => by rw [← mul_assoc, h0, mul_assoc]
  have hN1 : (∑ j, Real.exp (x1 j - m1) * v1 j) = Real.exp (M - m1) * ∑ j, Real.exp (x1 j - M) * v1 j := by
    rw [Finset.mul_sum]
    exact Finset.sum_congr rfl fun j _ => by rw [h1, mul_assoc]
  have hD0 : Real.exp (μ0 - m1) * (∑ j, Real.exp (x0 j - μ0)) = Real.exp (M - m1) * ∑ j, Real.exp (x0 j - M) := by
    rw [Finset.mul_sum, Finset.mul_sum]
    exact Finset.sum_congr rfl fun j _ => h0 j
  have hD1 : (∑ j, Real.exp (x1 j - m1)) = Real.exp (M - m1) * ∑ j, Real.exp (x1 j - M) := by
    rw [Finset.mul_sum]
    exact Finset.sum_congr rfl fun j _ => h1 j
  have e0 : (∑ j, Real.exp (x0 j - M) * (1 / L) * v0 j) = (∑ j, Real.exp (x0 j - M) * v0 j) * (1 / L) := by
    rw [Finset.sum_mul]
    exact Finset.sum_congr rfl fun j _ => by ring
  have e1 : (∑ j, Real.exp (x1 j - M) * (1 / L) * v1 j) = (∑ j, Real.exp (x1 j - M) * v1 j) * (1 / L) := by
    rw [Finset.sum_mul]
    exact Finset.sum_congr rfl fun j _ => by ring
  rw [hN0, hN1, hD0, hD1, ← mul_add, ← mul_add, hL, e0, e1, ← add_mul]
  have hc := hcpos.ne'
  have hL' := hLpos.ne'
  field_simp

/-! ## The two visits on the extended reals -/

/-- Two visits of the online soft-max from (-inf, 0, 0), then the quotient: the soft-max-weighted sum over the
    whole row, when every score and every value is a finite real. -/
theorem two_tiles (s0 s1 v0 v1 : Fin 1024 → EReal)
    (hs0 : ∀ j, ∃ x : ℝ, s0 j = (x : EReal)) (hs1 : ∀ j, ∃ x : ℝ, s1 j = (x : EReal))
    (hv0 : ∀ j, ∃ x : ℝ, v0 j = (x : EReal)) (hv1 : ∀ j, ∃ x : ℝ, v1 j = (x : EReal)) :
    Ideal.div (stepCtx (stepMax ⊥ s0) (stepCtx ⊥ 0 s0 v0) s1 v1) (stepSum (stepMax ⊥ s0) (stepSum ⊥ 0 s0) s1)
      = ∑ k : Fin 2048,
          Ideal.div (Ideal.exp (glue s0 s1 k - (Finset.univ : Finset (Fin 2048)).fold max ⊥ (glue s0 s1)))
              (∑ j : Fin 2048, Ideal.exp (glue s0 s1 j - (Finset.univ : Finset (Fin 2048)).fold max ⊥ (glue s0 s1)))
            * glue v0 v1 k := by
  choose x0 hx0 using hs0
  choose x1 hx1 using hs1
  choose w0 hw0 using hv0
  choose w1 hw1 using hv1
  obtain rfl : s0 = fun j => (x0 j : EReal) := funext hx0
  obtain rfl : s1 = fun j => (x1 j : EReal) := funext hx1
  obtain rfl : v0 = fun j => (w0 j : EReal) := funext hw0
  obtain rfl : v1 = fun j => (w1 j : EReal) := funext hw1
  obtain ⟨μ0, hμ0⟩ := fold_max_real x0
  obtain ⟨μ1, hμ1⟩ := fold_max_real x1
  rw [glue_comp (fun x : ℝ => (x : EReal)) x0 x1, glue_comp (fun x : ℝ => (x : EReal)) w0 w1]
  obtain ⟨M, hM⟩ := fold_max_real (glue x0 x1)
  -- the first visit
  have hm0 : stepMax ⊥ (fun j => (x0 j : EReal)) = (μ0 : EReal) := by
    unfold stepMax; rw [hμ0]; exact max_eq_right bot_le
  have hl0 : stepSum ⊥ 0 (fun j => (x0 j : EReal)) = ((∑ j, Real.exp (x0 j - μ0) : ℝ) : EReal) := by
    unfold stepSum; rw [hm0, mul_zero, zero_add, coe_sum]
    refine Finset.sum_congr rfl fun j _ => ?_
    beta_reduce
    rw [← EReal.coe_sub, Ideal.exp_coe]
  have ha0 : stepCtx ⊥ 0 (fun j => (x0 j : EReal)) (fun j => (w0 j : EReal))
      = ((∑ j, Real.exp (x0 j - μ0) * w0 j : ℝ) : EReal) := by
    unfold stepCtx; rw [hm0, mul_zero, zero_add, coe_sum]
    refine Finset.sum_congr rfl fun j _ => ?_
    beta_reduce
    rw [← EReal.coe_sub, Ideal.exp_coe, ← EReal.coe_mul]
  -- the second visit
  have hm1 : stepMax (μ0 : EReal) (fun j => (x1 j : EReal)) = ((max μ0 μ1 : ℝ) : EReal) := by
    unfold stepMax; rw [hμ1]; exact (EReal.coe_strictMono.monotone.map_max).symm
  have hl1 : stepSum (μ0 : EReal) ((∑ j, Real.exp (x0 j - μ0) : ℝ) : EReal) (fun j => (x1 j : EReal))
      = ((Real.exp (μ0 - max μ0 μ1) * (∑ j, Real.exp (x0 j - μ0)) + ∑ j, Real.exp (x1 j - max μ0 μ1) : ℝ) : EReal) := by
    unfold stepSum
    rw [hm1, EReal.coe_add, EReal.coe_mul, coe_sum _ (fun j => Real.exp (x1 j - max μ0 μ1)), ← EReal.coe_sub, Ideal.exp_coe]
    refine congrArg₂ (· + ·) rfl (Finset.sum_congr rfl fun j _ => ?_)
    beta_reduce
    rw [← EReal.coe_sub, Ideal.exp_coe]
  have ha1 : stepCtx (μ0 : EReal) ((∑ j, Real.exp (x0 j - μ0) * w0 j : ℝ) : EReal) (fun j => (x1 j : EReal)) (fun j => (w1 j : EReal))
      = ((Real.exp (μ0 - max μ0 μ1) * (∑ j, Real.exp (x0 j - μ0) * w0 j) + ∑ j, Real.exp (x1 j - max μ0 μ1) * w1 j : ℝ) : EReal) := by
    unfold stepCtx
    rw [hm1, EReal.coe_add, EReal.coe_mul, coe_sum _ (fun j => Real.exp (x1 j - max μ0 μ1) * w1 j), ← EReal.coe_sub, Ideal.exp_coe]
    refine congrArg₂ (· + ·) rfl (Finset.sum_congr rfl fun j _ => ?_)
    beta_reduce
    rw [← EReal.coe_sub, Ideal.exp_coe, ← EReal.coe_mul]
  rw [hm0, hl0, ha0, hl1, ha1, hM]
  -- the row's total of exponentials at the shift M, split over the tiles
  have hLsum : (∑ j : Fin 2048, Ideal.exp (((glue x0 x1 j : ℝ) : EReal) - (M : EReal)))
      = (((∑ i, Real.exp (x0 i - M)) + ∑ i, Real.exp (x1 i - M) : ℝ) : EReal) := by
    rw [sum_two_tiles, EReal.coe_add, coe_sum, coe_sum]
    refine congrArg₂ (· + ·) (Finset.sum_congr rfl fun j _ => ?_) (Finset.sum_congr rfl fun j _ => ?_)
    · rw [glue_lo, ← EReal.coe_sub, Ideal.exp_coe]
    · rw [glue_hi, ← EReal.coe_sub, Ideal.exp_coe]
  have hLpos : 0 < (∑ i, Real.exp (x0 i - M)) + ∑ i, Real.exp (x1 i - M) :=
    add_pos_of_pos_of_nonneg (Finset.sum_pos (fun i _ => Real.exp_pos _) Finset.univ_nonempty)
      (Finset.sum_nonneg fun i _ => (Real.exp_pos _).le)
  have hDpos : 0 < Real.exp (μ0 - max μ0 μ1) * (∑ j, Real.exp (x0 j - μ0)) + ∑ j, Real.exp (x1 j - max μ0 μ1) :=
    add_pos_of_pos_of_nonneg (mul_pos (Real.exp_pos _) (Finset.sum_pos (fun i _ => Real.exp_pos _) Finset.univ_nonempty))
      (Finset.sum_nonneg fun i _ => (Real.exp_pos _).le)
  rw [hLsum, Ideal.div_coe hDpos.ne', ← EReal.coe_mul, real_two_tiles x0 w0 x1 w1 μ0 (max μ0 μ1) M,
    sum_two_tiles, EReal.coe_add, coe_sum, coe_sum]
  refine congrArg₂ (· + ·) (Finset.sum_congr rfl fun j _ => ?_) (Finset.sum_congr rfl fun j _ => ?_)
  · beta_reduce
    rw [glue_lo, glue_lo, Ideal.div_coe hLpos.ne', ← EReal.coe_sub, Ideal.exp_coe, ← EReal.coe_mul, ← EReal.coe_mul]
  · beta_reduce
    rw [glue_hi, glue_hi, Ideal.div_coe hLpos.ne', ← EReal.coe_sub, Ideal.exp_coe, ← EReal.coe_mul, ← EReal.coe_mul]

end Cert.FlashMath

end
-- ==== Proof.FlashPay.lean ====
/-
  The arithmetic of one visit of the attention body, read entry by entry at the exact-real instance.

  A visit reads a query tile q (512 rows), a key tile k and a value tile v (1024 positions each), the mask tile, and
  the running maxima mp, sums lp and unnormalised context ap.  Row r's score against position j is a fill value
  where the mask word is not zero, else (sum_d q[r,d] k[j,d]) times 2^-5.  Then row r's new maximum is
  max mp[r] (max_j s_j), its new sum e^(mp[r] - m') lp[r] + sum_j e^(s_j - m'), and its new context at feature d is
  e^(mp[r] - m') ap[r,d] + sum_j e^(s_j - m') v[j,d]: the three updates of the online soft-max.  The closing step
  divides the context by the sum, multiplies by the output weights and adds the bias.  Changes of float format are the
  identity on exact reals, a matrix product into a zero accumulator is a plain sum over the contracted axis, a lane
  reduction is a sum (or a fold of max) over the lane axis, and the keepdims column [512,1] is read at (r, 0).
-/
import proofs.«100896_j48627619725380_2_alg».proof.Proof.Flash
import Idealize.ShloMosaic.Lib.ValueLayout
import Idealize.ShloMosaic.PureOps.Ideal.Laws

noncomputable section

open scoped BigOperators

namespace Cert.KernelIdeal.FlashPay

open Idealize.ShloMosaic Idealize.ShloMosaic.ValueIdx Cert.KernelIdeal Cert.KernelIdeal.Gen

/-! ## Constants -/

/-- The word 0xFF800000 is -inf. -/
theorem negInf : Ideal.ofBits .f32 0xFF800000#32 = ⊥ := by simp [Ideal.ofBits, Ideal.ieee]

/-- The fill value of a masked score is a finite real. -/
theorem fill_real : ∃ x : ℝ, Ideal.ofBits .f32 0x1E3CE508#32 = (x : EReal) := by
  simp only [Ideal.ofBits, Ideal.ieee]
  rw [if_neg (by decide), if_neg (by decide)]
  exact ⟨_, rfl⟩

/-! ## Layout: the keepdims column -/

/-- An [a] vector cast to the column [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-! ## Lane reductions of a [512, 1024] block -/

/-- The index a lane reduction reads: row r, lane k. -/
theorem lift_ix (h : S512x1024.Reduces [1] S512) (r : Fin 512) (k : Fin 1024) : h.lift (ix1 r) k = ix2 r k := by
  funext a
  refine Fin.ext ?_
  match a with
  | ⟨0, _⟩ => rfl
  | ⟨1, _⟩ => rfl

/-- The lane maximum of row r: the fold of max from the accumulator's value over the row. -/
theorem rowMax_apply (src : FVec Ideal S512x1024 .f32) (h : S512x1024.Reduces [1] S512) (hφ : FKind.Formats .f32)
    (hacc : (0xFF800000#32 : BitVec 32) = FKind.maximumf.neutral .f32 hφ) (r : Fin 512) :
    multiReduction .maximumf [1] S512 src 0xFF800000#32 h hφ hacc (ix1 r)
      = (Finset.univ : Finset (Fin 1024)).fold max (Ideal.ofBits .f32 0xFF800000#32) (fun j => src (ix2 r j)) := by
  refine (Ideal.multiReduction_maximumf_single src _ h hφ hacc (ix1 r)).trans ?_
  show (Finset.univ : Finset (Fin 1024)).fold max (Ideal.ofBits .f32 0xFF800000#32) (src ∘ h.lift (ix1 r)) = _
  exact congrArg (fun f => (Finset.univ : Finset (Fin 1024)).fold max (Ideal.ofBits .f32 0xFF800000#32) f)
    (funext fun j => congrArg src (lift_ix h r j))

/-- The lane sum of row r. -/
theorem rowSum_apply (src : FVec Ideal S512x1024 .f32) (h : S512x1024.Reduces [1] S512) (hφ : FKind.Formats .f32)
    (hacc : (0x00000000#32 : BitVec 32) = FKind.add.neutral .f32 hφ) (r : Fin 512) :
    multiReduction .add [1] S512 src 0x00000000#32 h hφ hacc (ix1 r) = ∑ j : Fin 1024, src (ix2 r j) := by
  refine (Ideal.multiReduction_add_single src _ h hφ hacc (ix1 r)).trans ?_
  show ∑ j : Fin 1024, src (h.lift (ix1 r) j) = _
  exact Finset.sum_congr rfl fun j _ => congrArg src (lift_ix h r j)

/-! ## The two matrix products at an entry -/

theorem qk_lhs0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide),
    dif_pos (show (0 : Fin S512x1024.rank) ∈ dot_S512x1024_S1024x1024_S512x1024_1_1_0_0_n_n.lhsNonContracting by decide)]
  rfl
theorem qk_rhs0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide),
    dif_pos (show (0 : Fin S1024x1024.rank) ∈ dot_S512x1024_S1024x1024_S512x1024_1_1_0_0_n_n.rhsNonContracting by decide)]
  rfl

/-- Query times keys, both contracted over their feature axis: entry (r, j) is sum_d lhs[r,d] rhs[j,d]. -/
theorem qk_apply {φ₁ φ₂ : FTy} (lhs : FVec Ideal S512x1024 φ₁) (rhs : FVec Ideal S1024x1024 φ₂) (r : Fin 512) (j : Fin 1024) :
    FloatOps.matmul dot_S512x1024_S1024x1024_S512x1024_1_1_0_0_n_n none lhs rhs (constant (F := Ideal) S512x1024 .f32 0x00000000#32) (ix2 r j)
      = ∑ d : Fin 1024, lhs (ix2 r d) * rhs (ix2 j d) := by
  rw [Ideal.matmul_constant_zero_apply,
    ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 r j)
      ((contrEquiv1 dot_S512x1024_S1024x1024_S512x1024_1_1_0_0_n_n 1024 rfl rfl).symm k) = ix2 r k :=
    funext fun a => Fin.ext (by
      match a with
      | ⟨0, _⟩ => exact qk_lhs0 _ _
      | ⟨1, _⟩ => exact (dot_S512x1024_S1024x1024_S512x1024_1_1_0_0_n_n.lhsIdx_val_of_single rfl _ _).trans hk)
  have er : dot_S512x1024_S1024x1024_S512x1024_1_1_0_0_n_n.rhsIdx (ix2 r j)
      ((contrEquiv1 dot_S512x1024_S1024x1024_S512x1024_1_1_0_0_n_n 1024 rfl rfl).symm k) = ix2 j k :=
    funext fun a => Fin.ext (by
      match a with
      | ⟨0, _⟩ => exact qk_rhs0 _ _
      | ⟨1, _⟩ => exact (dot_S512x1024_S1024x1024_S512x1024_1_1_0_0_n_n.rhsIdx_val_of_single rfl _ _).trans hk)
  rw [el, er]

theorem pv_lhs0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem pv_rhs1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- Rows times columns: entry (r, e) is sum_j lhs[r,j] rhs[j,e]. -/
theorem pv_apply {φ₁ φ₂ : FTy} (lhs : FVec Ideal S512x1024 φ₁) (rhs : FVec Ideal S1024x1024 φ₂) (r : Fin 512) (e : Fin 1024) :
    FloatOps.matmul dot_S512x1024_S1024x1024_S512x1024_1_0_0_1_n_n none lhs rhs (constant (F := Ideal) S512x1024 .f32 0x00000000#32) (ix2 r e)
      = ∑ j : Fin 1024, lhs (ix2 r j) * rhs (ix2 j e) := by
  rw [Ideal.matmul_constant_zero_apply,
    ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 r e)
      ((contrEquiv1 dot_S512x1024_S1024x1024_S512x1024_1_0_0_1_n_n 1024 rfl rfl).symm k) = ix2 r k :=
    funext fun a => Fin.ext (by
      match a with
      | ⟨0, _⟩ => exact pv_lhs0 _ _
      | ⟨1, _⟩ => exact (dot_S512x1024_S1024x1024_S512x1024_1_0_0_1_n_n.lhsIdx_val_of_single rfl _ _).trans hk)
  have er : dot_S512x1024_S1024x1024_S512x1024_1_0_0_1_n_n.rhsIdx (ix2 r e)
      ((contrEquiv1 dot_S512x1024_S1024x1024_S512x1024_1_0_0_1_n_n 1024 rfl rfl).symm k) = ix2 k e :=
    funext fun a => Fin.ext (by
      match a with
      | ⟨0, _⟩ => exact (dot_S512x1024_S1024x1024_S512x1024_1_0_0_1_n_n.rhsIdx_val_of_single rfl _ _).trans hk
      | ⟨1, _⟩ => exact pv_rhs1 _ _)
  rw [el, er]

end Cert.KernelIdeal.FlashPay

end
-- ==== Proof.FlashStep.lean ====
/-
  The payloads of the attention body read at an entry, and the three updates of a visit as the online soft-max's.

  Row r's scores against a key tile are a function of the query row, the tile's keys and the row's mask words
  (tileScore).  In terms of them the body's new maximum, sum and context at row r are the updates stepMax, stepSum,
  stepCtx of the online soft-max, applied to the running values at row r; the reset values are -inf, 0 and 0; and the
  closing step at (r, e) is sum_d (a[r,d] / l[r]) wo[d,e] + bo[e].
-/
import proofs.«100896_j48627619725380_2_alg».proof.Proof.Flash
import proofs.«100896_j48627619725380_2_alg».proof.Proof.FlashMath
import proofs.«100896_j48627619725380_2_alg».proof.Proof.FlashPay

noncomputable section

open scoped BigOperators

namespace Cert.KernelIdeal.FlashStep

open Idealize.ShloMosaic Idealize.ShloMosaic.ValueIdx Cert.KernelIdeal Cert.KernelIdeal.Gen Cert.KernelIdeal.Flash
  Cert.KernelIdeal.FlashPay Cert.FlashMath

/-- Row r's score against position j of a key tile: the fill value where the mask word is not zero, else the
    scaled inner product of the query row with the key row. -/
def tileScore (q : Vec Ideal S1x512x1024 .bf16) (k : Vec Ideal S1x1024x1024 .bf16) (msk : Vec Ideal S1x512x1024 .i32)
    (r : Fin 512) (j : Fin 1024) : EReal :=
  if msk (ix3 (0 : Fin 1) r j) ≠ 0#32 then Ideal.ofBits .f32 0x1E3CE508#32
  else (∑ d : Fin 1024, q (ix3 (0 : Fin 1) r d) * k (ix3 (0 : Fin 1) j d)) * Ideal.ofBits .f32 0x3D000000#32

/-- A select on "the word is not zero" is the if. -/
theorem select_ne_zero {α : Type} (x : BitVec 32) (a b : α) :
    Scalar.select (IntOp.cmpi .ne x 0#32) a b = if x ≠ 0#32 then a else b := by
  unfold Scalar.select
  by_cases h : x = 0#32
  · subst h; simp [IntOp.cmpi]
  · rw [if_pos h, if_pos]
    show BitVec.ofBool (x != 0#32) = 1#1
    rw [bne_iff_ne.2 h]
    rfl

/-- The masked, scaled scores at (r, j). -/
theorem pay9_apply (q : Vec Ideal S1x512x1024 .bf16) (k : Vec Ideal S1x1024x1024 .bf16) (msk : Vec Ideal S1x512x1024 .i32)
    (r : Fin 512) (j : Fin 1024) : k1_pay9 (F := Ideal) q k msk (ix2 r j) = tileScore q k msk r j := by
  unfold k1_pay9 tileScore
  show Scalar.select (IntOp.cmpi .ne (shapeCast S512x1024 msk _ (ix2 r j)) 0#32) (Ideal.ofBits .f32 0x1E3CE508#32)
      (FloatOps.matmul dot_S512x1024_S1024x1024_S512x1024_1_1_0_0_n_n none (shapeCast S512x1024 q _) (shapeCast S1024x1024 k _)
          (constant (F := Ideal) S512x1024 .f32 0x00000000#32) (ix2 r j) * Ideal.ofBits .f32 0x3D000000#32) = _
  rw [select_ne_zero, qk_apply, shapeCast_1ab_ab_apply msk _ r j]
  simp only [shapeCast_1ab_ab_apply]

/-- The new maxima at (r, u). -/
theorem pay10_apply (q : Vec Ideal S1x512x1024 .bf16) (k : Vec Ideal S1x1024x1024 .bf16) (msk : Vec Ideal S1x512x1024 .i32)
    (mp : Vec Ideal S512x1 .f32) (r : Fin 512) (u : Fin 1) :
    k1_pay10 (F := Ideal) q k msk mp (ix2 r u) = stepMax (mp (ix2 r u)) (tileScore q k msk r) := by
  unfold k1_pay10 stepMax
  refine (maximumf_apply _ _ _).trans ?_
  refine congrArg (max (mp (ix2 r u))) ?_
  refine (shapeCast_a_a1_apply _ _ r u).trans ((rowMax_apply _ _ _ _ r).trans ?_)
  rw [negInf]
  exact congrArg (fun f => (Finset.univ : Finset (Fin 1024)).fold max ⊥ f) (funext fun j => pay9_apply q k msk r j)

/-- The factor that rescales the running sum and context, at (r, u). -/
theorem pay11_apply (q : Vec Ideal S1x512x1024 .bf16) (k : Vec Ideal S1x1024x1024 .bf16) (msk : Vec Ideal S1x512x1024 .i32)
    (mp : Vec Ideal S512x1 .f32) (r : Fin 512) (u : Fin 1) :
    k1_pay11 (F := Ideal) q k msk mp (ix2 r u)
      = Ideal.exp (mp (ix2 r u) - stepMax (mp (ix2 r u)) (tileScore q k msk r)) := by
  unfold k1_pay11
  show Ideal.exp (mp (ix2 r u) - k1_pay10 (F := Ideal) q k msk mp (ix2 r u)) = _
  rw [pay10_apply]

/-- The shifted exponentials of the scores at (r, j). -/
theorem pay12_apply (q : Vec Ideal S1x512x1024 .bf16) (k : Vec Ideal S1x1024x1024 .bf16) (msk : Vec Ideal S1x512x1024 .i32)
    (mp : Vec Ideal S512x1 .f32) (r : Fin 512) (j : Fin 1024) :
    k1_pay12 (F := Ideal) q k msk mp (ix2 r j)
      = Ideal.exp (tileScore q k msk r j - stepMax (mp (ix2 r (0 : Fin 1))) (tileScore q k msk r)) := by
  unfold k1_pay12
  show Ideal.exp (k1_pay9 (F := Ideal) q k msk (ix2 r j)
      - broadcastTo S512x1024 (k1_pay10 (F := Ideal) q k msk mp) _ (ix2 r j)) = _
  rw [pay9_apply, broadcastTo_a1_ab_apply, pay10_apply]

/-- The new sums at (r, 0). -/
theorem pay13_apply (q : Vec Ideal S1x512x1024 .bf16) (k : Vec Ideal S1x1024x1024 .bf16) (msk : Vec Ideal S1x512x1024 .i32)
    (mp lp : Vec Ideal S512x1 .f32) (r : Fin 512) :
    k1_pay13 (F := Ideal) q k msk mp lp (ix2 r (0 : Fin 1))
      = stepSum (mp (ix2 r (0 : Fin 1))) (lp (ix2 r (0 : Fin 1))) (tileScore q k msk r) := by
  unfold k1_pay13 stepSum
  show k1_pay11 (F := Ideal) q k msk mp (ix2 r (0 : Fin 1)) * lp (ix2 r (0 : Fin 1))
      + shapeCast S512x1 (multiReduction .add [1] S512 (k1_pay12 (F := Ideal) q k msk mp) 0x00000000#32 _ _ _) _ (ix2 r (0 : Fin 1)) = _
  rw [pay11_apply]
  congr 1
  refine (shapeCast_a_a1_apply _ _ r 0).trans ((rowSum_apply _ _ _ _ r).trans ?_)
  exact Finset.sum_congr rfl fun j _ => pay12_apply q k msk mp r j

/-- The value tile without its leading unit axis. -/
theorem pay8_apply (v : Vec Ideal S1x1024x1024 .bf16) (j d : Fin 1024) :
    k1_pay8 (F := Ideal) v (ix2 j d) = v (ix3 (0 : Fin 1) j d) := by
  unfold k1_pay8
  exact shapeCast_1ab_ab_apply v _ j d

/-- The new context at (r, d). -/
theorem pay2_apply (v8 : FVec Ideal S1024x1024 .bf16) (v22 : FVec Ideal S512x1 .f32) (v25 : FVec Ideal S512x1024 .f32)
    (v36 : Vec Ideal S512x1024 .f32) (r : Fin 512) (d : Fin 1024) :
    k1_pay2 (F := Ideal) v8 v22 v25 v36 (ix2 r d)
      = v22 (ix2 r (0 : Fin 1)) * v36 (ix2 r d) + ∑ j : Fin 1024, v25 (ix2 r j) * v8 (ix2 j d) := by
  unfold k1_pay2
  refine (congrFun (shapeCast_self _ _) (ix2 r d)).trans ?_
  show broadcastTo S512x1024 v22 _ (ix2 r d) * v36 (ix2 r d)
      + FloatOps.matmul dot_S512x1024_S1024x1024_S512x1024_1_0_0_1_n_n none (truncf .bf16 v25 _) v8
          (constant (F := Ideal) S512x1024 .f32 0x00000000#32) (ix2 r d) = _
  rw [broadcastTo_a1_ab_apply, pv_apply]
  rfl

/-- The stored sums and maxima are the computed ones. -/
theorem pay1_eq (v : FVec Ideal S512x1 .f32) : k1_pay1 (F := Ideal) v = v := by
  unfold k1_pay1; exact shapeCast_self _ _
theorem pay3_eq (v : FVec Ideal S512x1 .f32) : k1_pay3 (F := Ideal) v = v := by
  unfold k1_pay3; exact shapeCast_self _ _

/-- The reset values: -inf for the maxima, 0 for the sums and the context. -/
theorem pay5_apply (i : S512x1.Idx) : k1_pay5 (F := Ideal) i = ⊥ := by
  unfold k1_pay5
  refine (congrFun (shapeCast_self _ _) i).trans ?_
  exact negInf
theorem pay6_apply (i : S512x1.Idx) : k1_pay6 (F := Ideal) i = 0 := by
  unfold k1_pay6
  refine (congrFun (shapeCast_self _ _) i).trans ?_
  exact Ideal.ofBits_zero_f32
theorem pay7_apply (i : S512x1024.Idx) : k1_pay7 (F := Ideal) i = 0 := by
  unfold k1_pay7
  refine (congrFun (shapeCast_self _ _) i).trans ?_
  exact Ideal.ofBits_zero_f32

/-- The closing step at (0, r, e): the normalised context times the output weights, plus the bias. -/
theorem pay4_apply (v49 : Vec Ideal S512x1024 .f32) (v50 : Vec Ideal S512x1 .f32) (v53 : Vec Ideal S1024x1024 .bf16)
    (v57 : Vec Ideal S1x1024 .f32) (r : Fin 512) (e : Fin 1024) :
    k1_pay4 (F := Ideal) v49 v50 v53 v57 (ix3 (0 : Fin 1) r e)
      = (∑ d : Fin 1024, Ideal.div (v49 (ix2 r d)) (v50 (ix2 r (0 : Fin 1))) * v53 (ix2 d e)) + v57 (ix2 (0 : Fin 1) e) := by
  unfold k1_pay4
  refine (shapeCast_ab_1ab_apply _ _ (0 : Fin 1) r e).trans ?_
  show FloatOps.matmul dot_S512x1024_S1024x1024_S512x1024_1_0_0_1_n_n none
          (truncf .bf16 (divf v49 (broadcastTo S512x1024 v50 _)) _) (shapeCast S1024x1024 v53 _)
          (constant (F := Ideal) S512x1024 .f32 0x00000000#32) (ix2 r e)
      + broadcastTo S512x1024 (shapeCast S1x1024 v57 _) _ (ix2 r e) = _
  rw [pv_apply, broadcastTo_1b_ab_apply, shapeCast_self, shapeCast_self]
  refine congrArg (· + _) (Finset.sum_congr rfl fun d _ => ?_)
  show Ideal.div (v49 (ix2 r d)) (broadcastTo S512x1024 v50 _ (ix2 r d)) * v53 (ix2 d e) = _
  rw [broadcastTo_a1_ab_apply]

/-! ## The three updates of a visit, and the reset visit -/

theorem stepM_apply (q : Vec Ideal S1x512x1024 .bf16) (k : Vec Ideal S1x1024x1024 .bf16) (msk : Vec Ideal S1x512x1024 .i32)
    (mp : Vec Ideal S512x1 .f32) (r : Fin 512) :
    stepM (F := Ideal) q k msk mp (ix2 r (0 : Fin 1)) = stepMax (mp (ix2 r (0 : Fin 1))) (tileScore q k msk r) := by
  unfold stepM
  rw [pay3_eq]
  exact pay10_apply q k msk mp r 0

theorem stepL_apply (q : Vec Ideal S1x512x1024 .bf16) (k : Vec Ideal S1x1024x1024 .bf16) (msk : Vec Ideal S1x512x1024 .i32)
    (mp lp : Vec Ideal S512x1 .f32) (r : Fin 512) :
    stepL (F := Ideal) q k msk mp lp (ix2 r (0 : Fin 1))
      = stepSum (mp (ix2 r (0 : Fin 1))) (lp (ix2 r (0 : Fin 1))) (tileScore q k msk r) := by
  unfold stepL
  rw [pay1_eq]
  exact pay13_apply q k msk mp lp r

theorem stepA_apply (q : Vec Ideal S1x512x1024 .bf16) (k v : Vec Ideal S1x1024x1024 .bf16) (msk : Vec Ideal S1x512x1024 .i32)
    (mp : Vec Ideal S512x1 .f32) (ap : Vec Ideal S512x1024 .f32) (r : Fin 512) (d : Fin 1024) :
    stepA (F := Ideal) q k v msk mp ap (ix2 r d)
      = stepCtx (mp (ix2 r (0 : Fin 1))) (ap (ix2 r d)) (tileScore q k msk r) (fun j => v (ix3 (0 : Fin 1) j d)) := by
  unfold stepA stepCtx
  rw [pay2_apply, pay11_apply]
  refine congrArg (_ + ·) (Finset.sum_congr rfl fun j _ => ?_)
  rw [pay12_apply, pay8_apply]

theorem m0_apply (q : Vec Ideal S1x512x1024 .bf16) (k0 : Vec Ideal S1x1024x1024 .bf16) (msk0 : Vec Ideal S1x512x1024 .i32)
    (r : Fin 512) : m0 (F := Ideal) q k0 msk0 (ix2 r (0 : Fin 1)) = stepMax ⊥ (tileScore q k0 msk0 r) := by
  unfold m0
  rw [stepM_apply, pay5_apply]

theorem l0_apply (q : Vec Ideal S1x512x1024 .bf16) (k0 : Vec Ideal S1x1024x1024 .bf16) (msk0 : Vec Ideal S1x512x1024 .i32)
    (r : Fin 512) : l0 (F := Ideal) q k0 msk0 (ix2 r (0 : Fin 1)) = stepSum ⊥ 0 (tileScore q k0 msk0 r) := by
  unfold l0
  rw [stepL_apply, pay5_apply, pay6_apply]

theorem a0_apply (q : Vec Ideal S1x512x1024 .bf16) (k0 v0 : Vec Ideal S1x1024x1024 .bf16) (msk0 : Vec Ideal S1x512x1024 .i32)
    (r : Fin 512) (d : Fin 1024) :
    a0 (F := Ideal) q k0 v0 msk0 (ix2 r d) = stepCtx ⊥ 0 (tileScore q k0 msk0 r) (fun j => v0 (ix3 (0 : Fin 1) j d)) := by
  unfold a0
  rw [stepA_apply, pay5_apply, pay7_apply]

/-- The stored block at (0, r, e): two visits from the reset values, the quotient, the output projection. -/
theorem outBlock_eq (q : Vec Ideal S1x512x1024 .bf16) (k0 k1 v0 v1 : Vec Ideal S1x1024x1024 .bf16)
    (msk0 msk1 : Vec Ideal S1x512x1024 .i32) (wo : Vec Ideal S1024x1024 .bf16) (bo : Vec Ideal S1x1024 .f32)
    (r : Fin 512) (e : Fin 1024) :
    outBlock (F := Ideal) q k0 k1 v0 v1 msk0 msk1 wo bo (ix3 (0 : Fin 1) r e)
      = (∑ d : Fin 1024,
          Ideal.div
            (stepCtx (stepMax ⊥ (tileScore q k0 msk0 r))
              (stepCtx ⊥ 0 (tileScore q k0 msk0 r) (fun j => v0 (ix3 (0 : Fin 1) j d)))
              (tileScore q k1 msk1 r) (fun j => v1 (ix3 (0 : Fin 1) j d)))
            (stepSum (stepMax ⊥ (tileScore q k0 msk0 r)) (stepSum ⊥ 0 (tileScore q k0 msk0 r)) (tileScore q k1 msk1 r))
          * wo (ix2 d e))
        + bo (ix2 (0 : Fin 1) e) := by
  unfold outBlock
  rw [pay4_apply, stepL_apply, m0_apply, l0_apply]
  refine congrArg (· + _) (Finset.sum_congr rfl fun d _ => ?_)
  rw [stepA_apply, m0_apply, a0_apply]

end Cert.KernelIdeal.FlashStep

end
-- ==== Proof.FlashValue.lean ====
/-
  One attention block at the exact-real instance is the soft-max attention row of the specification.

  The block's two visits run the online soft-max over the two key/value tiles of a row of 2048 positions.  When the
  query, key and value entries are finite reals every score is a finite real (a masked one is the finite fill value),
  so the quotient the closing step takes is the soft-max-weighted sum of the value rows over all 2048 positions; the
  output projection and the bias are then applied to the same context on both sides.
-/
import proofs.«100896_j48627619725380_2_alg».proof.Proof.AttnSpec
import proofs.«100896_j48627619725380_2_alg».proof.Proof.FlashStep

noncomputable section

open scoped BigOperators

namespace Cert.KernelIdeal.FlashValue

open Idealize.ShloMosaic Idealize.ShloMosaic.ValueIdx Cert.KernelIdeal Cert.KernelIdeal.Gen Cert.KernelIdeal.Flash
  Cert.KernelIdeal.FlashPay Cert.KernelIdeal.FlashStep Cert.FlashMath

/-- The scale word 0x3D000000 is 2^-5 = 1/32. -/
theorem scale : Ideal.ofBits .f32 0x3D000000#32 = ((1 / 32 : ℝ) : EReal) := by
  have e1 : (BitVec.extractLsb' 23 8 (0x3D000000#32)).toNat = 122 := by decide
  have e2 : (BitVec.extractLsb' 0 23 (0x3D000000#32)).toNat = 0 := by decide
  have e3 : (BitVec.extractLsb' (8 + 23) 1 (0x3D000000#32) == 1#1) = false := by decide
  simp only [Ideal.ofBits, Ideal.ieee, e1, e2, e3]
  norm_num

/-- Every score of a tile is a finite real when the query and the keys are. -/
theorem tileScore_real (q : Vec Ideal S1x512x1024 .bf16) (k : Vec Ideal S1x1024x1024 .bf16) (msk : Vec Ideal S1x512x1024 .i32)
    (hq : ∀ i, ∃ x : ℝ, q i = (x : EReal)) (hk : ∀ i, ∃ x : ℝ, k i = (x : EReal)) (r : Fin 512) (j : Fin 1024) :
    ∃ x : ℝ, tileScore q k msk r j = (x : EReal) := by
  unfold tileScore
  split
  · exact fill_real
  · choose a ha using hq
    choose b hb using hk
    refine ⟨(∑ d : Fin 1024, a (ix3 (0 : Fin 1) r d) * b (ix3 (0 : Fin 1) j d)) * (1 / 32), ?_⟩
    rw [scale, EReal.coe_mul, coe_sum]
    refine congrArg (· * _) (Finset.sum_congr rfl fun d _ => ?_)
    rw [ha, hb, EReal.coe_mul]

/-- The specification's row of 2048 scores is the two tiles' scores side by side. -/
theorem score_glue (q : Vec Ideal S1x512x1024 .bf16) (k0 k1 : Vec Ideal S1x1024x1024 .bf16) (msk0 msk1 : Vec Ideal S1x512x1024 .i32)
    (r : Fin 512) :
    Cert.AttnSpec.score (Ideal.ofBits .f32 0x1E3CE508#32)
        (fun d => q (ValueIdx.ix3 (0 : Fin 1) r d))
        (fun j d => if h : j.val < 1024 then k0 (ValueIdx.ix3 (0 : Fin 1) ⟨j.val, h⟩ d) else k1 (ValueIdx.ix3 (0 : Fin 1) ⟨j.val - 1024, by omega⟩ d))
        (fun j => if h : j.val < 1024 then decide (msk0 (ValueIdx.ix3 (0 : Fin 1) r ⟨j.val, h⟩) ≠ 0#32) else decide (msk1 (ValueIdx.ix3 (0 : Fin 1) r ⟨j.val - 1024, by omega⟩) ≠ 0#32))
      = glue (tileScore q k0 msk0 r) (tileScore q k1 msk1 r) := by
  funext k
  unfold Cert.AttnSpec.score glue tileScore
  by_cases h : k.val < 1024
  · simp only [dif_pos h, decide_eq_true_eq, scale]
  · simp only [dif_neg h, decide_eq_true_eq, scale]

theorem outBlock_apply
    (q : Vec Ideal S1x512x1024 .bf16) (k0 k1 v0 v1 : Vec Ideal S1x1024x1024 .bf16) (msk0 msk1 : Vec Ideal S1x512x1024 .i32)
    (wo : Vec Ideal S1024x1024 .bf16) (bo : Vec Ideal S1x1024 .f32)
    (hq : ∀ i, ∃ x : ℝ, q i = (x : EReal)) (hk0 : ∀ i, ∃ x : ℝ, k0 i = (x : EReal)) (hk1 : ∀ i, ∃ x : ℝ, k1 i = (x : EReal))
    (hv0 : ∀ i, ∃ x : ℝ, v0 i = (x : EReal)) (hv1 : ∀ i, ∃ x : ℝ, v1 i = (x : EReal))
    (r : Fin 512) (e : Fin 1024) :
    Cert.KernelIdeal.Flash.outBlock (F := Ideal) q k0 k1 v0 v1 msk0 msk1 wo bo (ValueIdx.ix3 (0 : Fin 1) r e)
      = Cert.AttnSpec.rowOut (Ideal.ofBits .f32 0x1E3CE508#32)
          (fun d => q (ValueIdx.ix3 (0 : Fin 1) r d))
          (fun j d => if h : j.val < 1024 then k0 (ValueIdx.ix3 (0 : Fin 1) ⟨j.val, h⟩ d) else k1 (ValueIdx.ix3 (0 : Fin 1) ⟨j.val - 1024, by omega⟩ d))
          (fun j d => if h : j.val < 1024 then v0 (ValueIdx.ix3 (0 : Fin 1) ⟨j.val, h⟩ d) else v1 (ValueIdx.ix3 (0 : Fin 1) ⟨j.val - 1024, by omega⟩ d))
          (fun j => if h : j.val < 1024 then decide (msk0 (ValueIdx.ix3 (0 : Fin 1) r ⟨j.val, h⟩) ≠ 0#32) else decide (msk1 (ValueIdx.ix3 (0 : Fin 1) r ⟨j.val - 1024, by omega⟩) ≠ 0#32))
          (fun d e' => wo (ValueIdx.ix2 d e')) (fun e' => bo (ValueIdx.ix2 (0 : Fin 1) e')) e := by
  rw [outBlock_eq]
  unfold Cert.AttnSpec.rowOut Cert.AttnSpec.projRow
  beta_reduce
  refine congrArg (· + _) (Finset.sum_congr rfl fun d _ => congrArg (· * _) ?_)
  rw [score_glue,
    two_tiles (tileScore q k0 msk0 r) (tileScore q k1 msk1 r) (fun j => v0 (ix3 (0 : Fin 1) j d)) (fun j => v1 (ix3 (0 : Fin 1) j d))
      (tileScore_real q k0 msk0 hq hk0 r) (tileScore_real q k1 msk1 hq hk1 r) (fun j => hv0 _) (fun j => hv1 _)]
  unfold Cert.AttnSpec.ctxRow Cert.AttnSpec.softmaxRow Cert.AttnSpec.expRow Cert.AttnSpec.rowMax
  rfl

end Cert.KernelIdeal.FlashValue

end
-- ==== Proof.HostRead.lean ====
/-
  The two host stretches around the kernels, read as terms of the launch contents.

  Before the projection kernel the host views the input's 4 × 2048 rows as 8192 rows, lays the three projection weight
  matrices side by side and rounds the result to the 16-bit format, and lays the three biases end to end as one row.
  Between the kernels it views the projection kernel's 8192 result rows as 4 × 2048 again, rounds the output weights,
  views the output bias as one row, and widens the one-bit mask to 32-bit words.  Each buffer a stretch writes holds the
  stretch's operation applied to what its operands held when the stretch began: launch contents for the arguments (no
  stretch writes an argument, no kernel may change one), and for the second stretch's first operand whatever the
  projection kernel left.  The same text serves any float instance.
-/
import proofs.«100896_j48627619725380_2_alg».proof.Proof.Gen.KernelIdeal.Regions
import Idealize.ShloMosaic.Lib.StableHlo.Run

noncomputable section

namespace Cert.KernelIdeal.HostRead

open Idealize.ShloMosaic Idealize.ShloMosaic.TcCoe Idealize.ShloMosaic.StableHlo
open Idealize.SL.Sem
open Cert.KernelIdeal Cert.KernelIdeal.Gen

variable {F : FTy → Type} [FloatOps F]
variable (m : (ℓ : Loc nD τ sig) → Buf (Elt F) ℓ) (outs : Gen.Outs (F := F)) (c : Dev nD)

/-! ## An argument is as launched when either stretch reads it -/

/-- Before the first kernel. -/
theorem V1_arg (r : Ref sig .tc) (h1 : r ∉ Gen.hostOps0_W) : Gen.V1 m c r = m ((c : Thread nD τ).loc r) :=
  (Gen.V1_of m c r h1).trans rfl

/-- Between the kernels, for a buffer neither the first stretch nor the first kernel writes. -/
theorem V2_arg (r : Ref sig .tc) (h1 : r ∉ Gen.hostOps0_W) (h2 : r ∉ ([main_v5] : List (Ref sig .tc))) :
    Gen.V2 m outs c r = m ((c : Thread nD τ).loc r) :=
  (Gen.V2_of m outs c r h2).trans (V1_arg m c r h1)

/-- What the first kernel left in its result buffer is what the second stretch finds there. -/
theorem V2_main_v5 : Gen.V2 m outs c main_v5 = outs 2 main_v5 c := by
  show Function.update (Gen.V1 m c) (Proc.devRef .tc main_v5) (outs 2 main_v5 c) (Proc.devRef .tc main_v5) = _
  exact Function.update_self _ _ _

/-! ## The first stretch -/

/-- The input, its 4 × 2048 rows viewed as 8192. -/
theorem V1_main_v0 :
    (Gen.V1 m c main_v0 : (⟨S8192x1024, .f32⟩ : BufTy).Contents (Elt F))
      = shapeCast S8192x1024 (m ((c : Thread nD τ).loc main_arg0)) shapeCasts_S4x2048x1024_S8192x1024 := by
  dsimp only [Gen.V1, Gen.hostOps0]
  after_results
  rfl

/-- The three projection weight matrices side by side, rounded to the 16-bit format. -/
theorem V1_main_v2 :
    (Gen.V1 m c main_v2 : (⟨S1024x3072, .bf16⟩ : BufTy).Contents (Elt F))
      = truncf .bf16 (concatenate S1024x3072 1 [⟨S1024x1024, m ((c : Thread nD τ).loc main_arg2)⟩, ⟨S1024x1024, m ((c : Thread nD τ).loc main_arg4)⟩, ⟨S1024x1024, m ((c : Thread nD τ).loc main_arg6)⟩]
          concatenates_S1024x1024_S1024x1024_S1024x1024_S1024x3072_d1) bitsLt_bf16_f32 := by
  dsimp only [Gen.V1, Gen.hostOps0]
  after_results
  rfl

/-- The three projection biases end to end, as one row. -/
theorem V1_main_v4 :
    (Gen.V1 m c main_v4 : (⟨S1x3072, .f32⟩ : BufTy).Contents (Elt F))
      = shapeCast S1x3072 (concatenate S3072 0 [⟨S1024, m ((c : Thread nD τ).loc main_arg3)⟩, ⟨S1024, m ((c : Thread nD τ).loc main_arg5)⟩, ⟨S1024, m ((c : Thread nD τ).loc main_arg7)⟩]
          concatenates_S1024_S1024_S1024_S3072_d0) shapeCasts_S3072_S1x3072 := by
  dsimp only [Gen.V1, Gen.hostOps0]
  after_results
  rfl

/-! ## The second stretch -/

/-- The projection kernel's result, its 8192 rows viewed as 4 × 2048. -/
theorem V3_main_v6 :
    (Gen.V3 m outs c main_v6 : (⟨S4x2048x3072, .bf16⟩ : BufTy).Contents (Elt F))
      = shapeCast S4x2048x3072 (outs 2 main_v5 c) shapeCasts_S8192x3072_S4x2048x3072 := by
  dsimp only [Gen.V3, Gen.hostOps1]
  after_results
  rw [V2_main_v5]
  rfl

/-- The output weights, rounded to the 16-bit format. -/
theorem V3_main_v7 :
    (Gen.V3 m outs c main_v7 : (⟨S1024x1024, .bf16⟩ : BufTy).Contents (Elt F)) = truncf .bf16 (m ((c : Thread nD τ).loc main_arg8)) bitsLt_bf16_f32 := by
  dsimp only [Gen.V3, Gen.hostOps1]
  after_results
  rw [V2_arg m outs c main_arg8 (by decide) (by decide)]

/-- The output bias, as one row. -/
theorem V3_main_v8 :
    (Gen.V3 m outs c main_v8 : (⟨S1x1024, .f32⟩ : BufTy).Contents (Elt F)) = shapeCast S1x1024 (m ((c : Thread nD τ).loc main_arg9)) shapeCasts_S1024_S1x1024 := by
  dsimp only [Gen.V3, Gen.hostOps1]
  after_results
  rw [V2_arg m outs c main_arg9 (by decide) (by decide)]
  rfl

/-- The mask, each bit widened to a 32-bit word. -/
theorem V3_main_v9 :
    (Gen.V3 m outs c main_v9 : (⟨S4x2048x2048, .i32⟩ : BufTy).Contents (Elt F)) = extui 32 (m ((c : Thread nD τ).loc main_arg1)) natLt_1_32 := by
  dsimp only [Gen.V3, Gen.hostOps1]
  after_results
  rw [V2_arg m outs c main_arg1 (by decide) (by decide)]

end Cert.KernelIdeal.HostRead

end
-- ==== Proof.HostLayout.lean ====
/-
  The host's layout operations around the two kernels, read at an index.

  Before the projection kernel the host lays the three weight matrices side by side, `[Wq | Wk | Wv]` of 3072 columns,
  and the three biases end to end; it views the batch of 4 × 2048 rows as 8192 rows, a bias as a one-row matrix, and
  after the kernel views the 8192 rows of the result as 4 × 2048 again.  Each is a re-indexing:
  • a concatenation reads the piece whose span holds the coordinate on the joined axis — columns 0…1023 the first,
    1024…2047 the second, 2048…3071 the third — at that coordinate less the extents before the piece;
  • a reshape reads the operand at the index of the same row-major position: row `2048·b + s` of 8192 is `(b, s)`.
  The statements hold for entries of any type, and for any proof of the shape relation the operation takes.
-/
import proofs.«100896_j48627619725380_2_alg».proof.KernelIdeal
import Idealize.ShloMosaic.Lib.ValueLayout

namespace Cert.KernelIdeal.HostLayout

open Idealize.ShloMosaic Idealize.ShloMosaic.ValueIdx Cert.KernelIdeal

variable {α : Type}

/-! ## Three matrices side by side: `[W0 | W1 | W2]` along the columns -/

/-- Columns 0…1023 are the first matrix. -/
theorem concat_cols_fst (W0 W1 W2 : S1024x1024.Idx → α)
    (h : Shape.Concatenates [S1024x1024, S1024x1024, S1024x1024] S1024x3072 1)
    (d : Fin 1024) (j : Fin 3072) (e : Fin 1024) (hj : j.val = e.val) :
    concatenate S1024x3072 1 [⟨S1024x1024, W0⟩, ⟨S1024x1024, W1⟩, ⟨S1024x1024, W2⟩] h (ix2 d j) = W0 (ix2 d e) :=
  concatenate_apply_piece (1 : Fin S1024x3072.rank) [⟨S1024x1024, W0⟩, ⟨S1024x1024, W1⟩, ⟨S1024x1024, W2⟩] h (ix2 d j) 0 (by simp) S1024x1024 W0 rfl rfl 0 rfl (ix2 d e)
    (fun b hb => by
      match b with
      | ⟨0, _⟩ => rfl
      | ⟨1, _⟩ => exact absurd rfl hb)
    (by show 0 + e.val = j.val; omega)

/-- Columns 1024…2047 are the second matrix. -/
theorem concat_cols_snd (W0 W1 W2 : S1024x1024.Idx → α)
    (h : Shape.Concatenates [S1024x1024, S1024x1024, S1024x1024] S1024x3072 1)
    (d : Fin 1024) (j : Fin 3072) (e : Fin 1024) (hj : j.val = 1024 + e.val) :
    concatenate S1024x3072 1 [⟨S1024x1024, W0⟩, ⟨S1024x1024, W1⟩, ⟨S1024x1024, W2⟩] h (ix2 d j) = W1 (ix2 d e) :=
  concatenate_apply_piece (1 : Fin S1024x3072.rank) [⟨S1024x1024, W0⟩, ⟨S1024x1024, W1⟩, ⟨S1024x1024, W2⟩] h (ix2 d j) 1 (by simp) S1024x1024 W1 rfl rfl 1024 rfl (ix2 d e)
    (fun b hb => by
      match b with
      | ⟨0, _⟩ => rfl
      | ⟨1, _⟩ => exact absurd rfl hb)
    (by show 1024 + e.val = j.val; omega)

/-- Columns 2048…3071 are the third matrix. -/
theorem concat_cols_thd (W0 W1 W2 : S1024x1024.Idx → α)
    (h : Shape.Concatenates [S1024x1024, S1024x1024, S1024x1024] S1024x3072 1)
    (d : Fin 1024) (j : Fin 3072) (e : Fin 1024) (hj : j.val = 2048 + e.val) :
    concatenate S1024x3072 1 [⟨S1024x1024, W0⟩, ⟨S1024x1024, W1⟩, ⟨S1024x1024, W2⟩] h (ix2 d j) = W2 (ix2 d e) :=
  concatenate_apply_piece (1 : Fin S1024x3072.rank) [⟨S1024x1024, W0⟩, ⟨S1024x1024, W1⟩, ⟨S1024x1024, W2⟩] h (ix2 d j) 2 (by simp) S1024x1024 W2 rfl rfl 2048 rfl (ix2 d e)
    (fun b hb => by
      match b with
      | ⟨0, _⟩ => rfl
      | ⟨1, _⟩ => exact absurd rfl hb)
    (by show 2048 + e.val = j.val; omega)

/-- The joined matrix at row `d`, column `j`, by the third of the columns `j` lies in. -/
theorem concat_cols_apply (W0 W1 W2 : S1024x1024.Idx → α)
    (h : Shape.Concatenates [S1024x1024, S1024x1024, S1024x1024] S1024x3072 1) (d : Fin 1024) (j : Fin 3072) :
    concatenate S1024x3072 1 [⟨S1024x1024, W0⟩, ⟨S1024x1024, W1⟩, ⟨S1024x1024, W2⟩] h (ix2 d j)
      = if h1 : j.val < 1024 then W0 (ix2 d (⟨j.val, h1⟩ : Fin 1024))
        else if h2 : j.val < 2048 then W1 (ix2 d (⟨j.val - 1024, by omega⟩ : Fin 1024))
        else W2 (ix2 d (⟨j.val - 2048, by have := j.isLt; omega⟩ : Fin 1024)) := by
  have hj := j.isLt
  by_cases h1 : j.val < 1024
  · rw [dif_pos h1]; exact concat_cols_fst W0 W1 W2 h d j _ rfl
  · rw [dif_neg h1]
    by_cases h2 : j.val < 2048
    · rw [dif_pos h2]; exact concat_cols_snd W0 W1 W2 h d j _ (by show j.val = 1024 + (j.val - 1024); omega)
    · rw [dif_neg h2]; exact concat_cols_thd W0 W1 W2 h d j _ (by show j.val = 2048 + (j.val - 2048); omega)

/-! ## Three vectors end to end: `[b0 | b1 | b2]` -/

/-- Entries 0…1023 are the first vector. -/
theorem concat_vec_fst (b0 b1 b2 : S1024.Idx → α) (h : Shape.Concatenates [S1024, S1024, S1024] S3072 0)
    (j : Fin 3072) (e : Fin 1024) (hj : j.val = e.val) :
    concatenate S3072 0 [⟨S1024, b0⟩, ⟨S1024, b1⟩, ⟨S1024, b2⟩] h (ix1 j) = b0 (ix1 e) :=
  concatenate_apply_piece (0 : Fin S3072.rank) [⟨S1024, b0⟩, ⟨S1024, b1⟩, ⟨S1024, b2⟩] h (ix1 j) 0 (by simp) S1024 b0 rfl rfl 0 rfl (ix1 e)
    (fun b hb => by
      match b with
      | ⟨0, _⟩ => exact absurd rfl hb)
    (by show 0 + e.val = j.val; omega)

/-- Entries 1024…2047 are the second vector. -/
theorem concat_vec_snd (b0 b1 b2 : S1024.Idx → α) (h : Shape.Concatenates [S1024, S1024, S1024] S3072 0)
    (j : Fin 3072) (e : Fin 1024) (hj : j.val = 1024 + e.val) :
    concatenate S3072 0 [⟨S1024, b0⟩, ⟨S1024, b1⟩, ⟨S1024, b2⟩] h (ix1 j) = b1 (ix1 e) :=
  concatenate_apply_piece (0 : Fin S3072.rank) [⟨S1024, b0⟩, ⟨S1024, b1⟩, ⟨S1024, b2⟩] h (ix1 j) 1 (by simp) S1024 b1 rfl rfl 1024 rfl (ix1 e)
    (fun b hb => by
      match b with
      | ⟨0, _⟩ => exact absurd rfl hb)
    (by show 1024 + e.val = j.val; omega)

/-- Entries 2048…3071 are the third vector. -/
theorem concat_vec_thd (b0 b1 b2 : S1024.Idx → α) (h : Shape.Concatenates [S1024, S1024, S1024] S3072 0)
    (j : Fin 3072) (e : Fin 1024) (hj : j.val = 2048 + e.val) :
    concatenate S3072 0 [⟨S1024, b0⟩, ⟨S1024, b1⟩, ⟨S1024, b2⟩] h (ix1 j) = b2 (ix1 e) :=
  concatenate_apply_piece (0 : Fin S3072.rank) [⟨S1024, b0⟩, ⟨S1024, b1⟩, ⟨S1024, b2⟩] h (ix1 j) 2 (by simp) S1024 b2 rfl rfl 2048 rfl (ix1 e)
    (fun b hb => by
      match b with
      | ⟨0, _⟩ => exact absurd rfl hb)
    (by show 2048 + e.val = j.val; omega)

/-- The joined vector at `j`, by the third `j` lies in. -/
theorem concat_vec_apply (b0 b1 b2 : S1024.Idx → α) (h : Shape.Concatenates [S1024, S1024, S1024] S3072 0) (j : Fin 3072) :
    concatenate S3072 0 [⟨S1024, b0⟩, ⟨S1024, b1⟩, ⟨S1024, b2⟩] h (ix1 j)
      = if h1 : j.val < 1024 then b0 (ix1 (⟨j.val, h1⟩ : Fin 1024))
        else if h2 : j.val < 2048 then b1 (ix1 (⟨j.val - 1024, by omega⟩ : Fin 1024))
        else b2 (ix1 (⟨j.val - 2048, by have := j.isLt; omega⟩ : Fin 1024)) := by
  have hj := j.isLt
  by_cases h1 : j.val < 1024
  · rw [dif_pos h1]; exact concat_vec_fst b0 b1 b2 h j _ rfl
  · rw [dif_neg h1]
    by_cases h2 : j.val < 2048
    · rw [dif_pos h2]; exact concat_vec_snd b0 b1 b2 h j _ (by show j.val = 1024 + (j.val - 1024); omega)
    · rw [dif_neg h2]; exact concat_vec_thd b0 b1 b2 h j _ (by show j.val = 2048 + (j.val - 2048); omega)

/-! ## The reshapes -/

/-- `[4, 2048, 1024]` viewed as `[8192, 1024]`: row `row` is batch `row / 2048`, position `row % 2048`. -/
theorem reshape_rows_apply (X : S4x2048x1024.Idx → α) (h : S4x2048x1024.ShapeCasts S8192x1024) (row : Fin 8192) (d : Fin 1024) :
    shapeCast S8192x1024 X h (ix2 row d)
      = X (ix3 (⟨row.val / 2048, by have := row.isLt; omega⟩ : Fin 4) (⟨row.val % 2048, by omega⟩ : Fin 2048) d) :=
  shapeCast_apply X h _ _ (by
    rw [Shape.rowMajor_val_three, Shape.rowMajor_val_two]
    show (row.val / 2048 * 2048 + row.val % 2048) * 1024 + d.val = row.val * 1024 + d.val
    omega)

/-- The same, from the batch and the position: row `2048·b + s` is `(b, s)`. -/
theorem reshape_rows_apply_of (X : S4x2048x1024.Idx → α) (h : S4x2048x1024.ShapeCasts S8192x1024)
    (row : Fin 8192) (b : Fin 4) (s : Fin 2048) (d : Fin 1024) (hrow : row.val = 2048 * b.val + s.val) :
    shapeCast S8192x1024 X h (ix2 row d) = X (ix3 b s d) :=
  shapeCast_apply X h _ _ (by
    rw [Shape.rowMajor_val_three, Shape.rowMajor_val_two]
    show (b.val * 2048 + s.val) * 1024 + d.val = row.val * 1024 + d.val
    omega)

/-- `[8192, 3072]` viewed as `[4, 2048, 3072]`: `(b, s)` is row `2048·b + s`. -/
theorem reshape_batch_apply (Y : S8192x3072.Idx → α) (h : S8192x3072.ShapeCasts S4x2048x3072)
    (b : Fin 4) (s : Fin 2048) (j : Fin 3072) :
    shapeCast S4x2048x3072 Y h (ix3 b s j)
      = Y (ix2 (⟨2048 * b.val + s.val, by have := b.isLt; have := s.isLt; omega⟩ : Fin 8192) j) :=
  shapeCast_apply Y h _ _ (by
    rw [Shape.rowMajor_val_two, Shape.rowMajor_val_three]
    show (2048 * b.val + s.val) * 3072 + j.val = (b.val * 2048 + s.val) * 3072 + j.val
    omega)

/-- A vector of 3072 entries viewed as one row. -/
theorem reshape_row3072_apply (v : S3072.Idx → α) (h : S3072.ShapeCasts S1x3072) (u : Fin 1) (j : Fin 3072) :
    shapeCast S1x3072 v h (ix2 u j) = v (ix1 j) :=
  shapeCast_a_1a_apply v h u j

/-- A vector of 1024 entries viewed as one row. -/
theorem reshape_row1024_apply (v : S1024.Idx → α) (h : S1024.ShapeCasts S1x1024) (u : Fin 1) (j : Fin 1024) :
    shapeCast S1x1024 v h (ix2 u j) = v (ix1 j) :=
  shapeCast_a_1a_apply v h u j

end Cert.KernelIdeal.HostLayout
-- ==== Proof.HostReadIdx.lean ====
/-
  The host stretches' buffers at the extended reals, read at an index.

  With a change of float format the identity, each buffer a stretch writes is a re-indexing of launch contents (or, for
  the projection kernel's result, of what that kernel left): row `2048·b + s` of the 8192-row input is the input at
  `(b, s)`; column `j` of the joined weights is column `j`, `j − 1024` or `j − 2048` of the query, key or value
  weights by the third `j` lies in, and likewise the joined bias row; the output weights and bias row are the
  arguments' entries; and a widened mask word is non-zero exactly where the mask bit is 1.
  Each statement is over a variable of the buffer's literal function type with its defining equation as a hypothesis.
-/
import proofs.«100896_j48627619725380_2_alg».proof.Proof.HostRead
import proofs.«100896_j48627619725380_2_alg».proof.Proof.HostLayout
import Idealize.ShloMosaic.Lib.ValueIdx

noncomputable section

namespace Cert.KernelIdeal.HostRead

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (outs : Gen.Outs (F := Ideal)) (c : Dev nD)

/-! ## The first stretch -/

/-- Row `2048·b + s` of the 8192-row input is the input at batch `b`, position `s`. -/
theorem X0_apply (X0 : S8192x1024.Idx → EReal) (hX : X0 = Gen.V1 m c main_v0)
    (row : Fin 8192) (b : Fin 4) (s : Fin 2048) (d : Fin 1024) (hrow : row.val = 2048 * b.val + s.val) :
    X0 (ix2 row d) = m ((c : Thread nD τ).loc main_arg0) (ix3 b s d) := by
  rw [hX, V1_main_v0 m c]
  exact HostLayout.reshape_rows_apply_of _ _ row b s d hrow

/-- Columns 0…1023 of the joined weights are the query weights. -/
theorem W2_apply_q (W2 : S1024x3072.Idx → EReal) (hW : W2 = Gen.V1 m c main_v2)
    (d : Fin 1024) (j : Fin 3072) (e : Fin 1024) (hj : j.val = e.val) :
    W2 (ix2 d j) = m ((c : Thread nD τ).loc main_arg2) (ix2 d e) := by
  rw [hW, V1_main_v2 m c]
  refine (truncf_apply (φ := .f32) (ψ := .bf16) _ bitsLt_bf16_f32 (ix2 d j)).trans ?_
  exact HostLayout.concat_cols_fst _ _ _ _ d j e hj

/-- Columns 1024…2047 of the joined weights are the key weights. -/
theorem W2_apply_k (W2 : S1024x3072.Idx → EReal) (hW : W2 = Gen.V1 m c main_v2)
    (d : Fin 1024) (j : Fin 3072) (e : Fin 1024) (hj : j.val = 1024 + e.val) :
    W2 (ix2 d j) = m ((c : Thread nD τ).loc main_arg4) (ix2 d e) := by
  rw [hW, V1_main_v2 m c]
  refine (truncf_apply (φ := .f32) (ψ := .bf16) _ bitsLt_bf16_f32 (ix2 d j)).trans ?_
  exact HostLayout.concat_cols_snd _ _ _ _ d j e hj

/-- Columns 2048…3071 of the joined weights are the value weights. -/
theorem W2_apply_v (W2 : S1024x3072.Idx → EReal) (hW : W2 = Gen.V1 m c main_v2)
    (d : Fin 1024) (j : Fin 3072) (e : Fin 1024) (hj : j.val = 2048 + e.val) :
    W2 (ix2 d j) = m ((c : Thread nD τ).loc main_arg6) (ix2 d e) := by
  rw [hW, V1_main_v2 m c]
  refine (truncf_apply (φ := .f32) (ψ := .bf16) _ bitsLt_bf16_f32 (ix2 d j)).trans ?_
  exact HostLayout.concat_cols_thd _ _ _ _ d j e hj

/-- Entries 0…1023 of the joined bias row are the query bias. -/
theorem B4_apply_q (B4 : S1x3072.Idx → EReal) (hB : B4 = Gen.V1 m c main_v4)
    (j : Fin 3072) (e : Fin 1024) (hj : j.val = e.val) :
    B4 (ix2 (0 : Fin 1) j) = m ((c : Thread nD τ).loc main_arg3) (ix1 e) := by
  rw [hB, V1_main_v4 m c, HostLayout.reshape_row3072_apply]
  exact HostLayout.concat_vec_fst _ _ _ _ j e hj

/-- Entries 1024…2047 of the joined bias row are the key bias. -/
theorem B4_apply_k (B4 : S1x3072.Idx → EReal) (hB : B4 = Gen.V1 m c main_v4)
    (j : Fin 3072) (e : Fin 1024) (hj : j.val = 1024 + e.val) :
    B4 (ix2 (0 : Fin 1) j) = m ((c : Thread nD τ).loc main_arg5) (ix1 e) := by
  rw [hB, V1_main_v4 m c, HostLayout.reshape_row3072_apply]
  exact HostLayout.concat_vec_snd _ _ _ _ j e hj

/-- Entries 2048…3071 of the joined bias row are the value bias. -/
theorem B4_apply_v (B4 : S1x3072.Idx → EReal) (hB : B4 = Gen.V1 m c main_v4)
    (j : Fin 3072) (e : Fin 1024) (hj : j.val = 2048 + e.val) :
    B4 (ix2 (0 : Fin 1) j) = m ((c : Thread nD τ).loc main_arg7) (ix1 e) := by
  rw [hB, V1_main_v4 m c, HostLayout.reshape_row3072_apply]
  exact HostLayout.concat_vec_thd _ _ _ _ j e hj

/-! ## The second stretch -/

/-- The packed projections at `(b, s, j)` are row `2048·b + s`, column `j` of what the projection kernel left. -/
theorem Q6_apply (Q6 : S4x2048x3072.Idx → EReal) (hQ : Q6 = Gen.V3 m outs c main_v6)
    (b : Fin 4) (s : Fin 2048) (j : Fin 3072) :
    Q6 (ix3 b s j) = outs 2 main_v5 c (ix2 (⟨2048 * b.val + s.val, by have := b.isLt; have := s.isLt; omega⟩ : Fin 8192) j) := by
  rw [hQ, V3_main_v6 m outs c]
  exact HostLayout.reshape_batch_apply _ _ b s j

/-- The rounded output weights are the output weights. -/
theorem W7_apply (W7 : S1024x1024.Idx → EReal) (hW : W7 = Gen.V3 m outs c main_v7) (d e : Fin 1024) :
    W7 (ix2 d e) = m ((c : Thread nD τ).loc main_arg8) (ix2 d e) := by
  rw [hW, V3_main_v7 m outs c]
  rfl

/-- The output bias row is the output bias. -/
theorem B8_apply (B8 : S1x1024.Idx → EReal) (hB : B8 = Gen.V3 m outs c main_v8) (e : Fin 1024) :
    B8 (ix2 (0 : Fin 1) e) = m ((c : Thread nD τ).loc main_arg9) (ix1 e) := by
  rw [hB, V3_main_v8 m outs c]
  exact HostLayout.reshape_row1024_apply _ _ 0 e

/-- One bit widened to 32 is non-zero exactly when the bit is 1. -/
theorem setWidth_ne_zero_iff (w : BitVec 1) : w.setWidth 32 ≠ 0#32 ↔ w = 1#1 := by
  rcases BitVec.eq_zero_or_eq_one w with rfl | rfl <;> decide

/-- A widened mask word is non-zero exactly where the mask bit is 1. -/
theorem M9_apply (M9 : S4x2048x2048.Idx → BitVec 32) (hM : M9 = Gen.V3 m outs c main_v9) (b : Fin 4) (q k : Fin 2048) :
    M9 (ix3 b q k) ≠ 0#32 ↔ m ((c : Thread nD τ).loc main_arg1) (ix3 b q k) = 1#1 := by
  rw [hM, V3_main_v9 m outs c, extui_apply]
  exact setWidth_ne_zero_iff _

end Cert.KernelIdeal.HostRead

end
-- ==== Proof.LinearValue.lean ====
/-
  The projection kernel's stored block read at one entry, over the extended reals.

  The body forms `x·w + b` on a block of 512 rows: the activations (rounded to the narrow format, which is the
  identity on extended reals) are multiplied into a zero accumulator by the weights, contracting the 1024 features;
  the one bias row is repeated over the 512 rows and added; the result is rounded to the narrow format (again the
  identity).  Read at row `r` and column `j` this is `∑ d, x[r,d] * w[d,j] + b[0,j]`.

  The only work is the re-indexing of the contraction: the matrix product sums over the one-axis contraction index of
  its dimension numbers, which is carried to `Fin 1024` by the coordinate bijection, and the two operand indices at
  output position `(r, j)` and contraction position `d` are `(r, d)` and `(d, j)`.
-/
import proofs.«100896_j48627619725380_2_alg».proof.Proof.Gen.KernelIdeal.Skeleton
import Idealize.ShloMosaic.Lib.ValueLayout
import Idealize.ShloMosaic.Lib.ValueIdx
import Idealize.ShloMosaic.PureOps.Ideal.Laws

noncomputable section

namespace Cert.KernelIdeal.LinearValue

open Idealize.ShloMosaic Idealize.ShloMosaic.ValueIdx Cert.KernelIdeal Cert.KernelIdeal.Gen

/-- The dimension numbers of the product `[512,1024] × [1024,3072] → [512,3072]`: contract axis 1 of the left
    operand with axis 0 of the right, no batch axis. -/
abbrev mm : DotDims S512x1024 S1024x3072 S512x3072 := dot_S512x1024_S1024x3072_S512x3072_1_0_0_1_n_n

/-- The left operand's row is the output's row. -/
theorem lhs_row (i : S512x3072.Idx) (q : mm.contr.Idx) : (mm.lhsIdx i q 0).val = (i 0).val := by
  unfold DotDims.lhsIdx
  rw [dif_neg (show ¬(0 : Fin S512x1024.rank) ∈ mm.lhsBatch by decide),
    dif_pos (show (0 : Fin S512x1024.rank) ∈ mm.lhsNonContracting by decide)]
  rfl

/-- The left operand's column is the contraction position. -/
theorem lhs_col (i : S512x3072.Idx) (q : mm.contr.Idx) : (mm.lhsIdx i q 1).val = (q ⟨0, by decide⟩).val :=
  mm.lhsIdx_val_of_single rfl i q

/-- The right operand's row is the contraction position. -/
theorem rhs_row (i : S512x3072.Idx) (q : mm.contr.Idx) : (mm.rhsIdx i q 0).val = (q ⟨0, by decide⟩).val :=
  mm.rhsIdx_val_of_single rfl i q

/-- The right operand's column is the output's column. -/
theorem rhs_col (i : S512x3072.Idx) (q : mm.contr.Idx) : (mm.rhsIdx i q 1).val = (i 1).val := by
  unfold DotDims.rhsIdx
  rw [dif_neg (show ¬(1 : Fin S1024x3072.rank) ∈ mm.rhsBatch by decide),
    dif_pos (show (1 : Fin S1024x3072.rank) ∈ mm.rhsNonContracting by decide)]
  rfl

/-- The product into the zero accumulator, at `(r, j)`: the sum over the 1024 features. -/
theorem matmul_zero_apply (x : FVec Ideal S512x1024 .bf16) (w : FVec Ideal S1024x3072 .bf16) (r : Fin 512) (j : Fin 3072) :
    matmul (F := Ideal) mm none x w (constant (F := Ideal) S512x3072 .f32 0x00000000#32) (ix2 r j)
      = ∑ d : Fin 1024, x (ix2 r d) * w (ix2 d j) := by
  simp only [matmul]
  rw [Ideal.matmul_constant_zero_apply, ← Equiv.sum_comp (contrEquiv1 mm 1024 rfl rfl).symm]
  refine Finset.sum_congr rfl fun d _ => ?_
  have hd := contrEquiv1_symm_val mm 1024 rfl rfl d
  have el : mm.lhsIdx (ix2 r j) ((contrEquiv1 mm 1024 rfl rfl).symm d) = ix2 r d := funext fun a => Fin.ext (by
    match a with
    | ⟨0, _⟩ => exact lhs_row _ _
    | ⟨1, _⟩ => exact (lhs_col _ _).trans hd)
  have er : mm.rhsIdx (ix2 r j) ((contrEquiv1 mm 1024 rfl rfl).symm d) = ix2 d j := funext fun a => Fin.ext (by
    match a with
    | ⟨0, _⟩ => exact (rhs_row _ _).trans hd
    | ⟨1, _⟩ => exact rhs_col _ _)
  rw [el, er]

/-- The block the projection kernel stores, at row `r` and column `j`. -/
theorem k0_pay1_apply (x : Vec Ideal S512x1024 .f32) (w : Vec Ideal S1024x3072 .bf16) (b : Vec Ideal S1x3072 .f32)
    (r : Fin 512) (j : Fin 3072) :
    Cert.KernelIdeal.Gen.k0_pay1 (F := Ideal) x w b (ValueIdx.ix2 r j)
      = (∑ d : Fin 1024, x (ValueIdx.ix2 r d) * w (ValueIdx.ix2 d j)) + b (ValueIdx.ix2 (0 : Fin 1) j) := by
  unfold Cert.KernelIdeal.Gen.k0_pay1
  rw [truncf_apply, addf_apply, shapeCast_self, shapeCast_self, shapeCast_self, broadcastTo_1b_ab_apply]
  refine congrArg (· + b (ix2 (0 : Fin 1) j)) ?_
  exact matmul_zero_apply (truncf .bf16 x bitsLt_bf16_f32) w r j

end Cert.KernelIdeal.LinearValue

end
-- ==== Proof.Reg0Value.lean ====
/-
  The projection region's result array, entry by entry.

  The region's 16 grid points each store one block of 512 rows of `x·W + b`: point `t` reads rows `512·t … 512·t+511`
  of the flattened input, the whole weight matrix and the whole bias row, and writes the same 512 rows of the result.
  So the result array ends holding ONE function of the three arrays the region finds: at row `r`, column `j`,
  `∑ d, X[r,d] · W[d,j] + B[0,j]`.  Three steps: what a point writes back is its block of that function (the
  body's block read at an entry, with each input block read where the array holds it: a block's entry sits at
  block index × block size + its own coordinate); every row `r` lies in the block of point `r / 512`; hence the
  array after the last write-back is the function.
-/
import proofs.«100896_j48627619725380_2_alg».proof.Proof.Reg0
import proofs.«100896_j48627619725380_2_alg».proof.Proof.LinearValue
import Idealize.ShloMosaic.Lib.Pipeline.Value

noncomputable section

namespace Cert.KernelIdeal.Reg0Value

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The projection of every row: `X·W + B` at row `i 0`, column `i 1`. -/
def proj (X : S8192x1024.Idx → EReal) (W : S1024x3072.Idx → EReal) (B : S1x3072.Idx → EReal) : S8192x3072.Idx → EReal :=
  fun i => (∑ d : Fin 1024, X (ix2 (⟨(i 0).val, (i 0).isLt⟩ : Fin 8192) d) * W (ix2 d (⟨(i 1).val, (i 1).isLt⟩ : Fin 3072)))
    + B (ix2 (0 : Fin 1) (⟨(i 1).val, (i 1).isLt⟩ : Fin 3072))

/-- The block indices over the grid: the input rows and the result rows move with the point, the weights and the
    bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of one block: the body's block at `p`, its three operands being rows `512·T …` of `X`, all of `W` and
    all of `B`, is the projection at row `512·T + p 0`, column `p 1`. -/
theorem point_eq (X : S8192x1024.Idx → EReal) (W : S1024x3072.Idx → EReal) (B : S1x3072.Idx → EReal)
    (x : Vec Ideal S512x1024 .f32) (w : Vec Ideal S1024x3072 .bf16) (b : Vec Ideal S1x3072 .f32) (T : Nat)
    (hx : ∀ (r : Fin 512) (d : Fin 1024) (k : Fin 8192), k.val = 512 * T + r.val → x (ix2 r d) = X (ix2 k d))
    (hw : ∀ (d : Fin 1024) (j : Fin 3072), w (ix2 d j) = W (ix2 d j))
    (hb : ∀ j : Fin 3072, b (ix2 (0 : Fin 1) j) = B (ix2 (0 : Fin 1) j))
    (p : S512x3072.Idx) (i : S8192x3072.Idx) (hi0 : (i 0).val = 512 * T + (p 0).val) (hi1 : (i 1).val = (p 1).val) :
    k0_pay1 (F := Ideal) x w b p = proj X W B i := by
  obtain ⟨r, j, rfl⟩ : ∃ (r : Fin 512) (j : Fin 3072), p = ix2 r j := ⟨p 0, p 1, eq_ix2 p⟩
  refine (LinearValue.k0_pay1_apply x w b r j).trans ?_
  have e1 : (⟨(i 1).val, (i 1).isLt⟩ : Fin 3072) = j := Fin.ext hi1
  unfold proj
  rw [e1, hb j]
  refine congrArg (· + B (ix2 (0 : Fin 1) j)) (Finset.sum_congr rfl fun d _ => ?_)
  rw [hx r d ⟨(i 0).val, (i 0).isLt⟩ hi0, hw d j]

/-! ## The input blocks, read where the arrays hold them -/

/-- Point `t`'s block of the input rows: entry `(r, d)` is the array's entry `(512·t + r, d)`. -/
theorem iblk0_apply (c : Dev nD) (t : Fin cfg0.N) (r : Fin 512) (d : Fin 1024) (k : Fin 8192) (hk : k.val = 512 * t.val + r.val) :
    (Reg0.iblk V c 0 t : Vec Ideal S512x1024 .f32) (ix2 r d) = (V c main_v0 : S8192x1024.Idx → EReal) (ix2 k d) := by
  obtain ⟨e00, e01, -⟩ := idx_facts t
  unfold Reg0.iblk
  rw [View.read_apply]
  show (V c main_v0 : S8192x1024.Idx → EReal) _ = (V c main_v0 : S8192x1024.Idx → EReal) _
  refine congrArg _ (funext fun a => Fin.ext ?_)
  match a with
  | ⟨0, _⟩ => show win0_0.index t (0 : Fin 2) * 512 + 1 * r.val = k.val; rw [e00, hk]; omega
  | ⟨1, _⟩ => show win0_0.index t (1 : Fin 2) * 1024 + 1 * d.val = d.val; rw [e01]; omega

/-- Every point's block of the weights is the whole matrix. -/
theorem iblk1_apply (c : Dev nD) (t : Fin cfg0.N) (d : Fin 1024) (j : Fin 3072) :
    (Reg0.iblk V c 1 t : Vec Ideal S1024x3072 .bf16) (ix2 d j) = (V c main_v2 : S1024x3072.Idx → EReal) (ix2 d j) := by
  obtain ⟨-, -, e10, e11, -⟩ := idx_facts t
  unfold Reg0.iblk
  rw [View.read_apply]
  show (V c main_v2 : S1024x3072.Idx → EReal) _ = (V c main_v2 : S1024x3072.Idx → EReal) _
  refine congrArg _ (funext fun a => Fin.ext ?_)
  match a with
  | ⟨0, _⟩ => show win0_1.index t (0 : Fin 2) * 1024 + 1 * d.val = d.val; rw [e10]; omega
  | ⟨1, _⟩ => show win0_1.index t (1 : Fin 2) * 3072 + 1 * j.val = j.val; rw [e11]; omega

/-- Every point's block of the bias is the whole row. -/
theorem iblk2_apply (c : Dev nD) (t : Fin cfg0.N) (j : Fin 3072) :
    (Reg0.iblk V c 2 t : Vec Ideal S1x3072 .f32) (ix2 (0 : Fin 1) j) = (V c main_v4 : S1x3072.Idx → EReal) (ix2 (0 : Fin 1) j) := by
  obtain ⟨-, -, -, -, e20, e21, -⟩ := idx_facts t
  unfold Reg0.iblk
  rw [View.read_apply]
  show (V c main_v4 : S1x3072.Idx → EReal) _ = (V c main_v4 : S1x3072.Idx → EReal) _
  refine congrArg _ (funext fun a => Fin.ext ?_)
  match a with
  | ⟨0, _⟩ => show win0_2.index t (0 : Fin 2) * 1 + 1 * (0 : Fin 1).val = (0 : Fin 1).val; rw [e20]; rfl
  | ⟨1, _⟩ => show win0_2.index t (1 : Fin 2) * 3072 + 1 * j.val = j.val; rw [e21]; omega

/-! ## What a point writes back -/

/-- Point `t` writes back its block of the projection of the arrays as the region finds them. -/
theorem flushed3_eq (c : Dev nD) (t : Fin cfg0.N) :
    (Reg0.dat (F := Ideal) V c).flushed 3 t
      = ((cfg0.win 3).blk t).view.read (Elt Ideal) (proj (V c main_v0) (V c main_v2) (V c main_v4)) := by
  show (cfg0.win 3).cut (grid0.coords t) ((Reg0.dat (F := Ideal) V c).after 3 t) = _
  rw [Reg0.after_3]
  unfold Reg0.out3
  rw [View.canon_unit_zero hz]
  simp only [View.ld_unit_zero (S := S512x1024) hz, View.ld_unit_zero (S := S1024x3072) hz, View.ld_unit_zero (S := S1x3072) hz]
  obtain ⟨-, -, -, -, -, -, e30, e31⟩ := idx_facts t
  funext y
  refine point_eq (V c main_v0) (V c main_v2) (V c main_v4) _ _ _ t.val
    (fun r d k hk => iblk0_apply V c t r d k hk) (fun d j => iblk1_apply V c t d j) (fun j => iblk2_apply V c t j)
    ((cfg0.win 3).xinj (grid0.coords t) y) (((cfg0.win 3).blk t).view.emb y) ?_ ?_
  · show win0_3.index t (0 : Fin 2) * 512 + 1 * (y 0).val = 512 * t.val + (y 0).val
    rw [e30]; omega
  · show win0_3.index t (1 : Fin 2) * 3072 + 1 * (y 1).val = (y 1).val
    rw [e31]; omega

/-! ## The cover, and the array after the region -/

/-- An index of the result array is in point `t`'s block iff each coordinate is in the block's range on its axis. -/
theorem mem_blk3 (t : Fin cfg0.N) (i : S8192x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v5).slice (win0_3.rect t)).set ↔ _
  rw [View.set_slice_whole, Rect.mem_set_unit]
  exact Iff.rfl

/-- Row `r` lies in the block of point `r / 512`. -/
theorem cover3 (i : S8192x3072.Idx) :
    ∃ t : Fin cfg0.N, (cfg0.win 3).flush t = true ∧ i ∈ ((cfg0.win 3).blk t).view.set := by
  have h0 : (i 0).val < 8192 := (i 0).isLt
  have h1 : (i 1).val < 3072 := (i 1).isLt
  have hN : cfg0.N = 16 := N_0
  obtain ⟨t, ht⟩ : ∃ t : Fin cfg0.N, t.val = (i 0).val / 512 := ⟨⟨(i 0).val / 512, by rw [hN]; omega⟩, rfl⟩
  obtain ⟨-, -, -, -, -, -, e30, e31⟩ := idx_facts t
  refine ⟨t, flush0_3 t, ?_⟩
  rw [mem_blk3]
  intro a
  match a with
  | ⟨0, _⟩ =>
    show win0_3.index t (0 : Fin 2) * 512 ≤ (i 0).val ∧ (i 0).val < win0_3.index t (0 : Fin 2) * 512 + 512
    rw [e30, ht]; omega
  | ⟨1, _⟩ =>
    show win0_3.index t (1 : Fin 2) * 3072 ≤ (i 1).val ∧ (i 1).val < win0_3.index t (1 : Fin 2) * 3072 + 3072
    rw [e31]; omega

/-- The result array after the region is the projection of the arrays the region finds. -/
theorem final3_eq (c : Dev nD) :
    (Reg0.dat (F := Ideal) V c).arrAt 3 cfg0.N = proj (V c main_v0) (V c main_v2) (V c main_v4) :=
  (Reg0.dat (F := Ideal) V c).arrAt_eq_of_cover 3 (proj (V c main_v0) (V c main_v2) (V c main_v4))
    (fun t _ => flushed3_eq V c t) cover3

/-- The projection at row `row`, column `j`. -/
theorem proj_apply (X : S8192x1024.Idx → EReal) (W : S1024x3072.Idx → EReal) (B : S1x3072.Idx → EReal)
    (row : Fin 8192) (j : Fin 3072) :
    proj X W B (ix2 row j) = (∑ d : Fin 1024, X (ix2 row d) * W (ix2 d j)) + B (ix2 (0 : Fin 1) j) := rfl

/-- The result array after the region at row `row`, column `j`; `X`, `W`, `B` name the three arrays the region finds. -/
theorem final3 (c : Dev nD) (X : S8192x1024.Idx → EReal) (W : S1024x3072.Idx → EReal) (B : S1x3072.Idx → EReal)
    (hX : X = V c main_v0) (hW : W = V c main_v2) (hB : B = V c main_v4) (row : Fin 8192) (j : Fin 3072) :
    ((Reg0.dat (F := Ideal) V c).arrAt 3 cfg0.N : S8192x3072.Idx → EReal) (ix2 row j)
      = (∑ d : Fin 1024, X (ix2 row d) * W (ix2 d j)) + B (ix2 (0 : Fin 1) j) := by
  subst hX hW hB
  rw [final3_eq]
  rfl

end Cert.KernelIdeal.Reg0Value

end
-- ==== Proof.RealRows.lean ====
/-
  A projection row of finite entries is finite: a sum of products of reals plus a real is a real.
-/
import proofs.«100896_j48627619725380_2_alg».proof.Proof.AttnSpec

noncomputable section

namespace Cert.RealRows

open Idealize.ShloMosaic

theorem exists_real_sum {ι : Type} (s : Finset ι) (f : ι → EReal) (h : ∀ i, ∃ r : ℝ, f i = (r : EReal)) :
    ∃ r : ℝ, ∑ i ∈ s, f i = (r : EReal) := by
  classical
  induction s using Finset.induction_on with
  | empty => exact ⟨0, by simp⟩
  | insert a s ha ih =>
    obtain ⟨r, hr⟩ := ih
    obtain ⟨x, hx⟩ := h a
    exact ⟨x + r, by rw [Finset.sum_insert ha, hx, hr, EReal.coe_add]⟩

theorem exists_real_mul {a b : EReal} (ha : ∃ r : ℝ, a = (r : EReal)) (hb : ∃ r : ℝ, b = (r : EReal)) :
    ∃ r : ℝ, a * b = (r : EReal) := by
  obtain ⟨x, rfl⟩ := ha; obtain ⟨y, rfl⟩ := hb
  exact ⟨x * y, (EReal.coe_mul x y).symm⟩

theorem exists_real_add {a b : EReal} (ha : ∃ r : ℝ, a = (r : EReal)) (hb : ∃ r : ℝ, b = (r : EReal)) :
    ∃ r : ℝ, a + b = (r : EReal) := by
  obtain ⟨x, rfl⟩ := ha; obtain ⟨y, rfl⟩ := hb
  exact ⟨x + y, (EReal.coe_add x y).symm⟩

/-- One entry of `x·W + b` is a real when every entry of `x`, `W` and `b` is. -/
theorem real_projRow (x : Fin 1024 → EReal) (W : Fin 1024 → Fin 1024 → EReal) (b : Fin 1024 → EReal)
    (hx : ∀ d, ∃ r : ℝ, x d = (r : EReal)) (hW : ∀ d e, ∃ r : ℝ, W d e = (r : EReal)) (hb : ∀ e, ∃ r : ℝ, b e = (r : EReal))
    (e : Fin 1024) : ∃ r : ℝ, Cert.AttnSpec.projRow x W b e = (r : EReal) := by
  unfold Cert.AttnSpec.projRow
  exact exists_real_add (exists_real_sum _ _ fun d => exists_real_mul (hx d) (hW d e)) (hb e)

end Cert.RealRows

end
-- ==== Proof.Finite.lean ====
/-
  Every input entry is a real number, from the precondition.

  The precondition states, for each of the nine float arguments, that `|x| < +∞` holds at every entry: the entrywise
  comparison of the absolute values with the infinity word, folded by `and` over all axes from the constant 1, and the
  nine results joined by `and`.  Read back: the conjunction is 1, so each fold is 1; a fold by `and` into a result of
  one index that is 1 met a 1 at every entry; and at the exact instance an entry `x` of the extended reals with
  `max x (-x) < ⊤` is neither `⊤` nor `⊥`, hence the image of a real.
-/
import proofs.«100896_j48627619725380_2_alg».proof.Pre_finite_inputs
import Idealize.ShloMosaic.Lib.ReduceAll
import Idealize.ShloMosaic.Lib.ValueIdx
import Idealize.ShloMosaic.PureOps.Ideal.Laws

noncomputable section

namespace Cert.Finite

open Idealize.ShloMosaic Idealize.ShloMosaic.ValueIdx Cert.Pre_finite_inputs

/-- The scalar shape has one index. -/
instance : Subsingleton S_.Idx := ⟨fun a b => funext fun d => d.elim0⟩

/-- The word `0x7F800000` is `+∞`. -/
theorem inf_word : Ideal.ofBits .f32 0x7F800000#32 = (⊤ : EReal) := by
  simp [Ideal.ofBits, Ideal.ieee]

/-- An extended real whose absolute value compares below `+∞` is a real. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- One argument's conjunct: if `all (|x| < +∞)` is 1 then every entry of `x` is a real. -/
theorem all_real {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi
          (cmpf .olt (Host.absf x) (broadcastInDim s ![] bc (constant (F := Ideal) S_ .f32 0x7F800000#32)))
          (constantI S_ 1 1#1) hr hu ix0 = 1#1) :
    ∀ i, ∃ r : ℝ, x i = (r : EReal) := by
  intro i
  have hi := Host.reduce_andi_all _ _ hr hu ix0 e i
  exact real_of_abs_lt_inf (x i) hi

/-- The precondition gives: every entry of every float argument is a real. -/
theorem finite_of_pre [hPre : Cert.Pre_finite_inputs.Facts]
    (a0 : FVec Ideal S4x2048x1024 .f32) (a1 : IVec S4x2048x2048 1) (a2 : FVec Ideal S1024x1024 .f32)
    (a3 : FVec Ideal S1024 .f32) (a4 : FVec Ideal S1024x1024 .f32) (a5 : FVec Ideal S1024 .f32)
    (a6 : FVec Ideal S1024x1024 .f32) (a7 : FVec Ideal S1024 .f32) (a8 : FVec Ideal S1024x1024 .f32)
    (a9 : FVec Ideal S1024 .f32)
    (h : Cert.Pre_finite_inputs.fn (F := Ideal) a0 a1 a2 a3 a4 a5 a6 a7 a8 a9 = fun _ => 1#1) :
    (∀ i, ∃ x : ℝ, a0 i = (x : EReal)) ∧ (∀ i, ∃ x : ℝ, a2 i = (x : EReal)) ∧ (∀ i, ∃ x : ℝ, a3 i = (x : EReal))
      ∧ (∀ i, ∃ x : ℝ, a4 i = (x : EReal)) ∧ (∀ i, ∃ x : ℝ, a5 i = (x : EReal)) ∧ (∀ i, ∃ x : ℝ, a6 i = (x : EReal))
      ∧ (∀ i, ∃ x : ℝ, a7 i = (x : EReal)) ∧ (∀ i, ∃ x : ℝ, a8 i = (x : EReal)) ∧ (∀ i, ∃ x : ℝ, a9 i = (x : EReal)) := by
  have e := congrFun h ix0
  dsimp only [fn, fn_part1, fn_part2, andi] at e
  simp only [IntOp.andi_eq_one] at e
  obtain ⟨⟨⟨⟨⟨⟨⟨⟨h0, h2⟩, h3⟩, h4⟩, h5⟩, h6⟩, h7⟩, h8⟩, h9⟩ := e
  exact ⟨all_real a0 _ _ _ h0, all_real a2 _ _ _ h2, all_real a3 _ _ _ h3, all_real a4 _ _ _ h4,
    all_real a5 _ _ _ h5, all_real a6 _ _ _ h6, all_real a7 _ _ _ h7, all_real a8 _ _ _ h8, all_real a9 _ _ _ h9⟩

end Cert.Finite

end
-- ==== Proof.QkvValue.lean ====
/-
  The packed projections the attention kernel reads, as rows of the specification, and their finiteness.

  The projection kernel leaves, at row `2048·b + s` and column `j` of its 8192 × 3072 result, the input row (b, s)
  contracted with column `j` of the three weight matrices laid side by side, plus entry `j` of the three biases laid
  end to end.  Viewed as 4 × 2048 × 3072, columns 0…1023 are therefore the query projection's rows, 1024…2047 the key
  projection's and 2048…3071 the value projection's, each the specification's `projRow` of the input row with that
  projection's own weights and bias.  Where every entry of every float argument is a real number, each such entry is a
  real number too.
-/
import proofs.«100896_j48627619725380_2_alg».proof.Proof.Frames
import proofs.«100896_j48627619725380_2_alg».proof.Proof.Reg0Value
import proofs.«100896_j48627619725380_2_alg».proof.Proof.HostReadIdx
import proofs.«100896_j48627619725380_2_alg».proof.Proof.AttnSpec
import proofs.«100896_j48627619725380_2_alg».proof.Proof.RealRows
import proofs.«100896_j48627619725380_2_alg».proof.Proof.Finite
import proofs.«100896_j48627619725380_2_alg».proof.Proof.Gen.Pre_finite_inputs
import proofs.«100896_j48627619725380_2_alg».proof.Defs

noncomputable section

namespace Cert.KernelIdeal.QkvValue

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (c : Dev nD)

/-- Columns 0…1023 of the packed projections are the query projection's rows. -/
theorem qkv_q (Q6 : S4x2048x3072.Idx → EReal) (hQ : Q6 = Gen.V3 m (Frames.outsA m) c main_v6)
    (b : Fin 4) (s : Fin 2048) (e : Fin 1024) (j : Fin 3072) (hj : j.val = e.val) :
    Q6 (ix3 b s j) = Cert.AttnSpec.projRow (fun d => m ((c : Thread nD τ).loc main_arg0) (ix3 b s d)) (fun d e => m ((c : Thread nD τ).loc main_arg2) (ix2 d e)) (fun e => m ((c : Thread nD τ).loc main_arg3) (ix1 e)) e := by
  have hrow : 2048 * b.val + s.val < 8192 := by have := b.isLt; have := s.isLt; omega
  rw [HostRead.Q6_apply m (Frames.outsA m) c Q6 hQ b s j, Frames.outsA_v5]
  unfold Frames.X5
  refine (Reg0Value.final3 (Frames.Vr1 m) c (Frames.Vr1 m c main_v0) (Frames.Vr1 m c main_v2) (Frames.Vr1 m c main_v4) rfl rfl rfl
    (⟨2048 * b.val + s.val, hrow⟩ : Fin 8192) j).trans ?_
  unfold Cert.AttnSpec.projRow
  exact congrArg₂ (· + ·)
    (Finset.sum_congr rfl fun d _ => congrArg₂ (· * ·)
      (HostRead.X0_apply m c (Frames.Vr1 m c main_v0) rfl (⟨2048 * b.val + s.val, hrow⟩ : Fin 8192) b s d rfl)
      (HostRead.W2_apply_q m c (Frames.Vr1 m c main_v2) rfl d j e hj))
    (HostRead.B4_apply_q m c (Frames.Vr1 m c main_v4) rfl j e hj)

/-- Columns 1024…2047 of the packed projections are the key projection's rows. -/
theorem qkv_k (Q6 : S4x2048x3072.Idx → EReal) (hQ : Q6 = Gen.V3 m (Frames.outsA m) c main_v6)
    (b : Fin 4) (s : Fin 2048) (e : Fin 1024) (j : Fin 3072) (hj : j.val = 1024 + e.val) :
    Q6 (ix3 b s j) = Cert.AttnSpec.projRow (fun d => m ((c : Thread nD τ).loc main_arg0) (ix3 b s d)) (fun d e => m ((c : Thread nD τ).loc main_arg4) (ix2 d e)) (fun e => m ((c : Thread nD τ).loc main_arg5) (ix1 e)) e := by
  have hrow : 2048 * b.val + s.val < 8192 := by have := b.isLt; have := s.isLt; omega
  rw [HostRead.Q6_apply m (Frames.outsA m) c Q6 hQ b s j, Frames.outsA_v5]
  unfold Frames.X5
  refine (Reg0Value.final3 (Frames.Vr1 m) c (Frames.Vr1 m c main_v0) (Frames.Vr1 m c main_v2) (Frames.Vr1 m c main_v4) rfl rfl rfl
    (⟨2048 * b.val + s.val, hrow⟩ : Fin 8192) j).trans ?_
  unfold Cert.AttnSpec.projRow
  exact congrArg₂ (· + ·)
    (Finset.sum_congr rfl fun d _ => congrArg₂ (· * ·)
      (HostRead.X0_apply m c (Frames.Vr1 m c main_v0) rfl (⟨2048 * b.val + s.val, hrow⟩ : Fin 8192) b s d rfl)
      (HostRead.W2_apply_k m c (Frames.Vr1 m c main_v2) rfl d j e hj))
    (HostRead.B4_apply_k m c (Frames.Vr1 m c main_v4) rfl j e hj)

/-- Columns 2048…3071 of the packed projections are the value projection's rows. -/
theorem qkv_v (Q6 : S4x2048x3072.Idx → EReal) (hQ : Q6 = Gen.V3 m (Frames.outsA m) c main_v6)
    (b : Fin 4) (s : Fin 2048) (e : Fin 1024) (j : Fin 3072) (hj : j.val = 2048 + e.val) :
    Q6 (ix3 b s j) = Cert.AttnSpec.projRow (fun d => m ((c : Thread nD τ).loc main_arg0) (ix3 b s d)) (fun d e => m ((c : Thread nD τ).loc main_arg6) (ix2 d e)) (fun e => m ((c : Thread nD τ).loc main_arg7) (ix1 e)) e := by
  have hrow : 2048 * b.val + s.val < 8192 := by have := b.isLt; have := s.isLt; omega
  rw [HostRead.Q6_apply m (Frames.outsA m) c Q6 hQ b s j, Frames.outsA_v5]
  unfold Frames.X5
  refine (Reg0Value.final3 (Frames.Vr1 m) c (Frames.Vr1 m c main_v0) (Frames.Vr1 m c main_v2) (Frames.Vr1 m c main_v4) rfl rfl rfl
    (⟨2048 * b.val + s.val, hrow⟩ : Fin 8192) j).trans ?_
  unfold Cert.AttnSpec.projRow
  exact congrArg₂ (· + ·)
    (Finset.sum_congr rfl fun d _ => congrArg₂ (· * ·)
      (HostRead.X0_apply m c (Frames.Vr1 m c main_v0) rfl (⟨2048 * b.val + s.val, hrow⟩ : Fin 8192) b s d rfl)
      (HostRead.W2_apply_v m c (Frames.Vr1 m c main_v2) rfl d j e hj))
    (HostRead.B4_apply_v m c (Frames.Vr1 m c main_v4) rfl j e hj)

/-- Under the precondition (every entry of every float argument is a real number) every entry of the packed
    projections is a real number: a sum of products of reals plus a real. -/
theorem qkv_real (hpre : Cert.Pre_KernelIdeal (hPre_finite_inputs := Cert.Pre_finite_inputs.Gen.facts) m)
    (Q6 : S4x2048x3072.Idx → EReal) (hQ : Q6 = Gen.V3 m (Frames.outsA m) c main_v6) (i : S4x2048x3072.Idx) :
    ∃ r : ℝ, Q6 i = (r : EReal) := by
  obtain ⟨b, s, j, rfl⟩ : ∃ (b : Fin 4) (s : Fin 2048) (j : Fin 3072), i = ix3 b s j := ⟨i 0, i 1, i 2, eq_ix3 i⟩
  obtain ⟨h0, h2, h3, h4, h5, h6, h7, -, -⟩ :=
    Cert.Finite.finite_of_pre (hPre := Cert.Pre_finite_inputs.Gen.facts) _ _ _ _ _ _ _ _ _ _ (hpre c)
  have hj := j.isLt
  by_cases h1 : j.val < 1024
  · rw [qkv_q m c Q6 hQ b s (⟨j.val, h1⟩ : Fin 1024) j rfl]
    exact Cert.RealRows.real_projRow _ _ _ (fun d => h0 _) (fun d e => h2 _) (fun e => h3 _) _
  · by_cases h2' : j.val < 2048
    · rw [qkv_k m c Q6 hQ b s (⟨j.val - 1024, by omega⟩ : Fin 1024) j (by show j.val = 1024 + (j.val - 1024); omega)]
      exact Cert.RealRows.real_projRow _ _ _ (fun d => h0 _) (fun d e => h4 _) (fun e => h5 _) _
    · rw [qkv_v m c Q6 hQ b s (⟨j.val - 2048, by omega⟩ : Fin 1024) j (by show j.val = 2048 + (j.val - 2048); omega)]
      exact Cert.RealRows.real_projRow _ _ _ (fun d => h0 _) (fun d e => h6 _) (fun e => h7 _) _

end Cert.KernelIdeal.QkvValue

end
-- ==== Proof.Bridge.lean ====
/-
  One entry of the kernel program's result is the specification's entry.

  The result array is what the attention region's write-backs leave: at `(b, s, e)` the block function of the tiles of
  batch `b` and of the query tile containing row `s`.  Two steps of the online soft-max over the two key/value tiles are
  the soft-max over all 2048 positions, every tile entry being a finite real under the precondition.  The tiles are
  slices of the packed projections, whose entries are rows of `x·W + b` for the query, key and value weights by the
  third of the columns; the mask words are non-zero exactly where the mask bit is set; the output weights and bias are the
  arguments'.  So the row of the block function is the specification's row.
-/
import proofs.«100896_j48627619725380_2_alg».proof.Proof.Frames
import proofs.«100896_j48627619725380_2_alg».proof.Proof.Reg1Value
import proofs.«100896_j48627619725380_2_alg».proof.Proof.Reg1Pieces
import proofs.«100896_j48627619725380_2_alg».proof.Proof.FlashValue
import proofs.«100896_j48627619725380_2_alg».proof.Proof.HostReadIdx
import proofs.«100896_j48627619725380_2_alg».proof.Proof.QkvValue
import proofs.«100896_j48627619725380_2_alg».proof.Proof.AttnSpec

noncomputable section

namespace Cert.KernelIdeal.Bridge

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ) (c : Dev nD)

theorem kernel_value (hpre : Cert.Pre_KernelIdeal (hPre_finite_inputs := Cert.Pre_finite_inputs.Gen.facts) m)
    (b : Fin 4) (s : Fin 2048) (e : Fin 1024) :
    (Frames.X10 (F := Ideal) m c : S4x2048x1024.Idx → EReal) (ix3 b s e)
      = Cert.AttnSpec.out (Ideal.ofBits .f32 0x1E3CE508#32)
          (fun b s d => m ((c : Thread nD τ).loc main_arg0) (ix3 b s d))
          (fun b q k => decide (m ((c : Thread nD τ).loc main_arg1) (ix3 b q k) = 1#1))
          (fun d e => m ((c : Thread nD τ).loc main_arg2) (ix2 d e)) (fun e => m ((c : Thread nD τ).loc main_arg3) (ix1 e))
          (fun d e => m ((c : Thread nD τ).loc main_arg4) (ix2 d e)) (fun e => m ((c : Thread nD τ).loc main_arg5) (ix1 e))
          (fun d e => m ((c : Thread nD τ).loc main_arg6) (ix2 d e)) (fun e => m ((c : Thread nD τ).loc main_arg7) (ix1 e))
          (fun d e => m ((c : Thread nD τ).loc main_arg8) (ix2 d e)) (fun e => m ((c : Thread nD τ).loc main_arg9) (ix1 e))
          b s e := by
  -- the four arrays the attention region reads, as functions of literal index types
  obtain ⟨Q6, hQ⟩ : ∃ Q6 : S4x2048x3072.Idx → EReal, Q6 = Gen.V3 m (Frames.outsA m) c main_v6 := ⟨_, rfl⟩
  obtain ⟨M9, hM⟩ : ∃ M9 : S4x2048x2048.Idx → BitVec 32, M9 = Gen.V3 m (Frames.outsA m) c main_v9 := ⟨_, rfl⟩
  obtain ⟨W7, hW⟩ : ∃ W7 : S1024x1024.Idx → EReal, W7 = Gen.V3 m (Frames.outsA m) c main_v7 := ⟨_, rfl⟩
  obtain ⟨B8, hB⟩ : ∃ B8 : S1x1024.Idx → EReal, B8 = Gen.V3 m (Frames.outsA m) c main_v8 := ⟨_, rfl⟩
  have hs : s.val < 2048 := s.isLt
  -- the query tile of row s, and the row's place in it
  obtain ⟨qi, hqi⟩ : ∃ qi : Fin 4, qi = (⟨s.val / 512, by omega⟩ : Fin 4) := ⟨_, rfl⟩
  obtain ⟨r, hr⟩ : ∃ r : Fin 512, r = (⟨s.val % 512, by omega⟩ : Fin 512) := ⟨_, rfl⟩
  have hsr : s.val = 512 * qi.val + r.val := by rw [hqi, hr]; show s.val = 512 * (s.val / 512) + s.val % 512; omega
  -- what the attention region leaves at (b, s, e)
  have h1 := Reg1Value.final6 (Frames.Vr3 (F := Ideal) m) (Reg1.sB_out_eq (Frames.Vr3 (F := Ideal) m)) c Q6 M9 W7 B8 hQ hM hW hB b s e
  rw [← hqi, ← hr] at h1
  refine (show (Frames.X10 (F := Ideal) m c : S4x2048x1024.Idx → EReal) (ix3 b s e) = _ from h1).trans ?_
  -- the two online steps are the soft-max over all positions
  have hreal : ∀ i, ∃ x : ℝ, Q6 i = (x : EReal) := fun i => QkvValue.qkv_real m c hpre Q6 hQ i
  refine (FlashValue.outBlock_apply (Reg1Value.qTile Q6 b qi) (Reg1Value.kTile Q6 b 0) (Reg1Value.kTile Q6 b 1)
    (Reg1Value.vTile Q6 b 0) (Reg1Value.vTile Q6 b 1) (Reg1Value.mTile M9 b qi 0) (Reg1Value.mTile M9 b qi 1) W7 B8
    (fun i => hreal _) (fun i => hreal _) (fun i => hreal _) (fun i => hreal _) (fun i => hreal _) r e).trans ?_
  -- each argument of the row is the specification's
  have e1 : (fun d : Fin 1024 => Reg1Value.qTile Q6 b qi (ix3 (0 : Fin 1) r d))
      = Cert.AttnSpec.projRow (fun d => m ((c : Thread nD τ).loc main_arg0) (ix3 b s d)) (fun d e => m ((c : Thread nD τ).loc main_arg2) (ix2 d e)) (fun e => m ((c : Thread nD τ).loc main_arg3) (ix1 e)) :=
    funext fun d => (Reg1Value.qTile_apply Q6 b qi 0 r d s (⟨d.val, by have := d.isLt; omega⟩ : Fin 3072) hsr rfl).trans
      (QkvValue.qkv_q m c Q6 hQ b s d _ rfl)
  have e2 : (fun (j : Fin 2048) (d : Fin 1024) => if h : j.val < 1024 then Reg1Value.kTile Q6 b 0 (ix3 (0 : Fin 1) ⟨j.val, h⟩ d)
        else Reg1Value.kTile Q6 b 1 (ix3 (0 : Fin 1) ⟨j.val - 1024, by have := j.isLt; omega⟩ d))
      = fun k => Cert.AttnSpec.projRow (fun d => m ((c : Thread nD τ).loc main_arg0) (ix3 b k d)) (fun d e => m ((c : Thread nD τ).loc main_arg4) (ix2 d e)) (fun e => m ((c : Thread nD τ).loc main_arg5) (ix1 e)) :=
    funext fun j => funext fun d => by
      have hj := j.isLt; have hd := d.isLt
      split_ifs with h
      · exact (Reg1Value.kTile_apply Q6 b 0 0 ⟨j.val, h⟩ d j (⟨1024 + d.val, by omega⟩ : Fin 3072) (by show j.val = 1024 * 0 + j.val; omega) rfl).trans
          (QkvValue.qkv_k m c Q6 hQ b j d _ rfl)
      · exact (Reg1Value.kTile_apply Q6 b 1 0 ⟨j.val - 1024, by omega⟩ d j (⟨1024 + d.val, by omega⟩ : Fin 3072) (by show j.val = 1024 * 1 + (j.val - 1024); omega) rfl).trans
          (QkvValue.qkv_k m c Q6 hQ b j d _ rfl)
  have e3 : (fun (j : Fin 2048) (d : Fin 1024) => if h : j.val < 1024 then Reg1Value.vTile Q6 b 0 (ix3 (0 : Fin 1) ⟨j.val, h⟩ d)
        else Reg1Value.vTile Q6 b 1 (ix3 (0 : Fin 1) ⟨j.val - 1024, by have := j.isLt; omega⟩ d))
      = fun k => Cert.AttnSpec.projRow (fun d => m ((c : Thread nD τ).loc main_arg0) (ix3 b k d)) (fun d e => m ((c : Thread nD τ).loc main_arg6) (ix2 d e)) (fun e => m ((c : Thread nD τ).loc main_arg7) (ix1 e)) :=
    funext fun j => funext fun d => by
      have hj := j.isLt; have hd := d.isLt
      split_ifs with h
      · exact (Reg1Value.vTile_apply Q6 b 0 0 ⟨j.val, h⟩ d j (⟨2048 + d.val, by omega⟩ : Fin 3072) (by show j.val = 1024 * 0 + j.val; omega) rfl).trans
          (QkvValue.qkv_v m c Q6 hQ b j d _ rfl)
      · exact (Reg1Value.vTile_apply Q6 b 1 0 ⟨j.val - 1024, by omega⟩ d j (⟨2048 + d.val, by omega⟩ : Fin 3072) (by show j.val = 1024 * 1 + (j.val - 1024); omega) rfl).trans
          (QkvValue.qkv_v m c Q6 hQ b j d _ rfl)
  have e4 : (fun j : Fin 2048 => if h : j.val < 1024 then decide (Reg1Value.mTile M9 b qi 0 (ix3 (0 : Fin 1) r ⟨j.val, h⟩) ≠ 0#32)
        else decide (Reg1Value.mTile M9 b qi 1 (ix3 (0 : Fin 1) r ⟨j.val - 1024, by have := j.isLt; omega⟩) ≠ 0#32))
      = fun k => decide (m ((c : Thread nD τ).loc main_arg1) (ix3 b s k) = 1#1) :=
    funext fun j => by
      have hj := j.isLt
      split_ifs with h
      · rw [Reg1Value.mTile_apply M9 b qi 0 0 r ⟨j.val, h⟩ s j hsr (by show j.val = 1024 * 0 + j.val; omega)]
        exact decide_eq_decide.mpr (HostRead.M9_apply m (Frames.outsA m) c M9 hM b s j)
      · rw [Reg1Value.mTile_apply M9 b qi 1 0 r ⟨j.val - 1024, by omega⟩ s j hsr (by show j.val = 1024 * 1 + (j.val - 1024); omega)]
        exact decide_eq_decide.mpr (HostRead.M9_apply m (Frames.outsA m) c M9 hM b s j)
  have e5 : (fun (d e' : Fin 1024) => W7 (ix2 d e')) = fun d e => m ((c : Thread nD τ).loc main_arg8) (ix2 d e) :=
    funext fun d => funext fun e' => HostRead.W7_apply m (Frames.outsA m) c W7 hW d e'
  have e6 : (fun e' : Fin 1024 => B8 (ix2 (0 : Fin 1) e')) = fun e => m ((c : Thread nD τ).loc main_arg9) (ix1 e) :=
    funext fun e' => HostRead.B8_apply m (Frames.outsA m) c B8 hB e'
  rw [e1, e2, e3, e4, e5, e6]
  rfl

end Cert.KernelIdeal.Bridge

end
-- ==== Proof.RefProj.lean ====
/-
  The three projections of the reference, read at an index, and the constants it uses.

  Each projection is a contraction of the input's last axis against a weight matrix's first axis, plus a bias vector
  broadcast along the batch and position axes: at batch `b`, position `s`, feature `e` it is
  `(∑ d, X[b,s,d] · W[d,e]) + bias[e]`, the row `projRow` of the specification.
  The constants: the word 0x44800000 denotes the real 1024, whose square root is the real 32, so dividing by it is
  multiplying by 1/32 for EVERY extended real (the reciprocal of a nonzero real is a real: no case at the infinities);
  the word 0xFF800000 denotes `⊥`, the neutral element of `max`.
-/
import proofs.«100896_j48627619725380_2_alg».proof.Proof.Gen.ReferenceIdeal.Read
import proofs.«100896_j48627619725380_2_alg».proof.Proof.AttnSpec

noncomputable section

namespace Cert.ReferenceIdeal.RefValue

open Cert.ReferenceIdeal Cert.ReferenceIdeal.Read Idealize.ShloMosaic Idealize.ShloMosaic.ValueIdx

/-! ## Constants -/

/-- The word 0x44800000 is the real 1024 (exponent field 137, no fraction: 2^23 · 2^(137 − 127 − 23) = 2^10). -/
theorem ofBits_1024 : Ideal.ofBits .f32 0x44800000#32 = ((1024 : ℝ) : EReal) := by
  simp [Ideal.ofBits, Ideal.ieee, -EReal.coe_mul]; norm_num

/-- The word 0xFF800000 is minus infinity. -/
theorem ofBits_negInf : Ideal.ofBits .f32 0xFF800000#32 = (⊥ : EReal) := by
  simp [Ideal.ofBits, Ideal.ieee]

/-- 1024 = 32², so its square root is 32. -/
theorem sqrt_1024 : Ideal.sqrt ((1024 : ℝ) : EReal) = ((32 : ℝ) : EReal) := by
  rw [Ideal.sqrt_coe, if_neg (by norm_num)]
  have h : Real.sqrt 1024 = 32 := by
    rw [show (1024 : ℝ) = 32 ^ 2 by norm_num]
    exact Real.sqrt_sq (by norm_num)
  rw [h]

/-- Dividing by the square root of the constant 1024 is multiplying by 1/32, for every extended real. -/
theorem div_sqrt_1024 (x : EReal) :
    Ideal.div x (Ideal.sqrt (Ideal.ofBits .f32 0x44800000#32)) = x * ((1 / 32 : ℝ) : EReal) := by
  rw [ofBits_1024, sqrt_1024]
  exact Ideal.div_coe (by norm_num) x

/-! ## The projections -/

/-- The query projection at (b, s, e) is the row `X[b,s,·]·Wq + bq` at `e`. -/
theorem projQ_apply (x0 : (⟨S4x2048x1024, .f32⟩ : BufTy).Contents (Elt Ideal)) (x2 : (⟨S1024x1024, .f32⟩ : BufTy).Contents (Elt Ideal))
    (x3 : (⟨S1024, .f32⟩ : BufTy).Contents (Elt Ideal)) (b : Fin 4) (s : Fin 2048) (e : Fin 1024) :
    val_main_v3 (F := Ideal) x0 x2 x3 (ix3 b s e)
      = Cert.AttnSpec.projRow (fun d => x0 (ix3 b s d)) (fun d e => x2 (ix2 d e)) (fun e => x3 (ix1 e)) e := by
  have hl : ∀ k : Fin 1024, lidx_main_v0 (ix3 b s e) k = ix3 b s k := fun k => funext fun a => Fin.ext (by
    match a with | ⟨0, _⟩ => rfl | ⟨1, _⟩ => rfl | ⟨2, _⟩ => rfl)
  have hr : ∀ k : Fin 1024, ridx_main_v0 (ix3 b s e) k = ix2 k e := fun k => funext fun a => Fin.ext (by
    match a with | ⟨0, _⟩ => rfl | ⟨1, _⟩ => rfl)
  have hb : idx_main_v1 (idx_main_v2 (ix3 b s e)) = ix1 e := funext fun a => Fin.ext (by
    match a with | ⟨0, _⟩ => rfl)
  rw [val_main_v3_apply, val_main_v0_apply, val_main_v2_apply, val_main_v1_apply]
  simp only [hl, hr, hb, Ideal.addf_def]
  rfl

/-- The key projection at (b, s, e) is the row `X[b,s,·]·Wk + bk` at `e`. -/
theorem projK_apply (x0 : (⟨S4x2048x1024, .f32⟩ : BufTy).Contents (Elt Ideal)) (x4 : (⟨S1024x1024, .f32⟩ : BufTy).Contents (Elt Ideal))
    (x5 : (⟨S1024, .f32⟩ : BufTy).Contents (Elt Ideal)) (b : Fin 4) (s : Fin 2048) (e : Fin 1024) :
    val_main_v7 (F := Ideal) x0 x4 x5 (ix3 b s e)
      = Cert.AttnSpec.projRow (fun d => x0 (ix3 b s d)) (fun d e => x4 (ix2 d e)) (fun e => x5 (ix1 e)) e := by
  have hl : ∀ k : Fin 1024, lidx_main_v4 (ix3 b s e) k = ix3 b s k := fun k => funext fun a => Fin.ext (by
    match a with | ⟨0, _⟩ => rfl | ⟨1, _⟩ => rfl | ⟨2, _⟩ => rfl)
  have hr : ∀ k : Fin 1024, ridx_main_v4 (ix3 b s e) k = ix2 k e := fun k => funext fun a => Fin.ext (by
    match a with | ⟨0, _⟩ => rfl | ⟨1, _⟩ => rfl)
  have hb : idx_main_v5 (idx_main_v6 (ix3 b s e)) = ix1 e := funext fun a => Fin.ext (by
    match a with | ⟨0, _⟩ => rfl)
  rw [val_main_v7_apply, val_main_v4_apply, val_main_v6_apply, val_main_v5_apply]
  simp only [hl, hr, hb, Ideal.addf_def]
  rfl

/-- The value projection at (b, s, e) is the row `X[b,s,·]·Wv + bv` at `e`. -/
theorem projV_apply (x0 : (⟨S4x2048x1024, .f32⟩ : BufTy).Contents (Elt Ideal)) (x6 : (⟨S1024x1024, .f32⟩ : BufTy).Contents (Elt Ideal))
    (x7 : (⟨S1024, .f32⟩ : BufTy).Contents (Elt Ideal)) (b : Fin 4) (s : Fin 2048) (e : Fin 1024) :
    val_main_v11 (F := Ideal) x0 x6 x7 (ix3 b s e)
      = Cert.AttnSpec.projRow (fun d => x0 (ix3 b s d)) (fun d e => x6 (ix2 d e)) (fun e => x7 (ix1 e)) e := by
  have hl : ∀ k : Fin 1024, lidx_main_v8 (ix3 b s e) k = ix3 b s k := fun k => funext fun a => Fin.ext (by
    match a with | ⟨0, _⟩ => rfl | ⟨1, _⟩ => rfl | ⟨2, _⟩ => rfl)
  have hr : ∀ k : Fin 1024, ridx_main_v8 (ix3 b s e) k = ix2 k e := fun k => funext fun a => Fin.ext (by
    match a with | ⟨0, _⟩ => rfl | ⟨1, _⟩ => rfl)
  have hb : idx_main_v9 (idx_main_v10 (ix3 b s e)) = ix1 e := funext fun a => Fin.ext (by
    match a with | ⟨0, _⟩ => rfl)
  rw [val_main_v11_apply, val_main_v8_apply, val_main_v10_apply, val_main_v9_apply]
  simp only [hl, hr, hb, Ideal.addf_def]
  rfl

end Cert.ReferenceIdeal.RefValue

end
-- ==== Proof.RefScore.lean ====
/-
  The reference's masked, scaled scores, read at an index.

  At batch `b`, query position `q`, key position `k` the reference contracts the query projection's row (b, q) with the
  key projection's row (b, k) over the 1024 features, divides by the square root of the constant 1024, and where the
  mask bit at (b, q, k) is set replaces the quotient by the fill constant. Dividing by √1024 = 32 is multiplying by
  1/32 on every extended real (`div_sqrt_1024`), so this is the specification's `score` of the two projection rows.
-/
import proofs.«100896_j48627619725380_2_alg».proof.Proof.Gen.ReferenceIdeal.Read
import proofs.«100896_j48627619725380_2_alg».proof.Proof.AttnSpec
import proofs.«100896_j48627619725380_2_alg».proof.Proof.RefProj

noncomputable section

namespace Cert.ReferenceIdeal.RefValue

open Cert.ReferenceIdeal Cert.ReferenceIdeal.Gen Cert.ReferenceIdeal.Read Idealize.ShloMosaic Idealize.ShloMosaic.ValueIdx

/-- The score stage at (b, q, k), over the query and key projection stages. -/
theorem score_stage_apply (x0 : (⟨S4x2048x1024, .f32⟩ : BufTy).Contents (Elt Ideal)) (x1 : (⟨S4x2048x2048, .i1⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (b : Fin 4) (q k : Fin 2048) :
    val_main_v16 (F := Ideal) x0 x1 x2 x3 x4 x5 (ix3 b q k)
      = Cert.AttnSpec.score (Ideal.ofBits .f32 0x1E3CE508#32)
          (fun d => val_main_v3 (F := Ideal) x0 x2 x3 (ix3 b q d))
          (fun k d => val_main_v7 (F := Ideal) x0 x4 x5 (ix3 b k d))
          (fun k => decide (x1 (ix3 b q k) = 1#1)) k := by
  have hl : ∀ d : Fin 1024, lidx_main_v12 (ix3 b q k) d = ix3 b q d := fun d => funext fun a => Fin.ext (by
    match a with | ⟨0, _⟩ => rfl | ⟨1, _⟩ => rfl | ⟨2, _⟩ => rfl)
  have hr : ∀ d : Fin 1024, ridx_main_v12 (ix3 b q k) d = ix3 b k d := fun d => funext fun a => Fin.ext (by
    match a with | ⟨0, _⟩ => rfl | ⟨1, _⟩ => rfl | ⟨2, _⟩ => rfl)
  rw [val_main_v16_apply, val_main_call0_v0_apply, val_main_cst_0_apply, val_main_v15_apply, val_main_v12_apply,
    val_main_v14_apply, val_main_v13_apply, val_main_cst_apply]
  simp only [hl, hr, Ideal.hostDivf_def, Ideal.hostUnary_sqrt_def, Ideal.ofBits_def, div_sqrt_1024]
  unfold Cert.AttnSpec.score Scalar.select
  simp only [decide_eq_true_eq]
  rfl

/-- The score stage at (b, q, k) is the specification's score of the query row (b, q) against the key rows of batch `b`
    under the mask bits of row (b, q). -/
theorem score_apply (x0 : (⟨S4x2048x1024, .f32⟩ : BufTy).Contents (Elt Ideal)) (x1 : (⟨S4x2048x2048, .i1⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (b : Fin 4) (q k : Fin 2048) :
    val_main_v16 (F := Ideal) x0 x1 x2 x3 x4 x5 (ix3 b q k)
      = Cert.AttnSpec.score (Ideal.ofBits .f32 0x1E3CE508#32)
          (Cert.AttnSpec.projRow (fun d => x0 (ix3 b q d)) (fun d e => x2 (ix2 d e)) (fun e => x3 (ix1 e)))
          (fun k => Cert.AttnSpec.projRow (fun d => x0 (ix3 b k d)) (fun d e => x4 (ix2 d e)) (fun e => x5 (ix1 e)))
          (fun k => decide (x1 (ix3 b q k) = 1#1)) k := by
  rw [score_stage_apply]
  simp only [projQ_apply, projK_apply]

end Cert.ReferenceIdeal.RefValue

end
-- ==== Proof.RefSoftmax.lean ====
/-
  The reference's soft-max of each row of scores, read at an index, over the score stage kept as one array.

  For the row (b, q) of 2048 scores: the maximum is the host's max-reduce over the last axis from the constant −∞,
  then once more `max` with −∞ (the neutral element: `max ⊥ x = x`), which is the fold of `max` from `⊥` over the
  row; the shifted exponentials `exp (s k − max)`; their sum, the host's add-reduce from the constant 0 (`0 + Σ`);
  and the quotient of each exponential by that sum. No law beyond `max ⊥ x = x` and `0 + x = x` is used: the
  specification is written in the reference's own arrangement.
-/
import proofs.«100896_j48627619725380_2_alg».proof.Proof.Gen.ReferenceIdeal.Read
import proofs.«100896_j48627619725380_2_alg».proof.Proof.AttnSpec
import proofs.«100896_j48627619725380_2_alg».proof.Proof.RefProj

noncomputable section

namespace Cert.ReferenceIdeal.RefValue

open Cert.ReferenceIdeal Cert.ReferenceIdeal.Gen Cert.ReferenceIdeal.Read Idealize.ShloMosaic Idealize.ShloMosaic.ValueIdx

/-- The reduced index (b, q) with `k` put back on the last axis is (b, q, k). -/
theorem lift_row (h : S4x2048x2048.Reduces [2] S4x2048) (b : Fin 4) (q : Fin 2048) (k : Fin (S4x2048x2048.size 2)) :
    h.lift (ix2 b q) k = ix3 b q (⟨k.val, k.isLt⟩ : Fin 2048) := by
  funext c; apply Fin.ext
  fin_cases c <;> rfl

/-- The host's max-reduce over the last axis from −∞, at (b, q), is the fold of `max` from `⊥` over the row. -/
theorem hostMax_row (y : (⟨S4x2048x2048, .f32⟩ : BufTy).Contents (Elt Ideal)) (b : Fin 4) (q : Fin 2048) :
    (Host.reduce (FloatOps.maximumf (F := Ideal) (φ := .f32)) y (constant (F := Ideal) S_ .f32 0xFF800000#32) reducesTo_S4x2048x2048_S4x2048_d2 h_S_
        : (⟨S4x2048, .f32⟩ : BufTy).Contents (Elt Ideal)) (ix2 b q)
      = Cert.AttnSpec.rowMax (fun k => y (ix3 b q k)) := by
  have h : S4x2048x2048.Reduces [2] S4x2048 := by decide
  rw [Host.reduce_eq_fold_single (FloatOps.maximumf (F := Ideal) (φ := .f32)) y _ reducesTo_S4x2048x2048_S4x2048_d2 h h_S_]
  have hf : (y ∘ h.lift (ix2 b q)) = fun k : Fin 2048 => y (ix3 b q k) := funext fun k => congrArg y (lift_row h b q k)
  unfold Cert.AttnSpec.rowMax
  show Finset.fold max (Ideal.ofBits .f32 0xFF800000#32) (y ∘ h.lift (ix2 b q)) (Finset.univ : Finset (Fin 2048)) = _
  rw [hf, ofBits_negInf]
  rfl

/-- The row-maximum stage at (b, q) is the largest score of the row. -/
theorem rowMax_apply (x0 : (⟨S4x2048x1024, .f32⟩ : BufTy).Contents (Elt Ideal)) (x1 : (⟨S4x2048x2048, .i1⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (b : Fin 4) (q : Fin 2048) :
    val_main_v19 (F := Ideal) x0 x1 x2 x3 x4 x5 (ix2 b q)
      = Cert.AttnSpec.rowMax (fun k => val_main_v16 (F := Ideal) x0 x1 x2 x3 x4 x5 (ix3 b q k)) := by
  rw [val_main_v19_apply, val_main_v18_apply, val_main_cst_2_apply]
  unfold val_main_v17 val_main_cst_1
  generalize val_main_v16 (F := Ideal) x0 x1 x2 x3 x4 x5 = y
  refine (congrArg (FloatOps.maximumf (F := Ideal) (FloatOps.ofBits .f32 0xFF800000#32)) (hostMax_row y b q)).trans ?_
  show max (Ideal.ofBits .f32 0xFF800000#32) _ = _
  rw [ofBits_negInf]
  exact max_bot_left _

/-- The exponential stage at (b, q, k) is the shifted exponential of the row's score `k`. -/
theorem exp_apply (x0 : (⟨S4x2048x1024, .f32⟩ : BufTy).Contents (Elt Ideal)) (x1 : (⟨S4x2048x2048, .i1⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (b : Fin 4) (q k : Fin 2048) :
    val_main_v23 (F := Ideal) x0 x1 x2 x3 x4 x5 (ix3 b q k)
      = Cert.AttnSpec.expRow (fun k => val_main_v16 (F := Ideal) x0 x1 x2 x3 x4 x5 (ix3 b q k)) k := by
  have hi : idx_main_v20 (idx_main_v21 (ix3 b q k)) = ix2 b q := funext fun a => Fin.ext (by
    match a with | ⟨0, _⟩ => rfl | ⟨1, _⟩ => rfl)
  rw [val_main_v23_apply, val_main_v22_apply, val_main_v21_apply, val_main_v20_apply, hi, rowMax_apply]
  rfl

/-- The sum stage at (b, q) is the sum of the row's shifted exponentials. -/
theorem expSum_apply (x0 : (⟨S4x2048x1024, .f32⟩ : BufTy).Contents (Elt Ideal)) (x1 : (⟨S4x2048x2048, .i1⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (b : Fin 4) (q : Fin 2048) :
    val_main_v24 (F := Ideal) x0 x1 x2 x3 x4 x5 (ix2 b q)
      = ∑ j : Fin 2048, Cert.AttnSpec.expRow (fun k => val_main_v16 (F := Ideal) x0 x1 x2 x3 x4 x5 (ix3 b q k)) j := by
  have hi : ∀ j : Fin 2048, idx_main_v24 (ix2 b q) j = ix3 b q j := fun j => funext fun a => Fin.ext (by
    match a with | ⟨0, _⟩ => rfl | ⟨1, _⟩ => rfl | ⟨2, _⟩ => rfl)
  rw [val_main_v24_apply, val_main_cst_3_apply]
  simp only [hi, exp_apply, Ideal.ofBits_def, Ideal.ofBits_zero_f32, zero_add]

/-- The quotient stage at (b, q, k) is the soft-max weight of the row's score `k`. -/
theorem softmax_apply (x0 : (⟨S4x2048x1024, .f32⟩ : BufTy).Contents (Elt Ideal)) (x1 : (⟨S4x2048x2048, .i1⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (b : Fin 4) (q k : Fin 2048) :
    val_main_v27 (F := Ideal) x0 x1 x2 x3 x4 x5 (ix3 b q k)
      = Cert.AttnSpec.softmaxRow (fun k => val_main_v16 (F := Ideal) x0 x1 x2 x3 x4 x5 (ix3 b q k)) k := by
  have hi : idx_main_v25 (idx_main_v26 (ix3 b q k)) = ix2 b q := funext fun a => Fin.ext (by
    match a with | ⟨0, _⟩ => rfl | ⟨1, _⟩ => rfl)
  rw [val_main_v27_apply, val_main_v26_apply, val_main_v25_apply, hi, exp_apply, expSum_apply]
  rfl

end Cert.ReferenceIdeal.RefValue

end
-- ==== Proof.RefValue.lean ====
/-
  The reference program's result, read index by index, is the layer of `AttnSpec`.

  The last three stages: the context at (b, q, d) contracts the row (b, q) of soft-max weights with the value
  projection's column d over the 2048 key positions; the output projection contracts the context row with the output
  weights and adds the output bias. Composing the stages — projections, scores, soft-max, context, output — gives the
  specification's `out` at every (b, s, e), with the fill constant 0x1E3CE508 kept as a word (never evaluated) and a
  mask bit read as "the bit is 1". No finiteness of any input is used.
-/
import proofs.«100896_j48627619725380_2_alg».proof.Proof.Gen.ReferenceIdeal.Read
import proofs.«100896_j48627619725380_2_alg».proof.Proof.AttnSpec
import proofs.«100896_j48627619725380_2_alg».proof.Proof.RefProj
import proofs.«100896_j48627619725380_2_alg».proof.Proof.RefScore
import proofs.«100896_j48627619725380_2_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx

/-- The context stage at (b, q, d): the soft-max weights of row (b, q) against column `d` of the value projection. -/
theorem ctx_apply (x0 : (⟨S4x2048x1024, .f32⟩ : BufTy).Contents (Elt Ideal)) (x1 : (⟨S4x2048x2048, .i1⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (b : Fin 4) (q : Fin 2048) (d : Fin 1024) :
    val_main_v28 (F := Ideal) x0 x1 x2 x3 x4 x5 x6 x7 (ix3 b q d)
      = Cert.AttnSpec.ctxRow (fun k => val_main_v16 (F := Ideal) x0 x1 x2 x3 x4 x5 (ix3 b q k))
          (fun k d => val_main_v11 (F := Ideal) x0 x6 x7 (ix3 b k d)) d := by
  have hl : ∀ k : Fin 2048, lidx_main_v28 (ix3 b q d) k = ix3 b q k := fun k => funext fun a => Fin.ext (by
    match a with | ⟨0, _⟩ => rfl | ⟨1, _⟩ => rfl | ⟨2, _⟩ => rfl)
  have hr : ∀ k : Fin 2048, ridx_main_v28 (ix3 b q d) k = ix3 b k d := fun k => funext fun a => Fin.ext (by
    match a with | ⟨0, _⟩ => rfl | ⟨1, _⟩ => rfl | ⟨2, _⟩ => rfl)
  rw [val_main_v28_apply]
  simp only [hl, hr, softmax_apply]
  rfl

/-- The last stage at (b, s, e): the output projection of the context row (b, s). -/
theorem outProj_apply (x0 : (⟨S4x2048x1024, .f32⟩ : BufTy).Contents (Elt Ideal)) (x1 : (⟨S4x2048x2048, .i1⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (b : Fin 4) (s : Fin 2048) (e : Fin 1024) :
    val_main_v32 (F := Ideal) x0 x1 x2 x3 x4 x5 x6 x7 x8 x9 (ix3 b s e)
      = Cert.AttnSpec.projRow (fun d => val_main_v28 (F := Ideal) x0 x1 x2 x3 x4 x5 x6 x7 (ix3 b s d))
          (fun d e => x8 (ix2 d e)) (fun e => x9 (ix1 e)) e := by
  have hl : ∀ k : Fin 1024, lidx_main_v29 (ix3 b s e) k = ix3 b s k := fun k => funext fun a => Fin.ext (by
    match a with | ⟨0, _⟩ => rfl | ⟨1, _⟩ => rfl | ⟨2, _⟩ => rfl)
  have hr : ∀ k : Fin 1024, ridx_main_v29 (ix3 b s e) k = ix2 k e := fun k => funext fun a => Fin.ext (by
    match a with | ⟨0, _⟩ => rfl | ⟨1, _⟩ => rfl)
  have hb : idx_main_v30 (idx_main_v31 (ix3 b s e)) = ix1 e := funext fun a => Fin.ext (by
    match a with | ⟨0, _⟩ => rfl)
  rw [val_main_v32_apply, val_main_v29_apply, val_main_v31_apply, val_main_v30_apply]
  simp only [hl, hr, hb, Ideal.addf_def]
  rfl

/-- The reference's last stage, over arbitrary argument arrays, is the specification at every index. -/
theorem val_eq_spec (x0 : (⟨S4x2048x1024, .f32⟩ : BufTy).Contents (Elt Ideal)) (x1 : (⟨S4x2048x2048, .i1⟩ : BufTy).Contents (Elt Ideal)) (x2 : (⟨S1024x1024, .f32⟩ : BufTy).Contents (Elt Ideal)) (x3 : (⟨S1024, .f32⟩ : BufTy).Contents (Elt Ideal)) (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal)) (x8 : (⟨S1024x1024, .f32⟩ : BufTy).Contents (Elt Ideal)) (x9 : (⟨S1024, .f32⟩ : BufTy).Contents (Elt Ideal)) (b : Fin 4) (s : Fin 2048) (e : Fin 1024) :
    val_main_v32 (F := Ideal) x0 x1 x2 x3 x4 x5 x6 x7 x8 x9 (ix3 b s e)
      = Cert.AttnSpec.out (Ideal.ofBits .f32 0x1E3CE508#32)
          (fun b s d => x0 (ix3 b s d))
          (fun b q k => decide (x1 (ix3 b q k) = 1#1))
          (fun d e => x2 (ix2 d e)) (fun e => x3 (ix1 e))
          (fun d e => x4 (ix2 d e)) (fun e => x5 (ix1 e))
          (fun d e => x6 (ix2 d e)) (fun e => x7 (ix1 e))
          (fun d e => x8 (ix2 d e)) (fun e => x9 (ix1 e))
          b s e := by
  rw [outProj_apply]
  simp only [ctx_apply, score_apply, projV_apply]
  rfl

/-- The reference's result at (b, s, e), from any launch memory, is the specification of the ten argument arrays. -/
theorem res_eq_spec (m : (ℓ : Loc nD τ sig) → Buf (Elt Ideal) ℓ) (c : Dev nD)
    (b : Fin 4) (s : Fin 2048) (e : Fin 1024) :
    Cert.ReferenceIdeal.Value.res_out0 (F := Ideal) m c (ix3 b s e)
      = Cert.AttnSpec.out (Ideal.ofBits .f32 0x1E3CE508#32)
          (fun b s d => m ((c.tc : Thread nD τ).loc main_arg0) (ix3 b s d))
          (fun b q k => decide (m ((c.tc : Thread nD τ).loc main_arg1) (ix3 b q k) = 1#1))
          (fun d e => m ((c.tc : Thread nD τ).loc main_arg2) (ix2 d e)) (fun e => m ((c.tc : Thread nD τ).loc main_arg3) (ix1 e))
          (fun d e => m ((c.tc : Thread nD τ).loc main_arg4) (ix2 d e)) (fun e => m ((c.tc : Thread nD τ).loc main_arg5) (ix1 e))
          (fun d e => m ((c.tc : Thread nD τ).loc main_arg6) (ix2 d e)) (fun e => m ((c.tc : Thread nD τ).loc main_arg7) (ix1 e))
          (fun d e => m ((c.tc : Thread nD τ).loc main_arg8) (ix2 d e)) (fun e => m ((c.tc : Thread nD τ).loc main_arg9) (ix1 e))
          b s e := by
  show Cert.ReferenceIdeal.Value.res_main_v32 (F := Ideal) m c (ix3 b s e) = _
  rw [val_main_v32_eq]
  exact val_eq_spec _ _ _ _ _ _ _ _ _ _ b s e

/-- The same as an equation of whole arrays: every index of the result is (i 0, i 1, i 2). -/
theorem res_eq_spec_fun (m : (ℓ : Loc nD τ sig) → Buf (Elt Ideal) ℓ) (c : Dev nD) :
    (Cert.ReferenceIdeal.Value.res_out0 (F := Ideal) m c : S4x2048x1024.Idx → EReal)
      = fun i : S4x2048x1024.Idx => Cert.AttnSpec.out (Ideal.ofBits .f32 0x1E3CE508#32)
          (fun b s d => m ((c.tc : Thread nD τ).loc main_arg0) (ix3 b s d))
          (fun b q k => decide (m ((c.tc : Thread nD τ).loc main_arg1) (ix3 b q k) = 1#1))
          (fun d e => m ((c.tc : Thread nD τ).loc main_arg2) (ix2 d e)) (fun e => m ((c.tc : Thread nD τ).loc main_arg3) (ix1 e))
          (fun d e => m ((c.tc : Thread nD τ).loc main_arg4) (ix2 d e)) (fun e => m ((c.tc : Thread nD τ).loc main_arg5) (ix1 e))
          (fun d e => m ((c.tc : Thread nD τ).loc main_arg6) (ix2 d e)) (fun e => m ((c.tc : Thread nD τ).loc main_arg7) (ix1 e))
          (fun d e => m ((c.tc : Thread nD τ).loc main_arg8) (ix2 d e)) (fun e => m ((c.tc : Thread nD τ).loc main_arg9) (ix1 e))
          (i 0) (i 1) (i 2) := by
  funext i
  obtain ⟨b, s, e, rfl⟩ : ∃ (b : Fin 4) (s : Fin 2048) (e : Fin 1024), i = ix3 b s e := ⟨i 0, i 1, i 2, eq_ix3 i⟩
  exact res_eq_spec m c b s e

end Cert.ReferenceIdeal.RefValue

end
-- ==== Proof.lean ====
/-
  The certificate: a fused single-head self-attention layer (three projections computed by one matrix product, a
  two-tile online soft-max with the output projection fused into its last step) against the plain formulation
  (three projections, scores, soft-max, context, output projection).

  At the exact-real reading both compute, row by row, `softmax(q·Kᵀ/32 with masked scores replaced by a fill value)·V·Wo + bo`
  with `q, K, V` the projections of the input: the kernel's `1/32` factor is the reference's division by `√1024`; an online
  soft-max over two key tiles is the soft-max over all keys because every score is a finite real under the precondition;
  rounding to a narrower format is the identity.  The frames come from the program's run through its two kernel regions;
  the idealized program is the printed one read at the exact reals (no rewrite), so nothing is to be preserved.
-/
import proofs.«100896_j48627619725380_2_alg».proof.Defs
import proofs.«100896_j48627619725380_2_alg».proof.Proof.Gen.Kernel
import proofs.«100896_j48627619725380_2_alg».proof.Proof.Gen.KernelIdeal
import proofs.«100896_j48627619725380_2_alg».proof.Proof.Gen.ReferenceIdeal
import proofs.«100896_j48627619725380_2_alg».proof.Proof.Gen.Pre_finite_inputs
import proofs.«100896_j48627619725380_2_alg».proof.Proof.Gen.ReferenceIdeal.Run
import proofs.«100896_j48627619725380_2_alg».proof.Proof.FramesB
import proofs.«100896_j48627619725380_2_alg».proof.Proof.KernelRun
import proofs.«100896_j48627619725380_2_alg».proof.Proof.Bridge
import proofs.«100896_j48627619725380_2_alg».proof.Proof.RefValue
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel (hKernel := Cert.Kernel.Gen.facts) (hPre_finite_inputs := Cert.Pre_finite_inputs.Gen.facts) :=
  fun m ρ _ => Cert.Kernel.Frames.frame (F := Bits) m ρ

/-- So does the program read at the exact reals. -/
theorem frame_ki : Cert.frame_KernelIdeal (hKernelIdeal := Cert.KernelIdeal.Gen.facts) (hPre_finite_inputs := Cert.Pre_finite_inputs.Gen.facts) :=
  fun m ρ _ => Cert.KernelIdeal.Frames.frame (F := Ideal) m ρ

/-- The reference is a straight line of host operations: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Read at the exact reals from memories that agree on the arguments, both programs end with the same result array: the
    kernel program's is what its attention region leaves, the reference's its composed term; entry by entry both are
    the specification's entry of the argument arrays. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Frames.X10 (F := Ideal) m c, Cert.KernelIdeal.KernelRun.run_value (F := Ideal) m ρ, ?_⟩
  refine (θ_run Cert.ReferenceIdeal.defs _ _).mono (fun _ h c => ⟨(h c).1.trans ?_, (h c).2⟩)
    (Cert.ReferenceIdeal.Value.run (F := Ideal) m' ρ')
  funext i
  obtain ⟨b, s, e, rfl⟩ : ∃ (b : Fin 4) (s : Fin 2048) (e : Fin 1024), i = ValueIdx.ix3 b s e := ⟨i 0, i 1, i 2, ValueIdx.eq_ix3 i⟩
  refine (Cert.ReferenceIdeal.RefValue.res_eq_spec m' c b s e).trans ?_
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2]
  exact (Cert.KernelIdeal.Bridge.kernel_value m c hpre b s e).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
